-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x247 : Shape := ⟨2, ![256, 247]⟩
abbrev S247 : Shape := ⟨1, ![247]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x247 : S_.BroadcastsInDim S256x247 (![] : Fin 0 → Fin S256x247.rank)
  reducesTo_S256x247_S_d0_1 : S256x247.ReducesTo [0, 1] S_
  bcast_S_S247 : S_.BroadcastsInDim S247 (![] : Fin 0 → Fin S247.rank)
  reducesTo_S247_S_d0 : S247.ReducesTo [0] S_

variable [Facts]

def fn_part2 {F : FTy → Type} [FloatOps F] (main_arg9 : FVec F S256x247 .f32) (main_arg10 : FVec F S247 .f32) (main_v33 : IVec S_ 1) : IVec S_ 1 :=
  let main_v34 : FVec F S256x247 .f32 := Host.absf main_arg9
  let main_cst_12 : FVec F S_ .f32 := constant S_ .f32 0x7F800000#32
  let main_v35 : FVec F S256x247 .f32 := broadcastInDim S256x247 ![] bcast_S_S256x247 main_cst_12
  let main_v36 : IVec S256x247 1 := cmpf .olt main_v34 main_v35
  let main_c_13 : IVec S_ 1 := constantI S_ 1 1#1
  let main_v37 : IVec S_ 1 := (fun x v => Host.reduce IntOp.andi x v reducesTo_S256x247_S_d0_1 h_S_) main_v36 main_c_13
  let main_v38 : IVec S_ 1 := andi main_v33 main_v37
  let main_v39 : FVec F S247 .f32 := Host.absf main_arg10
  let main_cst_14 : FVec F S_ .f32 := constant S_ .f32 0x7F800000#32
  let main_v40 : FVec F S247 .f32 := broadcastInDim S247 ![] bcast_S_S247 main_cst_14
  let main_v41 : IVec S247 1 := cmpf .olt main_v39 main_v40
  let main_c_15 : IVec S_ 1 := constantI S_ 1 1#1
  let main_v42 : IVec S_ 1 := (fun x v => Host.reduce IntOp.andi x v reducesTo_S247_S_d0 h_S_) main_v41 main_c_15
  let main_v43 : IVec S_ 1 := andi main_v38 main_v42
  main_v43

def fn_part1 {F : FTy → Type} [FloatOps F] (main_arg6 : FVec F S128 .f32) (main_arg7 : FVec F S128x256 .f32) (main_arg8 : FVec F S256 .f32) (main_arg9 : FVec F S256x247 .f32) (main_arg10 : FVec F S247 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x3 .f32) (main_arg1 : IVec S2x800000 32) (main_arg2 : IVec S50000 32) (main_arg3 : FVec F S3x64 .f32) (main_arg4 : FVec F S64 .f32) (main_arg5 : FVec F S64x128 .f32) (main_arg6 : FVec F S128 .f32) (main_arg7 : FVec F S128x256 .f32) (main_arg8 : FVec F S256 .f32) (main_arg9 : FVec F S256x247 .f32) (main_arg10 : FVec F S247 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_v13 main_v16
-- ==== Kernel.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x247 : Shape := ⟨2, ![256, 247]⟩
abbrev S247 : Shape := ⟨1, ![247]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S2000x3 : Shape := ⟨2, ![2000, 3]⟩
abbrev S2000x1 : Shape := ⟨2, ![2000, 1]⟩
abbrev S2000x64 : Shape := ⟨2, ![2000, 64]⟩
abbrev S850000x64 : Shape := ⟨2, ![850000, 64]⟩
abbrev S1x64 : Shape := ⟨2, ![1, 64]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S50000x256 : Shape := ⟨2, ![50000, 256]⟩
abbrev S2000x256 : Shape := ⟨2, ![2000, 256]⟩
abbrev S850000x256 : Shape := ⟨2, ![850000, 256]⟩
abbrev S1x256 : Shape := ⟨2, ![1, 256]⟩
abbrev S16x256 : Shape := ⟨2, ![16, 256]⟩
abbrev S16 : Shape := ⟨1, ![16]⟩
abbrev S16x1 : Shape := ⟨2, ![16, 1]⟩
abbrev S1x247 : Shape := ⟨2, ![1, 247]⟩
abbrev S16x247 : Shape := ⟨2, ![16, 247]⟩

abbrev nBuf : Space → Nat
  | .hbm => 102
  | .vmem => 34
  | .smem => 0
  | _ => 0

abbrev bufTy : (tb : Table) → Fin (tcTables nBuf tb) → BufTy
  | .hbm, ⟨0, _⟩ => ⟨S50000x3, .f32⟩
  | .hbm, ⟨1, _⟩ => ⟨S2x800000, .i32⟩
  | .hbm, ⟨2, _⟩ => ⟨S50000, .i32⟩
  | .hbm, ⟨3, _⟩ => ⟨S3x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x247, .f32⟩
  | .hbm, ⟨10, _⟩ => ⟨S247, .f32⟩
  | .hbm, ⟨11, _⟩ => ⟨S50000, .i32⟩
  | .hbm, ⟨12, _⟩ => ⟨S1x50000, .i32⟩
  | .hbm, ⟨13, _⟩ => ⟨S1x50000, .i32⟩
  | .hbm, ⟨14, _⟩ => ⟨S2x50000, .i32⟩
  | .hbm, ⟨15, _⟩ => ⟨S2x850000, .i32⟩
  | .hbm, ⟨16, _⟩ => ⟨S1x850000, .i32⟩
  | .hbm, ⟨17, _⟩ => ⟨S850000, .i32⟩
  | .hbm, ⟨18, _⟩ => ⟨S1x850000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .bf16⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x64, .bf16⟩
  | .hbm, ⟨45, _⟩ => ⟨S850000x64, .f32⟩
  | .hbm, ⟨46, _⟩ => ⟨S_, .f32⟩
  | .hbm, ⟨47, _⟩ => ⟨S50000x64, .f32⟩
  | .hbm, ⟨48, _⟩ => ⟨S850000x1, .i32⟩
  | .hbm, ⟨49, _⟩ => ⟨S50000x64, .f32⟩
  | .hbm, ⟨50, _⟩ => ⟨S1x64, .f32⟩
  | .hbm, ⟨51, _⟩ => ⟨S50000x128, .bf16⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .bf16⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x256, .bf16⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x256, .bf16⟩
  | .hbm, ⟨77, _⟩ => ⟨S850000x256, .f32⟩
  | .hbm, ⟨78, _⟩ => ⟨S_, .f32⟩
  | .hbm, ⟨79, _⟩ => ⟨S50000x256, .f32⟩
  | .hbm, ⟨80, _⟩ => ⟨S850000x1, .i32⟩
  | .hbm, ⟨81, _⟩ => ⟨S50000x256, .f32⟩
  | .hbm, ⟨82, _⟩ => ⟨S1x256, .f32⟩
  | .hbm, ⟨83, _⟩ => ⟨S50000x256, .f32⟩
  | .hbm, ⟨84, _⟩ => ⟨S_, .f32⟩
  | .hbm, ⟨85, _⟩ => ⟨S16x256, .f32⟩
  | .hbm, ⟨86, _⟩ => ⟨S50000x1, .i32⟩
  | .hbm, ⟨87, _⟩ => ⟨S16x256, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S16, .f32⟩
  | .hbm, ⟨92, _⟩ => ⟨S50000x1, .i32⟩
  | .hbm, ⟨93, _⟩ => ⟨S16, .f32⟩
  | .hbm, ⟨94, _⟩ => ⟨S_, .f32⟩
  | .hbm, ⟨95, _⟩ => ⟨S16, .f32⟩
  | .hbm, ⟨96, _⟩ => ⟨S16, .f32⟩
  | .hbm, ⟨97, _⟩ => ⟨S16x1, .f32⟩
  | .hbm, ⟨98, _⟩ => ⟨S16x256, .f32⟩
  | .hbm, ⟨99, _⟩ => ⟨S16x256, .f32⟩
  | .hbm, ⟨100, _⟩ => ⟨S1x247, .f32⟩
  | .hbm, ⟨101, _⟩ => ⟨S16x247, .f32⟩
  | .local _ .vmem, ⟨0, _⟩ => ⟨S2000x3, .f32⟩
  | .local _ .vmem, ⟨1, _⟩ => ⟨S2000x3, .f32⟩
  | .local _ .vmem, ⟨2, _⟩ => ⟨S3x64, .f32⟩
  | .local _ .vmem, ⟨3, _⟩ => ⟨S2000x1, .f32⟩
  | .local _ .vmem, ⟨4, _⟩ => ⟨S2000x1, .f32⟩
  | .local _ .vmem, ⟨5, _⟩ => ⟨S2000x64, .bf16⟩
  | .local _ .vmem, ⟨6, _⟩ => ⟨S2000x64, .bf16⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S64x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x256, .f32⟩
  | .local _ .vmem, ⟨21, _⟩ => ⟨S2000x256, .bf16⟩
  | .local _ .vmem, ⟨22, _⟩ => ⟨S2000x256, .bf16⟩
  | .local _ .vmem, ⟨23, _⟩ => ⟨S2000x256, .f32⟩
  | .local _ .vmem, ⟨24, _⟩ => ⟨S2000x256, .f32⟩
  | .local _ .vmem, ⟨25, _⟩ => ⟨S2000x1, .f32⟩
  | .local _ .vmem, ⟨26, _⟩ => ⟨S2000x1, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S16x256, .f32⟩
  | .local _ .vmem, ⟨31, _⟩ => ⟨S256x247, .f32⟩
  | .local _ .vmem, ⟨32, _⟩ => ⟨S1x247, .f32⟩
  | .local _ .vmem, ⟨33, _⟩ => ⟨S16x247, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S16x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x247 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x247 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x247 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S16x256 : S_.BroadcastsInDim S16x256 (![] : Fin 0 → Fin S16x256.rank)
  bcast_S50000_S50000x1_0 : S50000.BroadcastsInDim S50000x1 (![0] : Fin 1 → Fin S50000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  shapeCasts_S247_S1x247 : S247.ShapeCasts S1x247
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x247_S256x247_0_0 : ∀ a, (![0, 0] : Fin 2 → Nat) a + S256x247.size a ≤ S256x247.size a
  h_S256x247 : 0 < S256x247.numel
  inb_S1x247_S1x247_0_0 : ∀ a, (![0, 0] : Fin 2 → Nat) a + S1x247.size a ≤ S1x247.size a
  h_S1x247 : 0 < S1x247.numel
  shapeCasts_S1x247_S1x247 : S1x247.ShapeCasts S1x247
  broadcasts_S1x247_S16x247 : S1x247.Broadcasts S16x247
  inb_S16x247_S16x247_0_0 : ∀ a, (![0, 0] : Fin 2 → Nat) a + S16x247.size a ≤ S16x247.size a
  h_S16x247 : 0 < S16x247.numel
  scatter_S50000_S850000x1_S850000_n_0_0_1_wf : ScatterDims.WF S50000 S850000x1 S850000 [] [0] [0] 1
  dot_S2000x3_S3x64_S2000x64_1_0_0_1_n_n_wf : DotDims.WF S2000x3 S3x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x128_S2000x128_1_0_0_1_n_n_wf : DotDims.WF S2000x64 S64x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S16x256_S50000x1_S50000x256_1_0_0_1_wf : ScatterDims.WF S16x256 S50000x1 S50000x256 [1] [0] [0] 1
  scatter_S16_S50000x1_S50000_n_0_0_1_wf : ScatterDims.WF S16 S50000x1 S50000 [] [0] [0] 1
  dot_S16x256_S256x247_S16x247_1_0_0_1_n_n_wf : DotDims.WF S16x256 S256x247 S16x247 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S50000x3.size a
  hwx0_0 : ∀ i : grid0.Coords, EltTy.bits .f32 = 32 ∨ (Rect.block (s := S50000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .bf16 = 32 ∨ (Rect.block (s := S50000x256) S2000x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S16x256.size a ≤ S16x256.size a
  hwx4_0 : ∀ i : grid4.Coords, EltTy.bits .f32 = 32 ∨ (Rect.block (s := S16x256) S16x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x247.size a ≤ S256x247.size a
  hwx4_1 : ∀ i : grid4.Coords, EltTy.bits .f32 = 32 ∨ (Rect.block (s := S256x247) S256x247.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x247.size a ≤ S1x247.size a
  hwx4_2 : ∀ i : grid4.Coords, EltTy.bits .f32 = 32 ∨ (Rect.block (s := S1x247) S1x247.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x247.size a ≤ S16x247.size a
  hwx4_3 : ∀ i : grid4.Coords, EltTy.bits .f32 = 32 ∨ (Rect.block (s := S16x247) S16x247.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x3_S3x64_S2000x64_1_0_0_1_n_n : DotDims S2000x3 S3x64 S2000x64 where
  lhsContracting := [1]
  rhsContracting := [0]
  lhsNonContracting := [0]
  rhsNonContracting := [1]
  lhsBatch := []
  rhsBatch := []
  wf := dot_S2000x3_S3x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S16x256_S50000x1_S50000x256_1_0_0_1 : ScatterDims S16x256 S50000x1 S50000x256 where
  updateWindowDims := [1]
  insertedWindowDims := [0]
  scatterDimsToOperandDims := [0]
  indexVectorDim := 1
  wf := scatter_S16x256_S50000x1_S50000x256_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x256_S256x247_S16x247_1_0_0_1_n_n : DotDims S16x256 S256x247 S16x247 where
  lhsContracting := [1]
  rhsContracting := [0]
  lhsNonContracting := [0]
  rhsNonContracting := [1]
  lhsBatch := []
  rhsBatch := []
  wf := dot_S16x256_S256x247_S16x247_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S16x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x247.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x247.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S16x247.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x247 : Shape := ⟨2, ![256, 247]⟩
abbrev S247 : Shape := ⟨1, ![247]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S50000x256 : Shape := ⟨2, ![50000, 256]⟩
abbrev S850000x256 : Shape := ⟨2, ![850000, 256]⟩
abbrev S1x256 : Shape := ⟨2, ![1, 256]⟩
abbrev S16x256 : Shape := ⟨2, ![16, 256]⟩
abbrev S50000x1 : Shape := ⟨2, ![50000, 1]⟩
abbrev S16 : Shape := ⟨1, ![16]⟩
abbrev S16x1 : Shape := ⟨2, ![16, 1]⟩
abbrev S16x247 : Shape := ⟨2, ![16, 247]⟩
abbrev S1x247 : Shape := ⟨2, ![1, 247]⟩

abbrev nBuf : Space → Nat
  | .hbm => 142
  | .vmem => 0
  | .smem => 0
  | _ => 0

abbrev hbmTy0_0 (i : Nat) : BufTy := match i % 128 with
  | 0 => ⟨S50000x3, .f32⟩
  | 1 => ⟨S2x800000, .i32⟩
  | 2 => ⟨S50000, .i32⟩
  | 3 => ⟨S3x64, .f32⟩
  | 4 => ⟨S64, .f32⟩
  | 5 => ⟨S64x128, .f32⟩
  | 6 => ⟨S128, .f32⟩
  | 7 => ⟨S128x256, .f32⟩
  | 8 => ⟨S256, .f32⟩
  | 9 => ⟨S256x247, .f32⟩
  | 10 => ⟨S247, .f32⟩
  | 11 => ⟨S50000, .i32⟩
  | 12 => ⟨S1x50000, .i32⟩
  | 13 => ⟨S1x50000, .i32⟩
  | 14 => ⟨S2x50000, .i32⟩
  | 15 => ⟨S2x850000, .i32⟩
  | 16 => ⟨S1x850000, .i32⟩
  | 17 => ⟨S850000, .i32⟩
  | 18 => ⟨S1x850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x256, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x256, .f32⟩
  | 109 => ⟨S850000x1, .f32⟩
  | 110 => ⟨S850000x256, .f32⟩
  | 111 => ⟨S850000x256, .f32⟩
  | 112 => ⟨S_, .f32⟩
  | 113 => ⟨S50000x256, .f32⟩
  | 114 => ⟨S850000x1, .i32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S_, .f32⟩
  | 123 => ⟨S16x256, .f32⟩
  | 124 => ⟨S50000x1, .i32⟩
  | 125 => ⟨S16x256, .f32⟩
  | 126 => ⟨S_, .f32⟩
  | 127 => ⟨S50000, .f32⟩
  | _ => ⟨S50000x3, .f32⟩

abbrev hbmTy0_1 (i : Nat) : BufTy := match i % 128 with
  | 0 => ⟨S_, .f32⟩
  | 1 => ⟨S16, .f32⟩
  | 2 => ⟨S50000x1, .i32⟩
  | 3 => ⟨S16, .f32⟩
  | 4 => ⟨S_, .f32⟩
  | 5 => ⟨S16, .f32⟩
  | 6 => ⟨S16, .f32⟩
  | 7 => ⟨S16x1, .f32⟩
  | 8 => ⟨S16x256, .f32⟩
  | 9 => ⟨S16x256, .f32⟩
  | 10 => ⟨S16x247, .f32⟩
  | 11 => ⟨S1x247, .f32⟩
  | 12 => ⟨S16x247, .f32⟩
  | 13 => ⟨S16x247, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_cst_15 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_cst_17 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S16x256 : S_.BroadcastsInDim S16x256 (![] : Fin 0 → Fin S16x256.rank)
  bcast_S50000_S50000x1_0 : S50000.BroadcastsInDim S50000x1 (![0] : Fin 1 → Fin S50000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S247_S1x247_1 : S247.BroadcastsInDim S1x247 (![1] : Fin 1 → Fin S1x247.rank)
  bcast_S1x247_S16x247_0_1 : S1x247.BroadcastsInDim S16x247 (![0, 1] : Fin 2 → Fin S16x247.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x3_S3x64_S50000x64_1_0_0_1_n_n_wf : DotDims.WF S50000x3 S3x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S16x256_S50000x1_S50000x256_1_0_0_1_wf : ScatterDims.WF S16x256 S50000x1 S50000x256 [1] [0] [0] 1
  scatter_S16_S50000x1_S50000_n_0_0_1_wf : ScatterDims.WF S16 S50000x1 S50000 [] [0] [0] 1
  dot_S16x256_S256x247_S16x247_1_0_0_1_n_n_wf : DotDims.WF S16x256 S256x247 S16x247 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S16x256_S50000x1_S50000x256_1_0_0_1 : ScatterDims S16x256 S50000x1 S50000x256 where
  updateWindowDims := [1]
  insertedWindowDims := [0]
  scatterDimsToOperandDims := [0]
  indexVectorDim := 1
  wf := scatter_S16x256_S50000x1_S50000x256_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x256_S256x247_S16x247_1_0_0_1_n_n : DotDims S16x256 S256x247 S16x247 where
  lhsContracting := [1]
  rhsContracting := [0]
  lhsNonContracting := [0]
  rhsNonContracting := [1]
  lhsBatch := []
  rhsBatch := []
  wf := dot_S16x256_S256x247_S16x247_1_0_0_1_n_n_wf

class Facts : Prop extends Facts₀ where

variable [Facts]
-- ==== Proof.KRun.lean ====
/-
  The idealized kernel program's run, with its result named.

  Every weakly fair execution of the program ends, without a fault, with the argument arrays as launched and with the
  result array holding what the last region's write-backs leave: the contents, at the result's buffer, of the last of
  the buffer valuations that the frame run folds through the program (host stretch after host stretch, region after
  region).  The proof is the frame run's own, with the one further reading of the final memory at the result's buffer.
-/
import proofs.«165119_j21320217657456_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last valuation's contents, the arguments as launched. -/
theorem run_result : θ_run defs (onTc (τ := τ) (main (F := F))) ⟨m, fun _ => 0, ρ⟩ (fun r => ∀ c : Dev nD,
      r.2.mem ((c.tc : Thread nD τ).loc main_v71) = W12 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v71 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.KVal

end
-- ==== Proof.KCarry.lean ====
/-
  Buffers that keep their contents through the kernel program.

  A host stretch changes only the buffers its operations write; a kernel region changes only its output array (its
  input arrays end as they were entered, every other buffer is untouched).  So a buffer that nothing writes after the
  first region's entry holds, at every later boundary of the program, what it held there; and a buffer that nothing
  writes at all holds its launch contents at every boundary.
-/
import proofs.«165119_j21320217657456_2_alg».proof.Proof.Gen.KernelIdeal.Frame
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.StableHlo

variable {F : FTy → Type} [FloatOps F]

/-- A result buffer that is in a list of references is, as a device buffer, in the list's image. -/
theorem single_sub {Wl : List (Ref sig .tc)} {y : Ref sig .tc} (hy : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem hy))

/-- What each host stretch writes. -/
def written0 : List (Ref sig .tc) := [main_v0, main_v1, main_v2, main_v3, main_v4, main_v5, main_v6, main_v7, main_v8, main_cst, main_v9,
  main_cst_0, main_v10, main_v11, main_v12, main_cst_1, main_v13, main_v14, main_v15, main_cst_2]
def written0_1 : List (Ref sig .tc) := [main_call0_v0, main_call0_v1, main_v16]
def written0_2 : List (Ref sig .tc) := [main_v17]
def written1 : List (Ref sig .tc) := [main_c, main_v19, main_v20, main_c_3, main_v21, main_v22, main_v23, main_v24, main_v25, main_v26,
  main_cst_4, main_v27, main_v28, main_v29, main_v30]
def written2 : List (Ref sig .tc) := [main_c_5, main_v32, main_v33, main_c_6, main_v34, main_v35, main_v36, main_v37, main_v38, main_v39,
  main_cst_7, main_v40, main_v41, main_v42, main_v43]
def written3 : List (Ref sig .tc) := [main_c_8, main_v45, main_v46, main_c_9, main_v47, main_v48, main_v49, main_v50, main_v51, main_v52,
  main_cst_10, main_v53, main_v54, main_v55, main_v56]
def written4 : List (Ref sig .tc) := [main_cst_11, main_v58, main_v59, main_v60, main_cst_12, main_v61, main_cst_13, main_v62, main_v63,
  main_v64, main_cst_14, main_v65, main_v66, main_v67, main_v68, main_v69, main_v70]

/-- Every operation of a stretch writes inside the stretch's list. -/
macro "writes_in_list " ops:ident : tactic => `(tactic|
  (simp only [$ops:ident, List.Forall, StableHlo.nullary_writes, StableHlo.unary_writes, StableHlo.binary_writes,
      StableHlo.ternary_writes, StableHlo.quaternary_writes, StableHlo.reshape_writes, StableHlo.binaryIndexed_writes]
   repeat' apply And.intro
   all_goals exact single_sub (by decide)))

variable (Wv : Valuation τ sig (Elt F))

theorem stretch0_keeps (b : Ref sig .tc) (hb : b ∉ written0) :
    StableHlo.after (hostOps0 (F := F)) Wv (Proc.devRef .tc b) = Wv (Proc.devRef .tc b) :=
  StableHlo.after_of_writes_sub _ Wv (by writes_in_list hostOps0) hb
theorem stretch0_1_keeps (b : Ref sig .tc) (hb : b ∉ written0_1) :
    StableHlo.after (hostOps0_1 (F := F)) Wv (Proc.devRef .tc b) = Wv (Proc.devRef .tc b) :=
  StableHlo.after_of_writes_sub _ Wv (by writes_in_list hostOps0_1) hb
theorem stretch0_2_keeps (b : Ref sig .tc) (hb : b ∉ written0_2) :
    StableHlo.after (hostOps0_2 (F := F)) Wv (Proc.devRef .tc b) = Wv (Proc.devRef .tc b) :=
  StableHlo.after_of_writes_sub _ Wv (by writes_in_list hostOps0_2) hb
theorem stretch1_keeps (b : Ref sig .tc) (hb : b ∉ written1) :
    StableHlo.after (hostOps1 (F := F)) Wv (Proc.devRef .tc b) = Wv (Proc.devRef .tc b) :=
  StableHlo.after_of_writes_sub _ Wv (by writes_in_list hostOps1) hb
theorem stretch2_keeps (b : Ref sig .tc) (hb : b ∉ written2) :
    StableHlo.after (hostOps2 (F := F)) Wv (Proc.devRef .tc b) = Wv (Proc.devRef .tc b) :=
  StableHlo.after_of_writes_sub _ Wv (by writes_in_list hostOps2) hb
theorem stretch3_keeps (b : Ref sig .tc) (hb : b ∉ written3) :
    StableHlo.after (hostOps3 (F := F)) Wv (Proc.devRef .tc b) = Wv (Proc.devRef .tc b) :=
  StableHlo.after_of_writes_sub _ Wv (by writes_in_list hostOps3) hb
theorem stretch4_keeps (b : Ref sig .tc) (hb : b ∉ written4) :
    StableHlo.after (hostOps4 (F := F)) Wv (Proc.devRef .tc b) = Wv (Proc.devRef .tc b) :=
  StableHlo.after_of_writes_sub _ Wv (by writes_in_list hostOps4) hb

variable (m : (ℓ : Loc nD τ sig) → Buf (Elt F) ℓ) (ρ : Dev nD → PrngReg) (c : Dev nD)

/-- Region 0 changes only its output array. -/
theorem region0_keeps (b : Ref sig .tc) (hb : b ≠ main_v18) :
    W4 m ρ c (Proc.devRef .tc b) = W3 m ρ c (Proc.devRef .tc b) := by
  by_cases h0 : b = main_arg0
  · subst h0; exact (W4_arr m ρ c 0).trans (((dat0 (V3 m ρ) c).arrAt_in 0 rfl _).trans (A_eq0 (V3 m ρ) c 0))
  by_cases h1 : b = main_arg3
  · subst h1; exact (W4_arr m ρ c 1).trans (((dat0 (V3 m ρ) c).arrAt_in 1 rfl _).trans (A_eq0 (V3 m ρ) c 1))
  by_cases h2 : b = main_v17
  · subst h2; exact (W4_arr m ρ c 2).trans (((dat0 (V3 m ρ) c).arrAt_in 2 rfl _).trans (A_eq0 (V3 m ρ) c 2))
  exact W4_of_ne m ρ c b (fun w => match w with
    | ⟨0, _⟩ => fun e => h0 e.symm | ⟨1, _⟩ => fun e => h1 e.symm | ⟨2, _⟩ => fun e => h2 e.symm | ⟨3, _⟩ => fun e => hb e.symm)

/-- Region 1 changes only its output array. -/
theorem region1_keeps (b : Ref sig .tc) (hb : b ≠ main_v31) :
    W6 m ρ c (Proc.devRef .tc b) = W5 m ρ c (Proc.devRef .tc b) := by
  by_cases h0 : b = main_v29
  · subst h0; exact (W6_arr m ρ c 0).trans (((dat1 (V5 m ρ) c).arrAt_in 0 rfl _).trans (A_eq1 (V5 m ρ) c 0))
  by_cases h1 : b = main_v17
  · subst h1; exact (W6_arr m ρ c 1).trans (((dat1 (V5 m ρ) c).arrAt_in 1 rfl _).trans (A_eq1 (V5 m ρ) c 1))
  by_cases h2 : b = main_v30
  · subst h2; exact (W6_arr m ρ c 2).trans (((dat1 (V5 m ρ) c).arrAt_in 2 rfl _).trans (A_eq1 (V5 m ρ) c 2))
  by_cases h3 : b = main_arg5
  · subst h3; exact (W6_arr m ρ c 3).trans (((dat1 (V5 m ρ) c).arrAt_in 3 rfl _).trans (A_eq1 (V5 m ρ) c 3))
  exact W6_of_ne m ρ c b (fun w => match w with
    | ⟨0, _⟩ => fun e => h0 e.symm | ⟨1, _⟩ => fun e => h1 e.symm | ⟨2, _⟩ => fun e => h2 e.symm | ⟨3, _⟩ => fun e => h3 e.symm
    | ⟨4, _⟩ => fun e => hb e.symm)

/-- Region 2 changes only its output array. -/
theorem region2_keeps (b : Ref sig .tc) (hb : b ≠ main_v44) :
    W8 m ρ c (Proc.devRef .tc b) = W7 m ρ c (Proc.devRef .tc b) := by
  by_cases h0 : b = main_v42
  · subst h0; exact (W8_arr m ρ c 0).trans (((dat2 (V7 m ρ) c).arrAt_in 0 rfl _).trans (A_eq2 (V7 m ρ) c 0))
  by_cases h1 : b = main_v17
  · subst h1; exact (W8_arr m ρ c 1).trans (((dat2 (V7 m ρ) c).arrAt_in 1 rfl _).trans (A_eq2 (V7 m ρ) c 1))
  by_cases h2 : b = main_v43
  · subst h2; exact (W8_arr m ρ c 2).trans (((dat2 (V7 m ρ) c).arrAt_in 2 rfl _).trans (A_eq2 (V7 m ρ) c 2))
  by_cases h3 : b = main_arg7
  · subst h3; exact (W8_arr m ρ c 3).trans (((dat2 (V7 m ρ) c).arrAt_in 3 rfl _).trans (A_eq2 (V7 m ρ) c 3))
  exact W8_of_ne m ρ c b (fun w => match w with
    | ⟨0, _⟩ => fun e => h0 e.symm | ⟨1, _⟩ => fun e => h1 e.symm | ⟨2, _⟩ => fun e => h2 e.symm | ⟨3, _⟩ => fun e => h3 e.symm
    | ⟨4, _⟩ => fun e => hb e.symm)

/-- Region 3 changes only its output array. -/
theorem region3_keeps (b : Ref sig .tc) (hb : b ≠ main_v57) :
    W10 m ρ c (Proc.devRef .tc b) = W9 m ρ c (Proc.devRef .tc b) := by
  by_cases h0 : b = main_v55
  · subst h0; exact (W10_arr m ρ c 0).trans (((dat3 (V9 m ρ) c).arrAt_in 0 rfl _).trans (A_eq3 (V9 m ρ) c 0))
  by_cases h1 : b = main_v17
  · subst h1; exact (W10_arr m ρ c 1).trans (((dat3 (V9 m ρ) c).arrAt_in 1 rfl _).trans (A_eq3 (V9 m ρ) c 1))
  by_cases h2 : b = main_v56
  · subst h2; exact (W10_arr m ρ c 2).trans (((dat3 (V9 m ρ) c).arrAt_in 2 rfl _).trans (A_eq3 (V9 m ρ) c 2))
  exact W10_of_ne m ρ c b (fun w => match w with
    | ⟨0, _⟩ => fun e => h0 e.symm | ⟨1, _⟩ => fun e => h1 e.symm | ⟨2, _⟩ => fun e => h2 e.symm | ⟨3, _⟩ => fun e => hb e.symm)

/-- The buffers written from the first region on. -/
def late : List (Ref sig .tc) := main_v18 :: written1 ++ main_v31 :: written2 ++ main_v44 :: written3 ++ main_v57 :: written4

/-- A buffer nothing writes from the first region on holds, at each later boundary, what it held at that region's
    entry. -/
theorem kept_from3 (b : Ref sig .tc) (hb : b ∉ late) :
    W4 m ρ c (Proc.devRef .tc b) = W3 m ρ c (Proc.devRef .tc b)
    ∧ W5 m ρ c (Proc.devRef .tc b) = W3 m ρ c (Proc.devRef .tc b)
    ∧ W6 m ρ c (Proc.devRef .tc b) = W3 m ρ c (Proc.devRef .tc b)
    ∧ W7 m ρ c (Proc.devRef .tc b) = W3 m ρ c (Proc.devRef .tc b)
    ∧ W8 m ρ c (Proc.devRef .tc b) = W3 m ρ c (Proc.devRef .tc b)
    ∧ W9 m ρ c (Proc.devRef .tc b) = W3 m ρ c (Proc.devRef .tc b)
    ∧ W10 m ρ c (Proc.devRef .tc b) = W3 m ρ c (Proc.devRef .tc b)
    ∧ W11 m ρ c (Proc.devRef .tc b) = W3 m ρ c (Proc.devRef .tc b) := by
  have n18 : b ≠ main_v18 := fun e => hb (by simp [late, e])
  have n31 : b ≠ main_v31 := fun e => hb (by simp [late, e])
  have n44 : b ≠ main_v44 := fun e => hb (by simp [late, e])
  have n57 : b ≠ main_v57 := fun e => hb (by simp [late, e])
  have w1 : b ∉ written1 := fun h => hb (by simp [late, h])
  have w2 : b ∉ written2 := fun h => hb (by simp [late, h])
  have w3 : b ∉ written3 := fun h => hb (by simp [late, h])
  have w4 : b ∉ written4 := fun h => hb (by simp [late, h])
  have e4 := region0_keeps m ρ c b n18
  have e5 := (stretch1_keeps (W4 m ρ c) b w1).trans e4
  have e6 := (region1_keeps m ρ c b n31).trans e5
  have e7 := (stretch2_keeps (W6 m ρ c) b w2).trans e6
  have e8 := (region2_keeps m ρ c b n44).trans e7
  have e9 := (stretch3_keeps (W8 m ρ c) b w3).trans e8
  have e10 := (region3_keeps m ρ c b n57).trans e9
  have e11 := (stretch4_keeps (W10 m ρ c) b w4).trans e10
  exact ⟨e4, e5, e6, e7, e8, e9, e10, e11⟩

/-- A buffer no host stretch before the first region writes holds its launch contents at that region's entry. -/
theorem kept_to3 (b : Ref sig .tc) (h0 : b ∉ written0) (h1 : b ∉ written0_1) (h2 : b ∉ written0_2) :
    W3 m ρ c (Proc.devRef .tc b) = m ((c : Thread nD τ).loc b) :=
  (stretch0_2_keeps (W2 m ρ c) b h2).trans ((stretch0_1_keeps (W1 m ρ c) b h1).trans (stretch0_keeps (W0 m ρ c) b h0))

end Cert.KernelIdeal.KVal

end
-- ==== Proof.LibERealSum.lean ====
/-
  General laws of finite sums of extended reals, with no finiteness asked of the terms.
  Multiplication on the extended reals does not distribute over addition in general (∞ - ∞), but a factor
  that is nonnegative and not +∞ does, on either side; so such a factor moves across any finite sum. This
  is what lets a scale folded into one operand of a contraction (x · c inside the sum) meet the same scale
  applied to the contraction's result (the sum times c, or the sum divided by 1/c) without a precondition
  on the inputs. Also: a sum over `Fin (m * n)` as a double sum over `m` blocks of `n`.
-/
import Mathlib.Data.EReal.Operations
import Mathlib.Algebra.BigOperators.Fin
import Mathlib.Logic.Equiv.Fin.Basic

namespace Cert.Lib.ERealSum

open scoped BigOperators

/-- A nonnegative finite factor on the right moves across a finite sum of extended reals. -/
theorem sum_mul_const {ι : Type*} (t : Finset ι) (f : ι → EReal) {c : EReal} (h0 : 0 ≤ c) (ht : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 ht, ih]

/-- The same with the factor on the left. -/
theorem mul_sum_const {ι : Type*} (t : Finset ι) (f : ι → EReal) {c : EReal} (h0 : 0 ≤ c) (ht : c ≠ ⊤) :
    c * (∑ k ∈ t, f k) = ∑ k ∈ t, c * f k :=
  (EReal.mul_comm _ _).trans
    ((sum_mul_const t f h0 ht).trans (Finset.sum_congr rfl fun k _ => EReal.mul_comm _ _))

/-- A sum over `Fin (m * n)` is the sum over the `m` blocks of the sums over their `n` entries: entry `i` of
    block `c` is position `i + n * c`. -/
theorem sum_fin_blocks {M : Type*} [AddCommMonoid M] (m n : ℕ) (f : Fin (m * n) → M) :
    ∑ j : Fin (m * n), f j = ∑ c : Fin m, ∑ i : Fin n, f (finProdFinEquiv (c, i)) := by
  rw [← Equiv.sum_comp (finProdFinEquiv (m := m) (n := n)) f, Fintype.sum_prod_type]

end Cert.Lib.ERealSum
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.LibWordIndex.lean ====
/-
  Small numbers as 32-bit index words.

  An index computed in 32-bit words is read back by a gather as a SIGNED integer; jax first adds the
  axis' extent to a negative index. For a word that denotes a number below 2^31 neither matters: the
  signed reading is the number itself and the sign test is false. And 64 * r + w, computed in words
  for r < 16 and a word w below 64, denotes 64 r + w (nothing wraps).
-/
import Idealize.ShloMosaic.Lib.ValueIdx

open Idealize.ShloMosaic

namespace Cert.WordIndex

/-- The signed reading of a word below 2^31, as a natural number, is the number it denotes. -/
theorem toInt_toNat_of_lt (v : BitVec 32) (hv : v.toNat < 2 ^ 31) : v.toInt.toNat = v.toNat := by
  rw [BitVec.toInt_eq_toNat_cond]
  have : 2 * v.toNat < 2 ^ 32 := by omega
  rw [if_pos this]
  exact Int.toNat_natCast _

/-- A word below 2^31 is not negative: the select that would add the extent keeps the word. -/
theorem select_slt_zero (v a : BitVec 32) (hv : v.toNat < 2 ^ 31) :
    Scalar.select (IntOp.cmpi .slt v 0#32) a v = v := by
  have h : IntOp.cmpi .slt v 0#32 = 0#1 := by
    have hs : v.slt 0#32 = false := by
      rw [BitVec.slt, BitVec.toInt_eq_toNat_cond, if_pos (by omega : 2 * v.toNat < 2 ^ 32)]
      simp
    simp [IntOp.cmpi, hs]
  rw [h]
  exact ValueIdx.select_zero a v

/-- A counter below 2^32, as a word, denotes itself. -/
theorem toNat_ofNat_of_lt {k : ℕ} (hk : k < 2 ^ 32) : (BitVec.ofNat 32 k).toNat = k := by
  rw [BitVec.toNat_ofNat, Nat.mod_eq_of_lt hk]

/-- 64 r + w in words, for a row r < 16 and a column word w below 64, denotes 64 r + w. -/
theorem toNat_row_add (r : ℕ) (hr : r < 16) (w : BitVec 32) (hw : w.toNat < 64) :
    (IntOp.addi (IntOp.muli (BitVec.ofNat 32 r) 64#32) w).toNat = r * 64 + w.toNat := by
  show ((BitVec.ofNat 32 r) * 64#32 + w).toNat = _
  rw [BitVec.toNat_add, BitVec.toNat_mul, BitVec.toNat_ofNat]
  show (r % 2 ^ 32 * 64 % 2 ^ 32 + w.toNat) % 2 ^ 32 = _
  omega

end Cert.WordIndex
-- ==== Proof.Spec.lean ====
/-
  The mathematics of a graph convolution stack, on the extended reals, and why the two arrangements of its
  symmetric normalisation agree.

  A graph is given by R edge records: edge e reads node `src e` and adds into the node whose number is the integer
  `dst e` (an edge whose `dst e` is no node adds nowhere).  With one scale d n per node (the inverse square root of the
  in-degree, or 0), a layer maps node features f to  relu (A (f W) + b)  where  (A h) c = ∑ over the edges e into c of
  h (src e) · (d (src e) · d c).
  One arrangement multiplies every edge's row by the product of the two scales before summing (`aggR`); the other
  scales each row once by its own node's d before the edges read it (`pre`), sums the rows as they are (`gat`), and
  scales the sum by the receiving node's d afterwards (`actK`).  The two agree because a factor that is nonnegative
  and not +∞ moves across a finite sum of extended reals, whatever the terms are; no finiteness of the features is used.
-/
import proofs.«165119_j21320217657456_2_alg».proof.Proof.LibERealSum
import proofs.«165119_j21320217657456_2_alg».proof.Proof.LibRowTakeAdd
import proofs.«165119_j21320217657456_2_alg».proof.Proof.LibWordIndex
import Idealize.ShloMosaic.PureOps.Ideal.Laws

noncomputable section

open scoped BigOperators

namespace Cert.Gcn

open Idealize.ShloMosaic Idealize.ShloMosaic.ValueIdx

/-- A two-axis array as a function of its two coordinates. -/
def cur {α : Type} {a b : ℕ} (A : (⟨2, ![a, b]⟩ : Shape).Idx → α) : Fin a → Fin b → α := fun p q => A (ix2 p q)
/-- A one-axis array as a function of its coordinate. -/
def cur1 {α : Type} {a : ℕ} (A : (⟨1, ![a]⟩ : Shape).Idx → α) : Fin a → α := fun p => A (ix1 p)
/-- Column 0 of an [a, 1] array as a function of the row. -/
def col0 {α : Type} {a : ℕ} (A : (⟨2, ![a, 1]⟩ : Shape).Idx → α) : Fin a → α := fun p => A (ix2 p (0 : Fin 1))
/-- Row 0 of a [1, b] array as a function of the column. -/
def row0 {α : Type} {b : ℕ} (A : (⟨2, ![1, b]⟩ : Shape).Idx → α) : Fin b → α := fun q => A (ix2 (0 : Fin 1) q)

/-- The index word that is read: a negative word has the extent `n` added first. -/
def nrm (n v : BitVec 32) : BitVec 32 := Scalar.select (IntOp.cmpi .slt v 0#32) (IntOp.addi v n) v

/-- The node an edge reads: its index word, a negative one moved up by the extent, read signed and clamped into
    [0, N - 1]. -/
def srcOf (N : ℕ) (hN : 0 < N) (n : BitVec 32) {R : ℕ} (w : Fin R → BitVec 32) : Fin R → Fin N :=
  fun e => Cert.RowTakeAdd.takeRow N hN (nrm n (w e))

/-- The integer an edge adds at: its index word read signed, as it is. -/
def dstOf {R : ℕ} (w : Fin R → BitVec 32) : Fin R → ℤ := fun e => (w e).toInt

section Laws

variable {N R C Din : ℕ}

/-- The product of node features with a weight matrix. -/
def mm (f : Fin N → Fin Din → EReal) (W : Fin Din → Fin C → EReal) : Fin N → Fin C → EReal :=
  fun n k => ∑ j : Fin Din, f n j * W j k

/-- Each node's row scaled by the node's own factor. -/
def pre (d : Fin N → EReal) (h : Fin N → Fin C → EReal) : Fin N → Fin C → EReal := fun n k => h n k * d n

/-- Node c receives the sum of the rows its incoming edges read. -/
def gat (src : Fin R → Fin N) (dst : Fin R → ℤ) (h : Fin N → Fin C → EReal) : Fin N → Fin C → EReal :=
  fun c k => ∑ e ∈ Finset.univ.filter (fun e : Fin R => dst e = (c.val : ℤ)), h (src e) k

/-- The received sum scaled by the receiving node's factor, plus the bias, clipped below at 0. -/
def actK (d : Fin N → EReal) (b : Fin C → EReal) (a : Fin N → Fin C → EReal) : Fin N → Fin C → EReal :=
  fun c k => max (a c k * d c + b k) 0

/-- Node c receives the sum of the rows its incoming edges read, each times the product of the factors of the edge's
    two ends (`dst' e` is the node the receiving end's index word is read at as a source would read it). -/
def aggR (src dst' : Fin R → Fin N) (dst : Fin R → ℤ) (d : Fin N → EReal) (h : Fin N → Fin C → EReal) :
    Fin N → Fin C → EReal :=
  fun c k => ∑ e ∈ Finset.univ.filter (fun e : Fin R => dst e = (c.val : ℤ)), h (src e) k * (d (src e) * d (dst' e))

/-- The received sum plus the bias, clipped below at 0. -/
def actR (b : Fin C → EReal) (a : Fin N → Fin C → EReal) : Fin N → Fin C → EReal := fun c k => max (a c k + b k) 0

/-- One layer, both ways: scaling before and after the edge sum is scaling every edge by both factors, when each
    factor is nonnegative and not +∞ and an edge that adds at node c reads c as its receiving end. -/
theorem act_agree (src dst' : Fin R → Fin N) (dst : Fin R → ℤ) (d : Fin N → EReal) (b : Fin C → EReal)
    (h : Fin N → Fin C → EReal) (hd : ∀ n, 0 ≤ d n ∧ d n ≠ ⊤)
    (hdst : ∀ (e : Fin R) (c : Fin N), dst e = (c.val : ℤ) → dst' e = c) :
    actK d b (gat src dst (pre d h)) = actR b (aggR src dst' dst d h) := by
  funext c k
  unfold actK actR gat aggR pre
  refine congrArg (fun t => max (t + b k) 0) ?_
  rw [Cert.Lib.ERealSum.sum_mul_const _ _ (hd c).1 (hd c).2]
  refine Finset.sum_congr rfl fun e he => ?_
  rw [hdst e c (Finset.mem_filter.mp he).2, mul_assoc]

end Laws

/-- The three layers with each row scaled before the edges read it and the sum scaled after. -/
def netK {N R D0 D1 D2 D3 : ℕ} (src : Fin R → Fin N) (dst : Fin R → ℤ) (d : Fin N → EReal)
    (X : Fin N → Fin D0 → EReal) (W1 : Fin D0 → Fin D1 → EReal) (b1 : Fin D1 → EReal)
    (W2 : Fin D1 → Fin D2 → EReal) (b2 : Fin D2 → EReal) (W3 : Fin D2 → Fin D3 → EReal) (b3 : Fin D3 → EReal) :
    Fin N → Fin D3 → EReal :=
  actK d b3 (gat src dst (pre d (mm (actK d b2 (gat src dst (pre d (mm (actK d b1 (gat src dst (pre d (mm X W1)))) W2)))) W3)))

/-- The three layers with every edge scaled by the product of its two ends' factors. -/
def netR {N R D0 D1 D2 D3 : ℕ} (src dst' : Fin R → Fin N) (dst : Fin R → ℤ) (d : Fin N → EReal)
    (X : Fin N → Fin D0 → EReal) (W1 : Fin D0 → Fin D1 → EReal) (b1 : Fin D1 → EReal)
    (W2 : Fin D1 → Fin D2 → EReal) (b2 : Fin D2 → EReal) (W3 : Fin D2 → Fin D3 → EReal) (b3 : Fin D3 → EReal) :
    Fin N → Fin D3 → EReal :=
  actR b3 (aggR src dst' dst d (mm (actR b2 (aggR src dst' dst d (mm (actR b1 (aggR src dst' dst d (mm X W1))) W2))) W3))

/-- The two arrangements of the whole stack agree. -/
theorem net_agree {N R D0 D1 D2 D3 : ℕ} (src dst' : Fin R → Fin N) (dst : Fin R → ℤ) (d : Fin N → EReal)
    (X : Fin N → Fin D0 → EReal) (W1 : Fin D0 → Fin D1 → EReal) (b1 : Fin D1 → EReal)
    (W2 : Fin D1 → Fin D2 → EReal) (b2 : Fin D2 → EReal) (W3 : Fin D2 → Fin D3 → EReal) (b3 : Fin D3 → EReal)
    (hd : ∀ n, 0 ≤ d n ∧ d n ≠ ⊤) (hdst : ∀ (e : Fin R) (c : Fin N), dst e = (c.val : ℤ) → dst' e = c) :
    netK src dst d X W1 b1 W2 b2 W3 b3 = netR src dst' dst d X W1 b1 W2 b2 W3 b3 := by
  unfold netK netR
  rw [act_agree src dst' dst d b1 _ hd hdst, act_agree src dst' dst d b2 _ hd hdst, act_agree src dst' dst d b3 _ hd hdst]

/-- The classifier head: pooled features times a weight matrix, plus a bias per class. -/
def head {G D K : ℕ} (P : Fin G → Fin D → EReal) (W : Fin D → Fin K → EReal) (b : Fin K → EReal) : Fin G → Fin K → EReal :=
  fun p q => (∑ j : Fin D, P p j * W j q) + b q

/-- An index word that, read signed, is the node c: it is not negative, so nothing is added to it, and the clamp
    leaves it; a source reading of the word is c. -/
theorem src_of_dst {N : ℕ} (hN : 0 < N) (n v : BitVec 32) (c : Fin N) (hv : v.toInt = (c.val : ℤ)) :
    Cert.RowTakeAdd.takeRow N hN (nrm n v) = c := by
  have hlt : v.toNat < 2 ^ 31 := by
    rw [BitVec.toInt_eq_toNat_cond] at hv
    split at hv
    · omega
    · have := v.isLt; omega
  unfold nrm
  rw [Cert.WordIndex.select_slt_zero v _ hlt]
  refine Fin.ext ?_
  show min v.toInt.toNat (N - 1) = c.val
  rw [hv, Int.toNat_natCast]
  have := c.isLt
  omega

/-- The factor 'inverse square root where positive, else 0' is nonnegative and never +∞. -/
theorem scale_bound (x : EReal) :
    0 ≤ Scalar.select (Ideal.cmp .ogt x 0) (Ideal.rsqrt x) (0 : EReal)
      ∧ Scalar.select (Ideal.cmp .ogt x 0) (Ideal.rsqrt x) (0 : EReal) ≠ ⊤ := by
  by_cases hx : (0 : EReal) < x
  · have hc : Ideal.cmp .ogt x 0 = 1#1 := by simp [Ideal.cmp, hx]
    rw [hc, select_one]
    induction x using EReal.rec with
    | bot => exact absurd hx (by simp)
    | top => simp
    | coe r =>
      have hr : 0 < r := by exact_mod_cast hx
      rw [Ideal.rsqrt_coe, if_neg (not_lt.mpr hr.le), if_neg hr.ne']
      refine ⟨?_, EReal.coe_ne_top _⟩
      exact_mod_cast (inv_nonneg.mpr (Real.sqrt_nonneg r))
  · have hc : Ideal.cmp .ogt x 0 = 0#1 := by simp [Ideal.cmp, hx]
    rw [hc, select_zero]
    exact ⟨le_refl _, EReal.zero_ne_top⟩

end Cert.Gcn

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.EdgeSum.lean ====
/-
  An edge stage read at an entry: rows taken at the edges' source words, widened, and added into the rows the edges'
  destination words name.

  The stage is the composition, on the host, of: the source words with the extent added to the negative ones; a gather
  of whole rows of an [N, C] array at those words; a change of float format (the identity on the extended reals); and
  an accumulating scatter of the gathered rows onto the zero array at the destination words.  At node c and feature k
  the result is the sum, over the edges e whose destination word read signed is c, of the array's entry at (src e, k):
  `Cert.Gcn.gat`.
-/
import proofs.«165119_j21320217657456_2_alg».proof.Proof.Spec
import proofs.«165119_j21320217657456_2_alg».proof.Proof.LibKeepdims

noncomputable section

open scoped BigOperators

namespace Cert.Gcn

open Idealize.ShloMosaic Idealize.ShloMosaic.ValueIdx Cert.RowTakeAdd

/-- The edge stage at (c, k). -/
theorem edge_stage_apply {N R C : ℕ} (hN : 0 < N) {φ : FTy} (hφ : φ.bits < FTy.bits .f32)
    (gwf : GatherDims.WF ⟨2, ![N, C]⟩ ⟨2, ![R, 1]⟩ ⟨2, ![R, C]⟩ [1] [0] [] [0] [] 1 ![1, C])
    (swf : ScatterDims.WF ⟨2, ![N, C]⟩ ⟨2, ![R, 1]⟩ ⟨2, ![R, C]⟩ [1] [0] [0] 1)
    (hz : (⟨0, ![]⟩ : Shape).BroadcastsInDim ⟨2, ![N, C]⟩ (![] : Fin 0 → Fin 2))
    (hc : (⟨1, ![R]⟩ : Shape).BroadcastsInDim ⟨2, ![R, 1]⟩ (![0] : Fin 1 → Fin 2))
    (h0 : (⟨0, ![]⟩ : Shape).BroadcastsInDim ⟨1, ![R]⟩ (![] : Fin 0 → Fin 1))
    (n : BitVec 32) (x : FVec Ideal ⟨2, ![N, C]⟩ φ) (row col : IVec ⟨1, ![R]⟩ 32) (c : Fin N) (k : Fin C) :
    Host.scatterAdd (F := Ideal) (rowScatterDims N R C swf)
        (broadcastInDim ⟨2, ![N, C]⟩ ![] hz (constant (F := Ideal) ⟨0, ![]⟩ .f32 0x00000000#32))
        (broadcastInDim ⟨2, ![R, 1]⟩ ![0] hc col)
        (extf .f32 (Host.gather (rowGatherDims N R C gwf) x
          (broadcastInDim ⟨2, ![R, 1]⟩ ![0] hc
            (select (cmpi .slt row (broadcastInDim ⟨1, ![R]⟩ ![] h0 (constantI ⟨0, ![]⟩ 32 0#32)))
              (addi row (broadcastInDim ⟨1, ![R]⟩ ![] h0 (constantI ⟨0, ![]⟩ 32 n))) row))) hφ) (ix2 c k)
      = gat (srcOf N hN n (cur1 row)) (dstOf (cur1 col)) (cur x) c k := by
  rw [scatterAdd_rows_apply swf _ _ _ c k]
  have hzero : broadcastInDim ⟨2, ![N, C]⟩ ![] hz (constant (F := Ideal) ⟨0, ![]⟩ .f32 0x00000000#32) (ix2 c k) = (0 : EReal) :=
    Ideal.ofBits_zero_f32
  rw [hzero, zero_add]
  unfold gat
  refine Finset.sum_congr (Finset.filter_congr fun e _ => ?_) fun e _ => ?_
  · rw [Cert.Keepdims.host_column_apply col hc e (0 : Fin 1)]
    rfl
  · show FloatOps.extf .f32 hφ (Host.gather (rowGatherDims N R C gwf) x _ (ix2 e k)) = _
    rw [Ideal.extf_def, gather_rows_apply hN gwf x _ e k, Cert.Keepdims.host_column_apply _ hc e (0 : Fin 1)]
    rfl

end Cert.Gcn

end
-- ==== Proof.KStages.lean ====
/-
  The host stretches between the kernel regions, read at an entry, from any contents of the buffers they start from.

  Between two regions the host runs one edge stage (rows gathered at the edges' sources, widened, summed at the edges'
  destinations: `Cert.Gcn.gat`) and keeps the next bias as a row.  After the last layer it pools the node features by
  graph (a sum by graph index divided by the clipped node count) and keeps the head's bias as a row; the pooling is
  carried as one function of the features and the graph indices, never opened.
-/
import proofs.«165119_j21320217657456_2_alg».proof.Proof.Gen.KernelIdeal.Launch
import proofs.«165119_j21320217657456_2_alg».proof.Proof.EdgeSum
import Idealize.ShloMosaic.Lib.StableHlo.Run
import Idealize.ShloMosaic.Lib.ValueLayout

noncomputable section

open scoped BigOperators

namespace Cert.KernelIdeal.KVal

open Cert.KernelIdeal Cert.KernelIdeal.Gen Cert.Gcn
open Idealize.ShloMosaic Idealize.ShloMosaic.TcCoe Idealize.ShloMosaic.ValueIdx Idealize.ShloMosaic.StableHlo

variable (Wv : Valuation τ sig (Elt Ideal))

set_option maxHeartbeats 2000000

/-- After edge stage 1: node c, feature k of the aggregate is the sum, over the edges into c, of the row that the
    edge's source holds in the array the stage reads. -/
theorem stage1_agg (c : Fin 50000) (k : Fin 64) :
    cur (α := EReal) (StableHlo.after (hostOps1 (F := Ideal)) Wv (Proc.devRef .tc main_v29)) c k
      = gat (srcOf 50000 (by decide) 50000#32 (cur1 (α := BitVec 32) (Wv (Proc.devRef .tc main_v6))))
          (dstOf (cur1 (α := BitVec 32) (Wv (Proc.devRef .tc main_v8))))
          (cur (α := EReal) (Wv (Proc.devRef .tc main_v18))) c k := by
  refine Eq.trans (congrFun ?_ (ix2 c k)) (edge_stage_apply (N := 50000) (R := 850000) (C := 64) (by decide) bitsLt_bf16_f32
    gather_S50000x64_S850000x1_S850000x64_1_0_n_n_0_1_164_wf scatter_S50000x64_S850000x1_S850000x64_1_0_0_1_wf
    bcast_S_S50000x64 bcast_S850000_S850000x1_0 bcast_S_S850000 50000#32
    (Wv (Proc.devRef .tc main_v18)) (Wv (Proc.devRef .tc main_v6)) (Wv (Proc.devRef .tc main_v8)) c k)
  after_results_simp
  rfl

/-- After edge stage 2: node c, feature k of the aggregate is the sum, over the edges into c, of the row that the
    edge's source holds in the array the stage reads. -/
theorem stage2_agg (c : Fin 50000) (k : Fin 128) :
    cur (α := EReal) (StableHlo.after (hostOps2 (F := Ideal)) Wv (Proc.devRef .tc main_v42)) c k
      = gat (srcOf 50000 (by decide) 50000#32 (cur1 (α := BitVec 32) (Wv (Proc.devRef .tc main_v6))))
          (dstOf (cur1 (α := BitVec 32) (Wv (Proc.devRef .tc main_v8))))
          (cur (α := EReal) (Wv (Proc.devRef .tc main_v31))) c k := by
  refine Eq.trans (congrFun ?_ (ix2 c k)) (edge_stage_apply (N := 50000) (R := 850000) (C := 128) (by decide) bitsLt_bf16_f32
    gather_S50000x128_S850000x1_S850000x128_1_0_n_n_0_1_1128_wf scatter_S50000x128_S850000x1_S850000x128_1_0_0_1_wf
    bcast_S_S50000x128 bcast_S850000_S850000x1_0 bcast_S_S850000 50000#32
    (Wv (Proc.devRef .tc main_v31)) (Wv (Proc.devRef .tc main_v6)) (Wv (Proc.devRef .tc main_v8)) c k)
  after_results_simp
  rfl

/-- After edge stage 3: node c, feature k of the aggregate is the sum, over the edges into c, of the row that the
    edge's source holds in the array the stage reads. -/
theorem stage3_agg (c : Fin 50000) (k : Fin 256) :
    cur (α := EReal) (StableHlo.after (hostOps3 (F := Ideal)) Wv (Proc.devRef .tc main_v55)) c k
      = gat (srcOf 50000 (by decide) 50000#32 (cur1 (α := BitVec 32) (Wv (Proc.devRef .tc main_v6))))
          (dstOf (cur1 (α := BitVec 32) (Wv (Proc.devRef .tc main_v8))))
          (cur (α := EReal) (Wv (Proc.devRef .tc main_v44))) c k := by
  refine Eq.trans (congrFun ?_ (ix2 c k)) (edge_stage_apply (N := 50000) (R := 850000) (C := 256) (by decide) bitsLt_bf16_f32
    gather_S50000x256_S850000x1_S850000x256_1_0_n_n_0_1_1256_wf scatter_S50000x256_S850000x1_S850000x256_1_0_0_1_wf
    bcast_S_S50000x256 bcast_S850000_S850000x1_0 bcast_S_S850000 50000#32
    (Wv (Proc.devRef .tc main_v44)) (Wv (Proc.devRef .tc main_v6)) (Wv (Proc.devRef .tc main_v8)) c k)
  after_results_simp
  rfl

/-- The bias of stretch 1, kept as a row: its entry (0, k) is the bias vector's entry k. -/
theorem stage1_bias (k : Fin 64) :
    row0 (α := EReal) (StableHlo.after (hostOps1 (F := Ideal)) Wv (Proc.devRef .tc main_v30)) k
      = cur1 (α := EReal) (Wv (Proc.devRef .tc main_arg4)) k := by
  refine Eq.trans (congrFun ?_ (ix2 (0 : Fin 1) k)) (shapeCast_a_1a_apply (Wv (Proc.devRef .tc main_arg4)) shapeCasts_S64_S1x64 (0 : Fin 1) k)
  after_results_simp
  rfl

/-- The bias of stretch 2, kept as a row: its entry (0, k) is the bias vector's entry k. -/
theorem stage2_bias (k : Fin 128) :
    row0 (α := EReal) (StableHlo.after (hostOps2 (F := Ideal)) Wv (Proc.devRef .tc main_v43)) k
      = cur1 (α := EReal) (Wv (Proc.devRef .tc main_arg6)) k := by
  refine Eq.trans (congrFun ?_ (ix2 (0 : Fin 1) k)) (shapeCast_a_1a_apply (Wv (Proc.devRef .tc main_arg6)) shapeCasts_S128_S1x128 (0 : Fin 1) k)
  after_results_simp
  rfl

/-- The bias of stretch 3, kept as a row: its entry (0, k) is the bias vector's entry k. -/
theorem stage3_bias (k : Fin 256) :
    row0 (α := EReal) (StableHlo.after (hostOps3 (F := Ideal)) Wv (Proc.devRef .tc main_v56)) k
      = cur1 (α := EReal) (Wv (Proc.devRef .tc main_arg8)) k := by
  refine Eq.trans (congrFun ?_ (ix2 (0 : Fin 1) k)) (shapeCast_a_1a_apply (Wv (Proc.devRef .tc main_arg8)) shapeCasts_S256_S1x256 (0 : Fin 1) k)
  after_results_simp
  rfl

/-- The bias of stretch 4, kept as a row: its entry (0, k) is the bias vector's entry k. -/
theorem stage4_bias (k : Fin 247) :
    row0 (α := EReal) (StableHlo.after (hostOps4 (F := Ideal)) Wv (Proc.devRef .tc main_v70)) k
      = cur1 (α := EReal) (Wv (Proc.devRef .tc main_arg10)) k := by
  refine Eq.trans (congrFun ?_ (ix2 (0 : Fin 1) k)) (shapeCast_a_1a_apply (Wv (Proc.devRef .tc main_arg10)) shapeCasts_S247_S1x247 (0 : Fin 1) k)
  after_results_simp
  rfl

/-- The mean pool by graph, as one function of the node features h and the graph index of each node b: the sum of the
    features by graph index, divided entry by entry by the number of nodes of the graph clipped below at one. -/
def poolK (h : FVec Ideal S50000x256 .f32) (b : IVec S50000 32) : FVec Ideal S16x256 .f32 :=
  Host.divf (F := Ideal)
    (Host.scatterAdd (F := Ideal) scatter_S16x256_S50000x1_S50000x256_1_0_0_1
      (broadcastInDim S16x256 ![] bcast_S_S16x256 (constant (F := Ideal) S_ .f32 0x00000000#32))
      (broadcastInDim S50000x1 ![0] bcast_S50000_S50000x1_0 b) h)
    (broadcastInDim S16x256 ![0, 1] bcast_S16x1_S16x256_0_1
      (broadcastInDim S16x1 ![0] bcast_S16_S16x1_0
        (maximumf
          (Host.scatterAdd (F := Ideal) scatter_S16_S50000x1_S50000_n_0_0_1
            (broadcastInDim S16 ![] bcast_S_S16 (constant (F := Ideal) S_ .f32 0x00000000#32))
            (broadcastInDim S50000x1 ![0] bcast_S50000_S50000x1_0 b)
            (broadcastInDim S50000 ![] bcast_S_S50000 (constant (F := Ideal) S_ .f32 0x3F800000#32)))
          (broadcastInDim S16 ![] bcast_S_S16 (constant (F := Ideal) S_ .f32 0x3F800000#32)))))

/-- The last stretch leaves the pooled features: the pool of the last layer's features and the graph indices. -/
theorem stage4_pool :
    StableHlo.after (hostOps4 (F := Ideal)) Wv (Proc.devRef .tc main_v69)
      = poolK (Wv (Proc.devRef .tc main_v57)) (Wv (Proc.devRef .tc main_arg2)) := by
  after_results_simp
  rfl

end Cert.KernelIdeal.KVal

end
-- ==== Proof.LibUnitAxes.lean ====
/-
  A unit axis of a two- or three-axis array, read at an entry.

  A cast that adds a unit axis does not move any entry: an [a, b] array seen as [a, b, 1] reads at (p, q, 0) its entry
  (p, q); seen as [a, 1, b] it reads at (p, 0, q) its entry (p, q); an [a] array seen as [a, 1] reads at (p, 0) its
  entry p.  A broadcast along a unit axis repeats the one entry there: an [a, b, 1] array repeated to [a, b, c] reads at
  (p, q, r) its entry (p, q, 0); an [a, 1, c] array repeated to [a, b, c] reads at (p, q, r) its entry (p, 0, r); an
  [a, 1] array repeated to [a, b] reads at (p, q) its entry (p, 0).  And a vector of c entries seen as [1, 1, c] and
  repeated to [a, b, c] reads at (p, q, r) its entry r.
-/
import Idealize.ShloMosaic.Lib.ValueIdx
import Idealize.ShloMosaic.Lib.Pipeline.Value

noncomputable section

namespace Cert.UnitAxes

open Idealize.ShloMosaic Idealize.ShloMosaic.ValueIdx

variable {α : Type}

/-- [a, b] seen as [a, b, 1]: at (p, q, 0) the entry (p, q). -/
theorem cast_last_apply {a b : ℕ} (v : (⟨2, ![a, b]⟩ : Shape).Idx → α)
    (h : (⟨2, ![a, b]⟩ : Shape).ShapeCasts ⟨3, ![a, b, 1]⟩) (p : Fin a) (q : Fin b) :
    shapeCast ⟨3, ![a, b, 1]⟩ v h (ix3 p q (0 : Fin 1)) = v (ix2 p q) := by
  refine shapeCast_apply v h (ix3 p q (0 : Fin 1)) (ix2 p q) ?_
  rw [Shape.rowMajor_val_two, Shape.rowMajor_val_three]
  show p.val * b + q.val = (p.val * b + q.val) * 1 + 0
  omega

/-- [a, c] seen as [a, 1, c]: at (p, 0, r) the entry (p, r). -/
theorem cast_mid_apply {a c : ℕ} (v : (⟨2, ![a, c]⟩ : Shape).Idx → α)
    (h : (⟨2, ![a, c]⟩ : Shape).ShapeCasts ⟨3, ![a, 1, c]⟩) (p : Fin a) (r : Fin c) :
    shapeCast ⟨3, ![a, 1, c]⟩ v h (ix3 p (0 : Fin 1) r) = v (ix2 p r) := by
  refine shapeCast_apply v h (ix3 p (0 : Fin 1) r) (ix2 p r) ?_
  rw [Shape.rowMajor_val_two, Shape.rowMajor_val_three]
  show p.val * c + r.val = (p.val * 1 + 0) * c + r.val
  rw [Nat.mul_one, Nat.add_zero]

/-- [a] seen as [a, 1]: at (p, 0) the entry p. -/
theorem cast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- [a, b, 1] repeated to [a, b, c]: at (p, q, r) the entry (p, q, 0). -/
theorem repeat_last_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] repeated to [a, b, c]: at (p, q, r) the entry (p, 0, r). -/
theorem repeat_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [a, 1] repeated to [a, b]: at (p, q) the entry (p, 0). -/
theorem repeat_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of c entries seen as [1, 1, c] and repeated to [a, b, c]: at (p, q, r) the entry r. -/
theorem vector_repeated_apply {a b c : ℕ} (v : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 (ix3 (0 : Fin 1) (0 : Fin 1) r) (ix1 r) ?_
    rw [Shape.rowMajor_val_one, Shape.rowMajor_val_three]
    show r.val = (0 * 1 + 0) * c + r.val
    omega

end Cert.UnitAxes

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.KEntries.lean ====
import Idealize.ShloMosaic.Lib.ValueIdx
import Mathlib.Data.EReal.Basic
import Mathlib.Algebra.BigOperators.Group.Finset.Basic

/-!
  The three entry formulas of the network's dense regions, over arrays of extended reals of any extents.

  A projection with a per-row scale: at (p, q) the product's entry, the sum over j of x (p, j) · w (j, q), times row p's
  factor.  A scale, bias and cutoff: at (p, q) the entry of x scaled by row p's factor, plus column q's bias, cut off
  below at zero.  A product with a bias: at (p, q) the product's entry plus column q's bias.
-/

noncomputable section

namespace Cert.KernelIdeal.KVal

open Idealize.ShloMosaic Idealize.ShloMosaic.ValueIdx
open scoped BigOperators

/-- The product of x and w at (p, q), scaled by row p's factor. -/
def projEntry {a n m : ℕ} (x : (⟨2, ![a, n]⟩ : Shape).Idx → EReal) (w : (⟨2, ![n, m]⟩ : Shape).Idx → EReal)
    (d : (⟨2, ![a, 1]⟩ : Shape).Idx → EReal) (p : Fin a) (q : Fin m) : EReal :=
  (∑ j : Fin n, x (ix2 p j) * w (ix2 j q)) * d (ix2 p (0 : Fin 1))

/-- The entry of x at (p, q) scaled by row p's factor, plus column q's bias, cut off below at zero. -/
def biasReluEntry {a m : ℕ} (x : (⟨2, ![a, m]⟩ : Shape).Idx → EReal) (d : (⟨2, ![a, 1]⟩ : Shape).Idx → EReal)
    (b : (⟨2, ![1, m]⟩ : Shape).Idx → EReal) (p : Fin a) (q : Fin m) : EReal :=
  max (x (ix2 p q) * d (ix2 p (0 : Fin 1)) + b (ix2 (0 : Fin 1) q)) 0

/-- The product of x and w at (p, q), plus column q's bias. -/
def headEntry {a n m : ℕ} (x : (⟨2, ![a, n]⟩ : Shape).Idx → EReal) (w : (⟨2, ![n, m]⟩ : Shape).Idx → EReal)
    (b : (⟨2, ![1, m]⟩ : Shape).Idx → EReal) (p : Fin a) (q : Fin m) : EReal :=
  (∑ j : Fin n, x (ix2 p j) * w (ix2 j q)) + b (ix2 (0 : Fin 1) q)

end Cert.KernelIdeal.KVal

end
-- ==== Proof.KReg0.lean ====
import proofs.«165119_j21320217657456_2_alg».proof.Proof.Gen.KernelIdeal.Frame
import proofs.«165119_j21320217657456_2_alg».proof.Proof.LibUnitAxes
import proofs.«165119_j21320217657456_2_alg».proof.Proof.LibPlainMatmul
import proofs.«165119_j21320217657456_2_alg».proof.Proof.KEntries
import Idealize.ShloMosaic.Lib.Pipeline.Value
import Idealize.ShloMosaic.Lib.ValueIdx
import Idealize.ShloMosaic.Lib.ValueLayout
import Idealize.ShloMosaic.PureOps.Ideal.Laws

/-!
  The projection-and-prescale region, read entry by entry.

  The region walks the rows of a [50000, 3] array in 25 blocks of 2000 rows.  On a block it multiplies the rows by a
  [3, 64] matrix and scales every row of the product by that row's factor.  Here: that arithmetic at one entry of a
  block, against arrays that agree with the block's rows; the whole output array as one function of the three input
  arrays; each point's write-back as that function's block; the blocks cover every row; hence the array the region
  leaves, entry by entry.
-/

noncomputable section

namespace Cert.KernelIdeal.KVal

open Cert.KernelIdeal Cert.KernelIdeal.Gen Idealize.ShloMosaic Idealize.ShloMosaic.TcCoe Idealize.ShloMosaic.ValueIdx
open Idealize.ShloMosaic.Pipeline (Dat)
open scoped BigOperators

theorem hz0 : (![0, 0] : Fin 2 → Nat) = fun _ => 0 := funext fun a => by fin_cases a <;> rfl

/-- The body's arithmetic at row r, column q of a block: the product's entry scaled by the row's factor. -/
theorem pay0_apply (x0 : Vec Ideal S2000x3 .f32) (x1 : Vec Ideal S3x64 .f32) (x2 : Vec Ideal S2000x1 .f32)
    (r : Fin 2000) (q : Fin 64) :
    k0_pay1 x0 x1 x2 (ix2 r q) = (∑ j : Fin 3, x0 (ix2 r j) * x1 (ix2 j q)) * x2 (ix2 r (0 : Fin 1)) := by
  unfold k0_pay1
  show FloatOps.matmul (F := Ideal) dot_S2000x3_S3x64_S2000x64_1_0_0_1_n_n none
        (truncf (F := Ideal) .bf16 (x0 : FVec Ideal S2000x3 .f32) bitsLt_bf16_f32)
        (truncf (F := Ideal) .bf16 (x1 : FVec Ideal S3x64 .f32) bitsLt_bf16_f32)
        (constant (F := Ideal) S2000x64 .f32 0x00000000#32) (ix2 r q)
      * broadcastTo S2000x64 (shapeCast S2000x1 x2 shapeCasts_S2000x1_S2000x1) broadcasts_S2000x1_S2000x64 (ix2 r q) = _
  rw [shapeCast_self, Cert.UnitAxes.repeat_col_apply]
  exact congrArg (· * x2 (ix2 r (0 : Fin 1)))
    (Cert.PlainMatmul.zero_acc_apply dot_S2000x3_S3x64_S2000x64_1_0_0_1_n_n_wf none
      (truncf .bf16 x0 bitsLt_bf16_f32) (truncf .bf16 x1 bitsLt_bf16_f32) r q)

/-- The same entry against arrays that hold the block's row r at their row P, the matrix's column q at their column
    Q, and the row's factor at their row P. -/
theorem pay0_block (x0 : Vec Ideal S2000x3 .f32) (x1 : Vec Ideal S3x64 .f32) (x2 : Vec Ideal S2000x1 .f32)
    (a0 : S50000x3.Idx → EReal) (a1 : S3x64.Idx → EReal) (a2 : S50000x1.Idx → EReal)
    (r : Fin 2000) (q : Fin 64) (P : Fin 50000) (Q : Fin 64)
    (h0 : ∀ j : Fin 3, x0 (ix2 r j) = a0 (ix2 P j)) (h1 : ∀ j : Fin 3, x1 (ix2 j q) = a1 (ix2 j Q))
    (h2 : x2 (ix2 r (0 : Fin 1)) = a2 (ix2 P (0 : Fin 1))) :
    k0_pay1 x0 x1 x2 (ix2 r q) = projEntry a0 a1 a2 P Q := by
  rw [pay0_apply, h2]
  unfold projEntry
  exact congrArg (· * a2 (ix2 P (0 : Fin 1))) (Finset.sum_congr rfl fun j _ => by rw [h0 j, h1 j])

/-- The whole output array as one function of the three input arrays. -/
def G0 (a0 : S50000x3.Idx → EReal) (a1 : S3x64.Idx → EReal) (a2 : S50000x1.Idx → EReal) : S50000x64.Idx → EReal :=
  fun i => projEntry a0 a1 a2 (i 0) (i 1)

/-- The printed index maps over the grid: the row windows sit at block row t, the matrix window stays at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the whole-array function. -/
theorem flushed0_eq (c : Dev nD) (t : Fin cfg0.N) :
    (dat0 (F := Ideal) V c).flushed 3 t
      = ((cfg0.win 3).blk t).view.read (Elt Ideal) (G0 (V c main_arg0) (V c main_arg3) (V c main_v17)) := by
  show (cfg0.win 3).cut (grid0.coords t) ((dat0 (F := Ideal) V c).after 3 t) = _
  rw [after0_3]
  unfold out0_3
  rw [View.canon_unit_zero hz0]
  simp only [View.ld_unit_zero (S := S2000x3) hz0, View.ld_unit_zero (S := S3x64) hz0, View.ld_unit_zero (S := S2000x1) hz0]
  obtain ⟨e00, e01, e10, e11, e20, e21, e30, e31⟩ := idx_facts0 t
  funext j
  obtain ⟨r, q, rfl⟩ : ∃ (r : Fin 2000) (q : Fin 64), j = ix2 r q := ⟨j 0, j 1, eq_ix2 j⟩
  show k0_pay1 (iblk0 V c 0 t) (iblk0 V c 1 t) (iblk0 V c 2 t) (ix2 r q)
    = projEntry (V c main_arg0) (V c main_arg3) (V c main_v17)
        ((((cfg0.win 3).blk t).view.emb (ix2 r q)) 0) ((((cfg0.win 3).blk t).view.emb (ix2 r q)) 1)
  refine pay0_block (iblk0 V c 0 t) (iblk0 V c 1 t) (iblk0 V c 2 t) (V c main_arg0) (V c main_arg3) (V c main_v17)
    r q ((((cfg0.win 3).blk t).view.emb (ix2 r q)) 0) ((((cfg0.win 3).blk t).view.emb (ix2 r q)) 1) ?_ ?_ ?_
  · intro k
    show V c main_arg0 (((cfg0.win 0).blk t).view.emb (ix2 r k)) = _
    refine congrArg (V c main_arg0) (funext fun a => Fin.ext ?_)
    match a with
    | ⟨0, _⟩ =>
      show win0_0.index t (0 : Fin 2) * 2000 + 1 * r.val = win0_3.index t (0 : Fin 2) * 2000 + 1 * r.val
      omega
    | ⟨1, _⟩ =>
      show win0_0.index t (1 : Fin 2) * 3 + 1 * k.val = k.val
      omega
  · intro k
    show V c main_arg3 (((cfg0.win 1).blk t).view.emb (ix2 k q)) = _
    refine congrArg (V c main_arg3) (funext fun a => Fin.ext ?_)
    match a with
    | ⟨0, _⟩ =>
      show win0_1.index t (0 : Fin 2) * 3 + 1 * k.val = k.val
      omega
    | ⟨1, _⟩ =>
      show win0_1.index t (1 : Fin 2) * 64 + 1 * q.val = win0_3.index t (1 : Fin 2) * 64 + 1 * q.val
      omega
  · show V c main_v17 (((cfg0.win 2).blk t).view.emb (ix2 r (0 : Fin 1))) = _
    refine congrArg (V c main_v17) (funext fun a => Fin.ext ?_)
    match a with
    | ⟨0, _⟩ =>
      show win0_2.index t (0 : Fin 2) * 2000 + 1 * r.val = win0_3.index t (0 : Fin 2) * 2000 + 1 * r.val
      omega
    | ⟨1, _⟩ =>
      show win0_2.index t (1 : Fin 2) * 1 + 1 * 0 = 0
      omega

/-- An index of the array is in point t's block iff each coordinate is in the block's range on its axis. -/
theorem mem_blk0 (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v18).slice (win0_3.rect t)).set ↔ _
  rw [View.set_slice_whole, Rect.mem_set_unit]
  exact Iff.rfl

/-- Row p lies in the block of point p / 2000, which is written back. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  have hlt : (i 0).val / 2000 < cfg0.N := by rw [hN]; omega
  obtain ⟨_, _, _, _, _, _, e30, e31⟩ := idx_facts0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hlt⟩ (1 : Fin 2) * 64 ≤ (i 1).val
      ∧ (i 1).val < win0_3.index ⟨(i 0).val / 2000, hlt⟩ (1 : Fin 2) * 64 + 64
    rw [e31]
    omega

/-- The output array after the region is the whole-array function of the arrays the region found. -/
theorem final0 (c : Dev nD) :
    (dat0 (F := Ideal) V c).arrAt 3 cfg0.N = G0 (V c main_arg0) (V c main_arg3) (V c main_v17) :=
  (dat0 (F := Ideal) V c).arrAt_eq_of_cover 3 _ (fun t _ => flushed0_eq V c t) cover0

/-- The projection-and-prescale region, entry by entry. -/
theorem reg0_apply (c : Dev nD) (p : Fin 50000) (q : Fin 64) :
    (dat0 (F := Ideal) V c).arrAt 3 cfg0.N (ix2 p q)
      = projEntry (V c main_arg0) (V c main_arg3) (V c main_v17) p q :=
  congrFun (final0 V c) (ix2 p q)

end Cert.KernelIdeal.KVal

end
-- ==== Proof.KFused.lean ====
/-
  The fused layer body read at an entry.

  The body takes a block x of a rows and n columns, a column d of a entries (loaded twice: d and d'), a row b of n
  entries and a weight block w of n rows and m columns, and stores

      ( relu(x · d + b)  @  w ) · d'

  where "· d" scales row p by d(p), "+ b" adds b(j) in column j, relu is the maximum with zero, "@" is the plain
  matrix product onto the zero block, and the format changes around the product are the identity on the extended
  reals.  So at (p, q) the stored block holds

      ( Σ_j  max (x(p, j) · d(p) + b(j)) 0 · w(j, q) ) · d'(p).

  The extents are variables: the same reading serves every layer that runs this body.
-/
import Idealize.ShloMosaic.Lib.Pipeline.Value
import Idealize.ShloMosaic.Lib.ValueIdx
import Idealize.ShloMosaic.Lib.ValueLayout
import Idealize.ShloMosaic.PureOps.Ideal.Laws
import proofs.«165119_j21320217657456_2_alg».proof.Proof.LibPlainMatmul
import proofs.«165119_j21320217657456_2_alg».proof.Proof.LibUnitAxes

noncomputable section

open scoped BigOperators

namespace Cert.KernelIdeal.KVal

open Idealize.ShloMosaic Idealize.ShloMosaic.ValueIdx

/-- The fused layer's result at (p, q), from the whole arrays: the row p of x scaled by d(p) and shifted by b, relu'd,
    multiplied into column q of w, and scaled by d(p) again. -/
def fusedEntry {a n m : ℕ} (x : (⟨2, ![a, n]⟩ : Shape).Idx → EReal) (d : (⟨2, ![a, 1]⟩ : Shape).Idx → EReal)
    (b : (⟨2, ![1, n]⟩ : Shape).Idx → EReal) (w : (⟨2, ![n, m]⟩ : Shape).Idx → EReal) (p : Fin a) (q : Fin m) : EReal :=
  (∑ j : Fin n, max (x (ix2 p j) * d (ix2 p (0 : Fin 1)) + b (ix2 (0 : Fin 1) j)) 0 * w (ix2 j q)) * d (ix2 p (0 : Fin 1))

/-- The fused layer's result as one array: entry i is `fusedEntry` at i's two coordinates. -/
def fusedOut {a n m : ℕ} (x : (⟨2, ![a, n]⟩ : Shape).Idx → EReal) (d : (⟨2, ![a, 1]⟩ : Shape).Idx → EReal)
    (b : (⟨2, ![1, n]⟩ : Shape).Idx → EReal) (w : (⟨2, ![n, m]⟩ : Shape).Idx → EReal) :
    (⟨2, ![a, m]⟩ : Shape).Idx → EReal :=
  fun i => fusedEntry x d b w (i 0 : Fin a) (i 1 : Fin m)

/-- At the entry built from (p, q) the array reads `fusedEntry` at (p, q). -/
theorem fusedOut_apply {a n m : ℕ} (x : (⟨2, ![a, n]⟩ : Shape).Idx → EReal) (d : (⟨2, ![a, 1]⟩ : Shape).Idx → EReal)
    (b : (⟨2, ![1, n]⟩ : Shape).Idx → EReal) (w : (⟨2, ![n, m]⟩ : Shape).Idx → EReal) (p : Fin a) (q : Fin m) :
    fusedOut x d b w (ix2 p q) = fusedEntry x d b w p q := rfl

/-- The offsets of a whole two-axis access are zero on both axes. -/
theorem fused_zero_offsets : (![0, 0] : Fin 2 → Nat) = fun _ => 0 := funext fun a => by fin_cases a <;> rfl

/-- The fused body's stored block at (p, q): the matrix product of relu(x · d + b) with w, scaled by d'. -/
theorem fused_apply {a n m : ℕ}
    (x : FVec Ideal ⟨2, ![a, n]⟩ .f32) (d : FVec Ideal ⟨2, ![a, 1]⟩ .f32) (b : FVec Ideal ⟨2, ![1, n]⟩ .f32)
    (w : FVec Ideal ⟨2, ![n, m]⟩ .f32) (d' : FVec Ideal ⟨2, ![a, 1]⟩ .f32)
    (hx : (⟨2, ![a, n]⟩ : Shape).ShapeCasts ⟨2, ![a, n]⟩)
    (hd : (⟨2, ![a, 1]⟩ : Shape).ShapeCasts ⟨2, ![a, 1]⟩)
    (hb : (⟨2, ![1, n]⟩ : Shape).ShapeCasts ⟨2, ![1, n]⟩)
    (hdn : (⟨2, ![a, 1]⟩ : Shape).Broadcasts ⟨2, ![a, n]⟩)
    (hbn : (⟨2, ![1, n]⟩ : Shape).Broadcasts ⟨2, ![a, n]⟩)
    (hdm : (⟨2, ![a, 1]⟩ : Shape).Broadcasts ⟨2, ![a, m]⟩)
    (wf : DotDims.WF ⟨2, ![a, n]⟩ ⟨2, ![n, m]⟩ ⟨2, ![a, m]⟩ [1] [0] [0] [1] [] [])
    (hlt : FTy.bits .bf16 < FTy.bits .f32) (p : Fin a) (q : Fin m) :
    (truncf .bf16
        (mulf
          (matmul (Cert.PlainMatmul.dims wf) none
            (truncf .bf16
              (maximumf
                (addf (mulf (shapeCast ⟨2, ![a, n]⟩ x hx) (broadcastTo ⟨2, ![a, n]⟩ (shapeCast ⟨2, ![a, 1]⟩ d hd) hdn))
                  (broadcastTo ⟨2, ![a, n]⟩ (shapeCast ⟨2, ![1, n]⟩ b hb) hbn))
                (broadcast ⟨2, ![a, n]⟩ (Scalar.ofBits (F := Ideal) .f32 0x00000000#32))) hlt : FVec Ideal ⟨2, ![a, n]⟩ .bf16)
            (truncf .bf16 w hlt : FVec Ideal ⟨2, ![n, m]⟩ .bf16)
            (constant ⟨2, ![a, m]⟩ .f32 0x00000000#32))
          (broadcastTo ⟨2, ![a, m]⟩ (shapeCast ⟨2, ![a, 1]⟩ d' hd) hdm)) hlt : FVec Ideal ⟨2, ![a, m]⟩ .bf16) (ix2 p q)
      = (∑ j : Fin n, max (x (ix2 p j) * d (ix2 p (0 : Fin 1)) + b (ix2 (0 : Fin 1) j)) 0 * w (ix2 j q))
          * d' (ix2 p (0 : Fin 1)) := by
  -- the outer format change and the product by the repeated column, entry by entry
  refine (truncf_apply _ hlt (ix2 p q)).trans ((mulf_apply _ _ (ix2 p q)).trans ?_)
  refine congrArg₂ (· * ·) ?_ ?_
  · -- the matrix product onto the zero block is the sum over the shared axis
    refine (Cert.PlainMatmul.zero_acc_apply wf none _ _ p q).trans ?_
    refine Finset.sum_congr rfl fun j _ => ?_
    refine congrArg₂ (· * ·) ?_ (truncf_apply w hlt (ix2 j q))
    -- the left factor: relu of the scaled, shifted entry
    refine (truncf_apply _ hlt (ix2 p j)).trans ((maximumf_apply _ _ (ix2 p j)).trans ?_)
    refine congrArg₂ max ?_ Ideal.ofBits_zero_f32
    refine (addf_apply _ _ (ix2 p j)).trans (congrArg₂ (· + ·) ((mulf_apply _ _ (ix2 p j)).trans (congrArg₂ (· * ·) ?_ ?_)) ?_)
    · exact congrFun (shapeCast_self x hx) (ix2 p j)
    · exact (Cert.UnitAxes.repeat_col_apply _ hdn p j).trans (congrFun (shapeCast_self d hd) (ix2 p (0 : Fin 1)))
    · exact (broadcastTo_1b_ab_apply _ hbn p j).trans (congrFun (shapeCast_self b hb) (ix2 (0 : Fin 1) j))
  · exact (Cert.UnitAxes.repeat_col_apply _ hdm p q).trans (congrFun (shapeCast_self d' hd) (ix2 p (0 : Fin 1)))

end Cert.KernelIdeal.KVal

end
-- ==== Proof.KReg1.lean ====
/-
  What the second layer's fused kernel leaves in its output array, entry by entry.

  The kernel runs over 25 grid points; point t works on rows 2000·t … 2000·t + 1999.  Its input blocks at t are: rows
  2000·t … of the [50000, 64] aggregate x and of the [50000, 1] column d (block index (t, 0) of each), and the whole
  [1, 64] row b and the whole [64, 128] weight w (block index (0, 0)).  Its output block at t is rows 2000·t … of the
  [50000, 128] result.  The body stores (relu(x·d + b) @ w)·d of its blocks, and a matrix product's row r depends only on
  row r of its left factor, so the entry (r, q) of the block stored at t is the entry (2000·t + r, q) of ONE array,

      out(p, q) = ( Σ_j  max (x(p, j) · d(p) + b(j)) 0 · w(j, q) ) · d(p),

  of the arrays as the region finds them.  The 25 output blocks tile the 50000 rows (row p lies in block p / 2000), so
  after the last write-back the output array is that array.
-/
import proofs.«165119_j21320217657456_2_alg».proof.Proof.Gen.KernelIdeal.Frame
import proofs.«165119_j21320217657456_2_alg».proof.Proof.KFused
import Idealize.ShloMosaic.Lib.Pipeline.Value
import Idealize.ShloMosaic.Lib.ValueIdx

noncomputable section

open scoped BigOperators

namespace Cert.KernelIdeal.KVal

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The body's stored block at an entry -/

/-- The body's stored block at (r, q), from its loaded blocks: the fused reading at the block's extents. -/
theorem reg1_pay_apply (x0 : Vec Ideal S2000x64 .f32) (x1 : Vec Ideal S2000x1 .f32) (x2 : Vec Ideal S1x64 .f32)
    (x3 : Vec Ideal S64x128 .f32) (x4 : Vec Ideal S2000x1 .f32) (r : Fin 2000) (q : Fin 128) :
    k1_pay1 (F := Ideal) x0 x1 x2 x3 x4 (ix2 r q)
      = (∑ j : Fin 64, max (x0 (ix2 r j) * x1 (ix2 r (0 : Fin 1)) + x2 (ix2 (0 : Fin 1) j)) 0 * x3 (ix2 j q))
          * x4 (ix2 r (0 : Fin 1)) := by
  unfold k1_pay1
  exact fused_apply x0 x1 x2 x3 x4 shapeCasts_S2000x64_S2000x64 shapeCasts_S2000x1_S2000x1 shapeCasts_S1x64_S1x64
    broadcasts_S2000x1_S2000x64 broadcasts_S1x64_S2000x64 broadcasts_S2000x1_S2000x128
    dot_S2000x64_S64x128_S2000x128_1_0_0_1_n_n_wf bitsLt_bf16_f32 r q

/-! ## The blocks the body reads, as rows of the arrays -/

/-- The printed index maps over the grid: the row-blocked windows (x, d, the output) are at block (t, 0) at point t,
    the whole-array windows (b, w) at block (0, 0). -/
theorem reg1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, j) of x's block at point t is entry (2000·t + r, j) of x. -/
theorem reg1_read_x (c : Dev nD) (t : Fin cfg1.N) (r : Fin 2000) (j : Fin 64) (p : Fin 50000)
    (hp : p.val = t.val * 2000 + r.val) :
    (iblk1 V c 0 t : Vec Ideal S2000x64 .f32) (ix2 r j) = (V c main_v29 : S50000x64.Idx → EReal) (ix2 p j) := by
  obtain ⟨e0, e1, -⟩ := reg1_idx_facts t
  unfold iblk1
  show (V c main_v29 : S50000x64.Idx → EReal) (((cfg1.win 0).blk t).view.emb (ix2 r j)) = _
  congr 1
  funext a
  apply Fin.ext
  match a with
  | ⟨0, _⟩ => show win1_0.index t (0 : Fin 2) * 2000 + 1 * r.val = p.val; rw [e0, hp]; omega
  | ⟨1, _⟩ => show win1_0.index t (1 : Fin 2) * 64 + 1 * j.val = j.val; rw [e1]; omega

/-- The one entry of row r of d's block at point t is d's entry of row 2000·t + r. -/
theorem reg1_read_d (c : Dev nD) (t : Fin cfg1.N) (r : Fin 2000) (p : Fin 50000)
    (hp : p.val = t.val * 2000 + r.val) :
    (iblk1 V c 1 t : Vec Ideal S2000x1 .f32) (ix2 r (0 : Fin 1))
      = (V c main_v17 : S50000x1.Idx → EReal) (ix2 p (0 : Fin 1)) := by
  obtain ⟨-, -, e0, e1, -⟩ := reg1_idx_facts t
  unfold iblk1
  show (V c main_v17 : S50000x1.Idx → EReal) (((cfg1.win 1).blk t).view.emb (ix2 r (0 : Fin 1))) = _
  congr 1
  funext a
  apply Fin.ext
  match a with
  | ⟨0, _⟩ => show win1_1.index t (0 : Fin 2) * 2000 + 1 * r.val = p.val; rw [e0, hp]; omega
  | ⟨1, _⟩ => show win1_1.index t (1 : Fin 2) * 1 + 1 * 0 = 0; rw [e1]

/-- b's block at every point is b. -/
theorem reg1_read_b (c : Dev nD) (t : Fin cfg1.N) (j : Fin 64) :
    (iblk1 V c 2 t : Vec Ideal S1x64 .f32) (ix2 (0 : Fin 1) j)
      = (V c main_v30 : S1x64.Idx → EReal) (ix2 (0 : Fin 1) j) := by
  obtain ⟨-, -, -, -, e0, e1, -⟩ := reg1_idx_facts t
  unfold iblk1
  show (V c main_v30 : S1x64.Idx → EReal) (((cfg1.win 2).blk t).view.emb (ix2 (0 : Fin 1) j)) = _
  congr 1
  funext a
  apply Fin.ext
  match a with
  | ⟨0, _⟩ => show win1_2.index t (0 : Fin 2) * 1 + 1 * 0 = 0; rw [e0]
  | ⟨1, _⟩ => show win1_2.index t (1 : Fin 2) * 64 + 1 * j.val = j.val; rw [e1]; omega

/-- w's block at every point is w. -/
theorem reg1_read_w (c : Dev nD) (t : Fin cfg1.N) (j : Fin 64) (q : Fin 128) :
    (iblk1 V c 3 t : Vec Ideal S64x128 .f32) (ix2 j q) = (V c main_arg5 : S64x128.Idx → EReal) (ix2 j q) := by
  obtain ⟨-, -, -, -, -, -, e0, e1, -⟩ := reg1_idx_facts t
  unfold iblk1
  show (V c main_arg5 : S64x128.Idx → EReal) (((cfg1.win 3).blk t).view.emb (ix2 j q)) = _
  congr 1
  funext a
  apply Fin.ext
  match a with
  | ⟨0, _⟩ => show win1_3.index t (0 : Fin 2) * 64 + 1 * j.val = j.val; rw [e0]; omega
  | ⟨1, _⟩ => show win1_3.index t (1 : Fin 2) * 128 + 1 * q.val = q.val; rw [e1]; omega

/-! ## What a point writes back, and the array after the last point -/

/-- What point t writes back is block t of the one array `fusedOut` of the arrays as the region finds them. -/
theorem reg1_flushed (c : Dev nD) (t : Fin cfg1.N) :
    (dat1 V c).flushed 4 t = ((cfg1.win 4).blk t).view.read (Elt Ideal)
      (fusedOut (V c main_v29) (V c main_v17) (V c main_v30) (V c main_arg5)) := by
  show (cfg1.win 4).cut (grid1.coords t) ((dat1 V c).after 4 t) = _
  rw [after1_4]
  unfold out1_4
  rw [View.canon_unit_zero fused_zero_offsets]
  simp only [View.ld_unit_zero (S := S2000x64) fused_zero_offsets, View.ld_unit_zero (S := S2000x1) fused_zero_offsets,
    View.ld_unit_zero (S := S1x64) fused_zero_offsets, View.ld_unit_zero (S := S64x128) fused_zero_offsets]
  funext y
  obtain ⟨r, q, rfl⟩ : ∃ (r : Fin 2000) (q : Fin 128), y = ix2 r q := ⟨y 0, y 1, eq_ix2 y⟩
  have hN : cfg1.N = 25 := N_1
  have ht : t.val < cfg1.N := t.isLt
  obtain ⟨p, hp⟩ : ∃ p : Fin 50000, p.val = t.val * 2000 + r.val := ⟨⟨t.val * 2000 + r.val, by omega⟩, rfl⟩
  obtain ⟨-, -, -, -, -, -, -, -, e0, e1⟩ := reg1_idx_facts t
  -- the entry (r, q) of the output's block at t is the entry (2000·t + r, q) of the output array
  have hemb : ((cfg1.win 4).blk t).view.emb (ix2 r q) = ix2 p q := by
    funext a
    apply Fin.ext
    match a with
    | ⟨0, _⟩ => show win1_4.index t (0 : Fin 2) * 2000 + 1 * r.val = p.val; rw [e0, hp]; omega
    | ⟨1, _⟩ => show win1_4.index t (1 : Fin 2) * 128 + 1 * q.val = q.val; rw [e1]; omega
  refine (reg1_pay_apply (iblk1 V c 0 t) (iblk1 V c 1 t) (iblk1 V c 2 t) (iblk1 V c 3 t) (iblk1 V c 1 t) r q).trans ?_
  show _ = fusedOut (V c main_v29) (V c main_v17) (V c main_v30) (V c main_arg5) (((cfg1.win 4).blk t).view.emb (ix2 r q))
  rw [hemb, fusedOut_apply]
  unfold fusedEntry
  refine congrArg₂ (· * ·) (Finset.sum_congr rfl fun j _ => ?_) (reg1_read_d V c t r p hp)
  exact congrArg₂ (· * ·)
    (congrArg₂ max
      (congrArg₂ (· + ·) (congrArg₂ (· * ·) (reg1_read_x V c t r j p hp) (reg1_read_d V c t r p hp)) (reg1_read_b V c t j))
      rfl)
    (reg1_read_w V c t j q)

/-- An entry of the output array is in point t's block iff each coordinate is in the block's range on its axis. -/
theorem reg1_mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v31).slice (win1_4.rect t)).set ↔ _
  rw [View.set_slice_whole, Rect.mem_set_unit]
  exact Iff.rfl

/-- Every entry of the output array is in some point's block: row p in the block of point p / 2000. -/
theorem reg1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, e0, e1⟩ := reg1_idx_facts t
  refine ⟨t, flush1_4 t, ?_⟩
  rw [reg1_mem_blk]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 128 ≤ (i 1).val ∧ (i 1).val < win1_4.index t (1 : Fin 2) * 128 + 128
    rw [e1]; omega

/-- The output array after the region: `fusedOut` of the arrays as the region finds them. -/
theorem reg1_final (c : Dev nD) :
    (dat1 V c).arrAt 4 cfg1.N = fusedOut (V c main_v29) (V c main_v17) (V c main_v30) (V c main_arg5) :=
  (dat1 V c).arrAt_eq_of_cover 4 (fusedOut (V c main_v29) (V c main_v17) (V c main_v30) (V c main_arg5))
    (fun t _ => reg1_flushed V c t) reg1_cover

/-- The output array after the region, at the entry (p, q). -/
theorem reg1_apply (c : Dev nD) (p : Fin 50000) (q : Fin 128) :
    (dat1 (F := Ideal) V c).arrAt 4 cfg1.N (ix2 p q)
      = fusedEntry (V c main_v29) (V c main_v17) (V c main_v30) (V c main_arg5) p q := by
  rw [reg1_final]
  rfl

end Cert.KernelIdeal.KVal

end
-- ==== Proof.KReg2.lean ====
/-
  What the third layer's fused kernel leaves in its output array, entry by entry.

  The kernel runs over 25 grid points; point t works on rows 2000·t … 2000·t + 1999.  Its input blocks at t are: rows
  2000·t … of the [50000, 128] aggregate x and of the [50000, 1] column d (block index (t, 0) of each), and the whole
  [1, 128] row b and the whole [128, 256] weight w (block index (0, 0)).  Its output block at t is rows 2000·t … of the
  [50000, 256] result.  The body stores (relu(x·d + b) @ w)·d of its blocks, and a matrix product's row r depends only on
  row r of its left factor, so the entry (r, q) of the block stored at t is the entry (2000·t + r, q) of ONE array,

      out(p, q) = ( Σ_j  max (x(p, j) · d(p) + b(j)) 0 · w(j, q) ) · d(p),

  of the arrays as the region finds them.  The 25 output blocks tile the 50000 rows (row p lies in block p / 2000), so
  after the last write-back the output array is that array.
-/
import proofs.«165119_j21320217657456_2_alg».proof.Proof.Gen.KernelIdeal.Frame
import proofs.«165119_j21320217657456_2_alg».proof.Proof.KFused
import Idealize.ShloMosaic.Lib.Pipeline.Value
import Idealize.ShloMosaic.Lib.ValueIdx

noncomputable section

open scoped BigOperators

namespace Cert.KernelIdeal.KVal

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The body's stored block at an entry -/

/-- The body's stored block at (r, q), from its loaded blocks: the fused reading at the block's extents. -/
theorem reg2_pay_apply (x0 : Vec Ideal S2000x128 .f32) (x1 : Vec Ideal S2000x1 .f32) (x2 : Vec Ideal S1x128 .f32)
    (x3 : Vec Ideal S128x256 .f32) (x4 : Vec Ideal S2000x1 .f32) (r : Fin 2000) (q : Fin 256) :
    k2_pay1 (F := Ideal) x0 x1 x2 x3 x4 (ix2 r q)
      = (∑ j : Fin 128, max (x0 (ix2 r j) * x1 (ix2 r (0 : Fin 1)) + x2 (ix2 (0 : Fin 1) j)) 0 * x3 (ix2 j q))
          * x4 (ix2 r (0 : Fin 1)) := by
  unfold k2_pay1
  exact fused_apply x0 x1 x2 x3 x4 shapeCasts_S2000x128_S2000x128 shapeCasts_S2000x1_S2000x1 shapeCasts_S1x128_S1x128
    broadcasts_S2000x1_S2000x128 broadcasts_S1x128_S2000x128 broadcasts_S2000x1_S2000x256
    dot_S2000x128_S128x256_S2000x256_1_0_0_1_n_n_wf bitsLt_bf16_f32 r q

/-! ## The blocks the body reads, as rows of the arrays -/

/-- The printed index maps over the grid: the row-blocked windows (x, d, the output) are at block (t, 0) at point t,
    the whole-array windows (b, w) at block (0, 0). -/
theorem reg2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (r, j) of x's block at point t is entry (2000·t + r, j) of x. -/
theorem reg2_read_x (c : Dev nD) (t : Fin cfg2.N) (r : Fin 2000) (j : Fin 128) (p : Fin 50000)
    (hp : p.val = t.val * 2000 + r.val) :
    (iblk2 V c 0 t : Vec Ideal S2000x128 .f32) (ix2 r j) = (V c main_v42 : S50000x128.Idx → EReal) (ix2 p j) := by
  obtain ⟨e0, e1, -⟩ := reg2_idx_facts t
  unfold iblk2
  show (V c main_v42 : S50000x128.Idx → EReal) (((cfg2.win 0).blk t).view.emb (ix2 r j)) = _
  congr 1
  funext a
  apply Fin.ext
  match a with
  | ⟨0, _⟩ => show win2_0.index t (0 : Fin 2) * 2000 + 1 * r.val = p.val; rw [e0, hp]; omega
  | ⟨1, _⟩ => show win2_0.index t (1 : Fin 2) * 128 + 1 * j.val = j.val; rw [e1]; omega

/-- The one entry of row r of d's block at point t is d's entry of row 2000·t + r. -/
theorem reg2_read_d (c : Dev nD) (t : Fin cfg2.N) (r : Fin 2000) (p : Fin 50000)
    (hp : p.val = t.val * 2000 + r.val) :
    (iblk2 V c 1 t : Vec Ideal S2000x1 .f32) (ix2 r (0 : Fin 1))
      = (V c main_v17 : S50000x1.Idx → EReal) (ix2 p (0 : Fin 1)) := by
  obtain ⟨-, -, e0, e1, -⟩ := reg2_idx_facts t
  unfold iblk2
  show (V c main_v17 : S50000x1.Idx → EReal) (((cfg2.win 1).blk t).view.emb (ix2 r (0 : Fin 1))) = _
  congr 1
  funext a
  apply Fin.ext
  match a with
  | ⟨0, _⟩ => show win2_1.index t (0 : Fin 2) * 2000 + 1 * r.val = p.val; rw [e0, hp]; omega
  | ⟨1, _⟩ => show win2_1.index t (1 : Fin 2) * 1 + 1 * 0 = 0; rw [e1]

/-- b's block at every point is b. -/
theorem reg2_read_b (c : Dev nD) (t : Fin cfg2.N) (j : Fin 128) :
    (iblk2 V c 2 t : Vec Ideal S1x128 .f32) (ix2 (0 : Fin 1) j)
      = (V c main_v43 : S1x128.Idx → EReal) (ix2 (0 : Fin 1) j) := by
  obtain ⟨-, -, -, -, e0, e1, -⟩ := reg2_idx_facts t
  unfold iblk2
  show (V c main_v43 : S1x128.Idx → EReal) (((cfg2.win 2).blk t).view.emb (ix2 (0 : Fin 1) j)) = _
  congr 1
  funext a
  apply Fin.ext
  match a with
  | ⟨0, _⟩ => show win2_2.index t (0 : Fin 2) * 1 + 1 * 0 = 0; rw [e0]
  | ⟨1, _⟩ => show win2_2.index t (1 : Fin 2) * 128 + 1 * j.val = j.val; rw [e1]; omega

/-- w's block at every point is w. -/
theorem reg2_read_w (c : Dev nD) (t : Fin cfg2.N) (j : Fin 128) (q : Fin 256) :
    (iblk2 V c 3 t : Vec Ideal S128x256 .f32) (ix2 j q) = (V c main_arg7 : S128x256.Idx → EReal) (ix2 j q) := by
  obtain ⟨-, -, -, -, -, -, e0, e1, -⟩ := reg2_idx_facts t
  unfold iblk2
  show (V c main_arg7 : S128x256.Idx → EReal) (((cfg2.win 3).blk t).view.emb (ix2 j q)) = _
  congr 1
  funext a
  apply Fin.ext
  match a with
  | ⟨0, _⟩ => show win2_3.index t (0 : Fin 2) * 128 + 1 * j.val = j.val; rw [e0]; omega
  | ⟨1, _⟩ => show win2_3.index t (1 : Fin 2) * 256 + 1 * q.val = q.val; rw [e1]; omega

/-! ## What a point writes back, and the array after the last point -/

/-- What point t writes back is block t of the one array `fusedOut` of the arrays as the region finds them. -/
theorem reg2_flushed (c : Dev nD) (t : Fin cfg2.N) :
    (dat2 V c).flushed 4 t = ((cfg2.win 4).blk t).view.read (Elt Ideal)
      (fusedOut (V c main_v42) (V c main_v17) (V c main_v43) (V c main_arg7)) := by
  show (cfg2.win 4).cut (grid2.coords t) ((dat2 V c).after 4 t) = _
  rw [after2_4]
  unfold out2_4
  rw [View.canon_unit_zero fused_zero_offsets]
  simp only [View.ld_unit_zero (S := S2000x128) fused_zero_offsets, View.ld_unit_zero (S := S2000x1) fused_zero_offsets,
    View.ld_unit_zero (S := S1x128) fused_zero_offsets, View.ld_unit_zero (S := S128x256) fused_zero_offsets]
  funext y
  obtain ⟨r, q, rfl⟩ : ∃ (r : Fin 2000) (q : Fin 256), y = ix2 r q := ⟨y 0, y 1, eq_ix2 y⟩
  have hN : cfg2.N = 25 := N_2
  have ht : t.val < cfg2.N := t.isLt
  obtain ⟨p, hp⟩ : ∃ p : Fin 50000, p.val = t.val * 2000 + r.val := ⟨⟨t.val * 2000 + r.val, by omega⟩, rfl⟩
  obtain ⟨-, -, -, -, -, -, -, -, e0, e1⟩ := reg2_idx_facts t
  -- the entry (r, q) of the output's block at t is the entry (2000·t + r, q) of the output array
  have hemb : ((cfg2.win 4).blk t).view.emb (ix2 r q) = ix2 p q := by
    funext a
    apply Fin.ext
    match a with
    | ⟨0, _⟩ => show win2_4.index t (0 : Fin 2) * 2000 + 1 * r.val = p.val; rw [e0, hp]; omega
    | ⟨1, _⟩ => show win2_4.index t (1 : Fin 2) * 256 + 1 * q.val = q.val; rw [e1]; omega
  refine (reg2_pay_apply (iblk2 V c 0 t) (iblk2 V c 1 t) (iblk2 V c 2 t) (iblk2 V c 3 t) (iblk2 V c 1 t) r q).trans ?_
  show _ = fusedOut (V c main_v42) (V c main_v17) (V c main_v43) (V c main_arg7) (((cfg2.win 4).blk t).view.emb (ix2 r q))
  rw [hemb, fusedOut_apply]
  unfold fusedEntry
  refine congrArg₂ (· * ·) (Finset.sum_congr rfl fun j _ => ?_) (reg2_read_d V c t r p hp)
  exact congrArg₂ (· * ·)
    (congrArg₂ max
      (congrArg₂ (· + ·) (congrArg₂ (· * ·) (reg2_read_x V c t r j p hp) (reg2_read_d V c t r p hp)) (reg2_read_b V c t j))
      rfl)
    (reg2_read_w V c t j q)

/-- An entry of the output array is in point t's block iff each coordinate is in the block's range on its axis. -/
theorem reg2_mem_blk (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v44).slice (win2_4.rect t)).set ↔ _
  rw [View.set_slice_whole, Rect.mem_set_unit]
  exact Iff.rfl

/-- Every entry of the output array is in some point's block: row p in the block of point p / 2000. -/
theorem reg2_cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, e0, e1⟩ := reg2_idx_facts t
  refine ⟨t, flush2_4 t, ?_⟩
  rw [reg2_mem_blk]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 256 ≤ (i 1).val ∧ (i 1).val < win2_4.index t (1 : Fin 2) * 256 + 256
    rw [e1]; omega

/-- The output array after the region: `fusedOut` of the arrays as the region finds them. -/
theorem reg2_final (c : Dev nD) :
    (dat2 V c).arrAt 4 cfg2.N = fusedOut (V c main_v42) (V c main_v17) (V c main_v43) (V c main_arg7) :=
  (dat2 V c).arrAt_eq_of_cover 4 (fusedOut (V c main_v42) (V c main_v17) (V c main_v43) (V c main_arg7))
    (fun t _ => reg2_flushed V c t) reg2_cover

/-- The output array after the region, at the entry (p, q). -/
theorem reg2_apply (c : Dev nD) (p : Fin 50000) (q : Fin 256) :
    (dat2 (F := Ideal) V c).arrAt 4 cfg2.N (ix2 p q)
      = fusedEntry (V c main_v42) (V c main_v17) (V c main_v43) (V c main_arg7) p q := by
  rw [reg2_final]
  rfl

end Cert.KernelIdeal.KVal

end
-- ==== Proof.KReg3.lean ====
import proofs.«165119_j21320217657456_2_alg».proof.Proof.Gen.KernelIdeal.Frame
import proofs.«165119_j21320217657456_2_alg».proof.Proof.LibUnitAxes
import proofs.«165119_j21320217657456_2_alg».proof.Proof.KEntries
import Idealize.ShloMosaic.Lib.Pipeline.Value
import Idealize.ShloMosaic.Lib.ValueIdx
import Idealize.ShloMosaic.Lib.ValueLayout
import Idealize.ShloMosaic.PureOps.Ideal.Laws

/-!
  The final bias-and-cutoff region, read entry by entry.

  The region walks the rows of a [50000, 256] array in 25 blocks of 2000 rows.  On a block it scales every entry by its
  row's factor, adds the column's bias and cuts the result off below at zero.  Here: that arithmetic at one entry of a
  block; the whole output array as one function of the three input arrays; each point's write-back as that function's
  block; the blocks cover every row; hence the array the region leaves, entry by entry.
-/

noncomputable section

namespace Cert.KernelIdeal.KVal

open Cert.KernelIdeal Cert.KernelIdeal.Gen Idealize.ShloMosaic Idealize.ShloMosaic.TcCoe Idealize.ShloMosaic.ValueIdx
open Idealize.ShloMosaic.Pipeline (Dat)
open scoped BigOperators

theorem hz3 : (![0, 0] : Fin 2 → Nat) = fun _ => 0 := funext fun a => by fin_cases a <;> rfl

/-- The body's arithmetic at row r, column q of a block: the entry scaled by its row's factor, the column's bias
    added, and the result cut off below at zero. -/
theorem pay3_apply (x0 : Vec Ideal S2000x256 .f32) (x1 : Vec Ideal S2000x1 .f32) (x2 : Vec Ideal S1x256 .f32)
    (r : Fin 2000) (q : Fin 256) :
    k3_pay1 x0 x1 x2 (ix2 r q) = max (x0 (ix2 r q) * x1 (ix2 r (0 : Fin 1)) + x2 (ix2 (0 : Fin 1) q)) 0 := by
  unfold k3_pay1
  show max (shapeCast S2000x256 x0 shapeCasts_S2000x256_S2000x256 (ix2 r q)
        * broadcastTo S2000x256 (shapeCast S2000x1 x1 shapeCasts_S2000x1_S2000x1) broadcasts_S2000x1_S2000x256 (ix2 r q)
      + broadcastTo S2000x256 (shapeCast S1x256 x2 shapeCasts_S1x256_S1x256) broadcasts_S1x256_S2000x256 (ix2 r q))
      (Ideal.ofBits .f32 0x00000000#32) = _
  rw [shapeCast_self, shapeCast_self, shapeCast_self, Cert.UnitAxes.repeat_col_apply, broadcastTo_1b_ab_apply,
    Ideal.ofBits_zero_f32]

/-- The whole output array as one function of the three input arrays: at (p, q) the entry (p, q) of the first scaled
    by row p's factor, plus column q's bias, cut off below at zero. -/
def G3 (a0 : S50000x256.Idx → EReal) (a1 : S50000x1.Idx → EReal) (a2 : S1x256.Idx → EReal) : S50000x256.Idx → EReal :=
  fun i => max (a0 i * a1 (ix2 (n0 := 50000) (i 0) (0 : Fin 1)) + a2 (ix2 (0 : Fin 1) (n1 := 256) (i 1))) 0

/-- The printed index maps over the grid: the row windows sit at block row t, the bias window stays at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of the whole-array function. -/
theorem flushed3_eq (c : Dev nD) (t : Fin cfg3.N) :
    (dat3 (F := Ideal) V c).flushed 3 t
      = ((cfg3.win 3).blk t).view.read (Elt Ideal) (G3 (V c main_v55) (V c main_v17) (V c main_v56)) := by
  show (cfg3.win 3).cut (grid3.coords t) ((dat3 (F := Ideal) V c).after 3 t) = _
  rw [after3_3]
  unfold out3_3
  rw [View.canon_unit_zero hz3]
  simp only [View.ld_unit_zero (S := S2000x256) hz3, View.ld_unit_zero (S := S2000x1) hz3, View.ld_unit_zero (S := S1x256) hz3]
  obtain ⟨e00, e01, e10, e11, e20, e21, e30, e31⟩ := idx_facts3 t
  funext j
  obtain ⟨r, q, rfl⟩ : ∃ (r : Fin 2000) (q : Fin 256), j = ix2 r q := ⟨j 0, j 1, eq_ix2 j⟩
  show k3_pay1 (iblk3 V c 0 t) (iblk3 V c 1 t) (iblk3 V c 2 t) (ix2 r q)
    = G3 (V c main_v55) (V c main_v17) (V c main_v56) (((cfg3.win 3).blk t).view.emb (ix2 r q))
  refine (pay3_apply (iblk3 V c 0 t) (iblk3 V c 1 t) (iblk3 V c 2 t) r q).trans ?_
  have h0 : iblk3 V c 0 t (ix2 r q) = V c main_v55 (((cfg3.win 3).blk t).view.emb (ix2 r q)) := by
    show V c main_v55 (((cfg3.win 0).blk t).view.emb (ix2 r q)) = _
    refine congrArg (V c main_v55) (funext fun a => Fin.ext ?_)
    match a with
    | ⟨0, _⟩ =>
      show win3_0.index t (0 : Fin 2) * 2000 + 1 * r.val = win3_3.index t (0 : Fin 2) * 2000 + 1 * r.val
      omega
    | ⟨1, _⟩ =>
      show win3_0.index t (1 : Fin 2) * 256 + 1 * q.val = win3_3.index t (1 : Fin 2) * 256 + 1 * q.val
      omega
  have h1 : iblk3 V c 1 t (ix2 r (0 : Fin 1))
      = V c main_v17 (ix2 (n0 := 50000) ((((cfg3.win 3).blk t).view.emb (ix2 r q)) 0) (0 : Fin 1)) := by
    show V c main_v17 (((cfg3.win 1).blk t).view.emb (ix2 r (0 : Fin 1))) = _
    refine congrArg (V c main_v17) (funext fun a => Fin.ext ?_)
    match a with
    | ⟨0, _⟩ =>
      show win3_1.index t (0 : Fin 2) * 2000 + 1 * r.val = win3_3.index t (0 : Fin 2) * 2000 + 1 * r.val
      omega
    | ⟨1, _⟩ =>
      show win3_1.index t (1 : Fin 2) * 1 + 1 * 0 = 0
      omega
  have h2 : iblk3 V c 2 t (ix2 (0 : Fin 1) q)
      = V c main_v56 (ix2 (0 : Fin 1) (n1 := 256) ((((cfg3.win 3).blk t).view.emb (ix2 r q)) 1)) := by
    show V c main_v56 (((cfg3.win 2).blk t).view.emb (ix2 (0 : Fin 1) q)) = _
    refine congrArg (V c main_v56) (funext fun a => Fin.ext ?_)
    match a with
    | ⟨0, _⟩ =>
      show win3_2.index t (0 : Fin 2) * 1 + 1 * 0 = 0
      omega
    | ⟨1, _⟩ =>
      show win3_2.index t (1 : Fin 2) * 256 + 1 * q.val = win3_3.index t (1 : Fin 2) * 256 + 1 * q.val
      omega
  rw [h0, h1, h2]
  rfl

/-- An index of the array is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v57).slice (win3_3.rect t)).set ↔ _
  rw [View.set_slice_whole, Rect.mem_set_unit]
  exact Iff.rfl

/-- Row p lies in the block of point p / 2000, which is written back. -/
theorem cover3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  have hlt : (i 0).val / 2000 < cfg3.N := by rw [hN]; omega
  obtain ⟨_, _, _, _, _, _, e30, e31⟩ := idx_facts3 ⟨(i 0).val / 2000, hlt⟩
  refine ⟨⟨(i 0).val / 2000, hlt⟩, flush3_3 _, ?_⟩
  rw [mem_blk3]
  intro a
  match a with
  | ⟨0, _⟩ =>
    show win3_3.index ⟨(i 0).val / 2000, hlt⟩ (0 : Fin 2) * 2000 ≤ (i 0).val
      ∧ (i 0).val < win3_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win3_3.index ⟨(i 0).val / 2000, hlt⟩ (1 : Fin 2) * 256 ≤ (i 1).val
      ∧ (i 1).val < win3_3.index ⟨(i 0).val / 2000, hlt⟩ (1 : Fin 2) * 256 + 256
    rw [e31]
    omega

/-- The output array after the region is the whole-array function of the arrays the region found. -/
theorem final3 (c : Dev nD) :
    (dat3 (F := Ideal) V c).arrAt 3 cfg3.N = G3 (V c main_v55) (V c main_v17) (V c main_v56) :=
  (dat3 (F := Ideal) V c).arrAt_eq_of_cover 3 _ (fun t _ => flushed3_eq V c t) cover3

/-- The final bias-and-cutoff region, entry by entry. -/
theorem reg3_apply (c : Dev nD) (p : Fin 50000) (q : Fin 256) :
    (dat3 (F := Ideal) V c).arrAt 3 cfg3.N (ix2 p q)
      = biasReluEntry (V c main_v55) (V c main_v17) (V c main_v56) p q :=
  congrFun (final3 V c) (ix2 p q)

end Cert.KernelIdeal.KVal

end
-- ==== Proof.KReg4.lean ====
import proofs.«165119_j21320217657456_2_alg».proof.Proof.Gen.KernelIdeal.Frame
import proofs.«165119_j21320217657456_2_alg».proof.Proof.LibPlainMatmul
import proofs.«165119_j21320217657456_2_alg».proof.Proof.KEntries
import Idealize.ShloMosaic.Lib.Pipeline.Value
import Idealize.ShloMosaic.Lib.ValueIdx
import Idealize.ShloMosaic.Lib.ValueLayout
import Idealize.ShloMosaic.PureOps.Ideal.Laws

/-!
  The output head's product-and-bias region, read entry by entry.

  The region has a single grid point: it takes a [16, 256] array whole, multiplies it by a [256, 247] matrix and adds a
  bias to every row of the product.  Here: that arithmetic at one entry, against arrays that agree with what the point
  reads; the whole output array as one function of the three input arrays; the one point's write-back as that function;
  the one block covers the array; hence the array the region leaves, entry by entry.
-/

noncomputable section

namespace Cert.KernelIdeal.KVal

open Cert.KernelIdeal Cert.KernelIdeal.Gen Idealize.ShloMosaic Idealize.ShloMosaic.TcCoe Idealize.ShloMosaic.ValueIdx
open Idealize.ShloMosaic.Pipeline (Dat)
open scoped BigOperators

theorem hz4 : (![0, 0] : Fin 2 → Nat) = fun _ => 0 := funext fun a => by fin_cases a <;> rfl

/-- The body's arithmetic at row r, column q: the product's entry plus the column's bias. -/
theorem pay4_apply (x0 : Vec Ideal S16x256 .f32) (x1 : Vec Ideal S256x247 .f32) (x2 : Vec Ideal S1x247 .f32)
    (r : Fin 16) (q : Fin 247) :
    k4_pay1 x0 x1 x2 (ix2 r q) = (∑ j : Fin 256, x0 (ix2 r j) * x1 (ix2 j q)) + x2 (ix2 (0 : Fin 1) q) := by
  unfold k4_pay1
  show FloatOps.matmul (F := Ideal) dot_S16x256_S256x247_S16x247_1_0_0_1_n_n none
        (truncf (F := Ideal) .bf16 (shapeCast S16x256 (x0 : FVec Ideal S16x256 .f32) shapeCasts_S16x256_S16x256) bitsLt_bf16_f32)
        (truncf (F := Ideal) .bf16 (x1 : FVec Ideal S256x247 .f32) bitsLt_bf16_f32)
        (constant (F := Ideal) S16x247 .f32 0x00000000#32) (ix2 r q)
      + broadcastTo S16x247 (shapeCast S1x247 x2 shapeCasts_S1x247_S1x247) broadcasts_S1x247_S16x247 (ix2 r q) = _
  rw [shapeCast_self, shapeCast_self, broadcastTo_1b_ab_apply]
  exact congrArg (· + x2 (ix2 (0 : Fin 1) q))
    (Cert.PlainMatmul.zero_acc_apply dot_S16x256_S256x247_S16x247_1_0_0_1_n_n_wf none
      (truncf .bf16 x0 bitsLt_bf16_f32) (truncf .bf16 x1 bitsLt_bf16_f32) r q)

/-- The same entry against arrays that hold the block's row r at their row P, the matrix's column q at their column
    Q, and the bias of column q at their column Q. -/
theorem pay4_block (x0 : Vec Ideal S16x256 .f32) (x1 : Vec Ideal S256x247 .f32) (x2 : Vec Ideal S1x247 .f32)
    (a0 : S16x256.Idx → EReal) (a1 : S256x247.Idx → EReal) (a2 : S1x247.Idx → EReal)
    (r : Fin 16) (q : Fin 247) (P : Fin 16) (Q : Fin 247)
    (h0 : ∀ j : Fin 256, x0 (ix2 r j) = a0 (ix2 P j)) (h1 : ∀ j : Fin 256, x1 (ix2 j q) = a1 (ix2 j Q))
    (h2 : x2 (ix2 (0 : Fin 1) q) = a2 (ix2 (0 : Fin 1) Q)) :
    k4_pay1 x0 x1 x2 (ix2 r q) = headEntry a0 a1 a2 P Q := by
  rw [pay4_apply, h2]
  unfold headEntry
  exact congrArg (· + a2 (ix2 (0 : Fin 1) Q)) (Finset.sum_congr rfl fun j _ => by rw [h0 j, h1 j])

/-- The whole output array as one function of the three input arrays. -/
def G4 (a0 : S16x256.Idx → EReal) (a1 : S256x247.Idx → EReal) (a2 : S1x247.Idx → EReal) : S16x247.Idx → EReal :=
  fun i => headEntry a0 a1 a2 (i 0) (i 1)

/-- The printed index maps at the grid's one point: every window sits at block (0, 0). -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

variable (V : (c : Dev nD) → (b : Ref sig .tc) → Buf (Elt Ideal) ((c : Thread nD τ).loc b))

/-- What the point writes back is the block of the whole-array function. -/
theorem flushed4_eq (c : Dev nD) (t : Fin cfg4.N) :
    (dat4 (F := Ideal) V c).flushed 3 t
      = ((cfg4.win 3).blk t).view.read (Elt Ideal) (G4 (V c main_v69) (V c main_arg9) (V c main_v70)) := by
  show (cfg4.win 3).cut (grid4.coords t) ((dat4 (F := Ideal) V c).after 3 t) = _
  rw [after4_3]
  unfold out4_3
  rw [View.canon_unit_zero hz4]
  simp only [View.ld_unit_zero (S := S16x256) hz4, View.ld_unit_zero (S := S256x247) hz4, View.ld_unit_zero (S := S1x247) hz4]
  obtain ⟨e00, e01, e10, e11, e20, e21, e30, e31⟩ := idx_facts4 t
  funext j
  obtain ⟨r, q, rfl⟩ : ∃ (r : Fin 16) (q : Fin 247), j = ix2 r q := ⟨j 0, j 1, eq_ix2 j⟩
  show k4_pay1 (iblk4 V c 0 t) (iblk4 V c 1 t) (iblk4 V c 2 t) (ix2 r q)
    = headEntry (V c main_v69) (V c main_arg9) (V c main_v70)
        ((((cfg4.win 3).blk t).view.emb (ix2 r q)) 0) ((((cfg4.win 3).blk t).view.emb (ix2 r q)) 1)
  refine pay4_block (iblk4 V c 0 t) (iblk4 V c 1 t) (iblk4 V c 2 t) (V c main_v69) (V c main_arg9) (V c main_v70)
    r q ((((cfg4.win 3).blk t).view.emb (ix2 r q)) 0) ((((cfg4.win 3).blk t).view.emb (ix2 r q)) 1) ?_ ?_ ?_
  · intro k
    show V c main_v69 (((cfg4.win 0).blk t).view.emb (ix2 r k)) = _
    refine congrArg (V c main_v69) (funext fun a => Fin.ext ?_)
    match a with
    | ⟨0, _⟩ =>
      show win4_0.index t (0 : Fin 2) * 16 + 1 * r.val = win4_3.index t (0 : Fin 2) * 16 + 1 * r.val
      omega
    | ⟨1, _⟩ =>
      show win4_0.index t (1 : Fin 2) * 256 + 1 * k.val = k.val
      omega
  · intro k
    show V c main_arg9 (((cfg4.win 1).blk t).view.emb (ix2 k q)) = _
    refine congrArg (V c main_arg9) (funext fun a => Fin.ext ?_)
    match a with
    | ⟨0, _⟩ =>
      show win4_1.index t (0 : Fin 2) * 256 + 1 * k.val = k.val
      omega
    | ⟨1, _⟩ =>
      show win4_1.index t (1 : Fin 2) * 247 + 1 * q.val = win4_3.index t (1 : Fin 2) * 247 + 1 * q.val
      omega
  · show V c main_v70 (((cfg4.win 2).blk t).view.emb (ix2 (0 : Fin 1) q)) = _
    refine congrArg (V c main_v70) (funext fun a => Fin.ext ?_)
    match a with
    | ⟨0, _⟩ =>
      show win4_2.index t (0 : Fin 2) * 1 + 1 * 0 = 0
      omega
    | ⟨1, _⟩ =>
      show win4_2.index t (1 : Fin 2) * 247 + 1 * q.val = win4_3.index t (1 : Fin 2) * 247 + 1 * q.val
      omega

/-- An index of the array is in the point's block iff each coordinate is in the block's range on its axis. -/
theorem mem_blk4 (t : Fin cfg4.N) (i : S16x247.Idx) :
    i ∈ ((cfg4.win 3).blk t).view.set ↔ ∀ a : Fin 2, win4_3.index t a * S16x247.size a ≤ (i a).val
      ∧ (i a).val < win4_3.index t a * S16x247.size a + S16x247.size a := by
  show i ∈ ((View.whole main_v71).slice (win4_3.rect t)).set ↔ _
  rw [View.set_slice_whole, Rect.mem_set_unit]
  exact Iff.rfl

/-- Every index lies in the one point's block, which is written back. -/
theorem cover4 (i : S16x247.Idx) :
    ∃ t : Fin cfg4.N, (cfg4.win 3).flush t = true ∧ i ∈ ((cfg4.win 3).blk t).view.set := by
  have hi0 : (i 0).val < 16 := (i 0).isLt
  have hi1 : (i 1).val < 247 := (i 1).isLt
  have hN : cfg4.N = 1 := N_4
  have hlt : 0 < cfg4.N := by rw [hN]; omega
  obtain ⟨_, _, _, _, _, _, e30, e31⟩ := idx_facts4 ⟨0, hlt⟩
  refine ⟨⟨0, hlt⟩, flush4_3 _, ?_⟩
  rw [mem_blk4]
  intro a
  match a with
  | ⟨0, _⟩ =>
    show win4_3.index ⟨0, hlt⟩ (0 : Fin 2) * 16 ≤ (i 0).val
      ∧ (i 0).val < win4_3.index ⟨0, hlt⟩ (0 : Fin 2) * 16 + 16
    rw [e30]
    omega
  | ⟨1, _⟩ =>
    show win4_3.index ⟨0, hlt⟩ (1 : Fin 2) * 247 ≤ (i 1).val
      ∧ (i 1).val < win4_3.index ⟨0, hlt⟩ (1 : Fin 2) * 247 + 247
    rw [e31]
    omega

/-- The output array after the region is the whole-array function of the arrays the region found. -/
theorem final4 (c : Dev nD) :
    (dat4 (F := Ideal) V c).arrAt 3 cfg4.N = G4 (V c main_v69) (V c main_arg9) (V c main_v70) :=
  (dat4 (F := Ideal) V c).arrAt_eq_of_cover 3 _ (fun t _ => flushed4_eq V c t) cover4

/-- The output head's product-and-bias region, entry by entry. -/
theorem reg4_apply (c : Dev nD) (p : Fin 16) (q : Fin 247) :
    (dat4 (F := Ideal) V c).arrAt 3 cfg4.N (ix2 p q)
      = headEntry (V c main_v69) (V c main_arg9) (V c main_v70) p q :=
  congrFun (final4 V c) (ix2 p q)

end Cert.KernelIdeal.KVal

end
-- ==== Proof.KChain.lean ====
/-
  The idealized kernel program's result, as the network's specification.

  Boundary by boundary through the program: the first region leaves the projected node features, each row scaled by
  its node's factor; each edge stage sums, at every node, the rows its incoming edges read; each fused region scales the
  sums by the receiving node's factor, adds the bias, clips at zero, projects and scales again; the last region of the
  stack leaves the clipped features themselves; the host pools them by graph; the head multiplies by its weights and adds
  its bias.  The graph (each edge's source node and destination number), the node factors and the pooling are whatever
  the program's first host stretch and last host stretch compute: they are named, not opened.
-/
import proofs.«165119_j21320217657456_2_alg».proof.Proof.KCarry
import proofs.«165119_j21320217657456_2_alg».proof.Proof.KStages
import proofs.«165119_j21320217657456_2_alg».proof.Proof.KReg0
import proofs.«165119_j21320217657456_2_alg».proof.Proof.KReg1
import proofs.«165119_j21320217657456_2_alg».proof.Proof.KReg2
import proofs.«165119_j21320217657456_2_alg».proof.Proof.KReg3
import proofs.«165119_j21320217657456_2_alg».proof.Proof.KReg4

set_option maxRecDepth 16384

noncomputable section

open scoped BigOperators

namespace Cert.KernelIdeal.KVal

open Cert.KernelIdeal Cert.KernelIdeal.Gen Cert.Gcn
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg) (c : Dev nD)

/-- Each edge's source node, as the first region's entry has the source words. -/
def srcK : Fin 850000 → Fin 50000 :=
  srcOf 50000 (by decide) 50000#32 (cur1 (α := BitVec 32) (W3 m ρ c (Proc.devRef .tc main_v6)))
/-- Each edge's destination number. -/
def dstK : Fin 850000 → ℤ := dstOf (cur1 (α := BitVec 32) (W3 m ρ c (Proc.devRef .tc main_v8)))
/-- Each node's factor. -/
def dK : Fin 50000 → EReal := col0 (α := EReal) (W3 m ρ c (Proc.devRef .tc main_v17))

/-! ## The entry formulas of the regions are the specification's operations -/

theorem projEntry_eq {a n k : ℕ} (x : (⟨2, ![a, n]⟩ : Shape).Idx → EReal) (w : (⟨2, ![n, k]⟩ : Shape).Idx → EReal)
    (d : (⟨2, ![a, 1]⟩ : Shape).Idx → EReal) (p : Fin a) (q : Fin k) :
    projEntry x w d p q = pre (col0 d) (mm (cur x) (cur w)) p q := rfl
theorem fusedEntry_eq {a n k : ℕ} (x : (⟨2, ![a, n]⟩ : Shape).Idx → EReal) (d : (⟨2, ![a, 1]⟩ : Shape).Idx → EReal)
    (b : (⟨2, ![1, n]⟩ : Shape).Idx → EReal) (w : (⟨2, ![n, k]⟩ : Shape).Idx → EReal) (p : Fin a) (q : Fin k) :
    fusedEntry x d b w p q = pre (col0 d) (mm (actK (col0 d) (row0 b) (cur x)) (cur w)) p q := rfl
theorem biasReluEntry_eq {a k : ℕ} (x : (⟨2, ![a, k]⟩ : Shape).Idx → EReal) (d : (⟨2, ![a, 1]⟩ : Shape).Idx → EReal)
    (b : (⟨2, ![1, k]⟩ : Shape).Idx → EReal) (p : Fin a) (q : Fin k) :
    biasReluEntry x d b p q = actK (col0 d) (row0 b) (cur x) p q := rfl
theorem headEntry_eq {a n k : ℕ} (x : (⟨2, ![a, n]⟩ : Shape).Idx → EReal) (w : (⟨2, ![n, k]⟩ : Shape).Idx → EReal)
    (b : (⟨2, ![1, k]⟩ : Shape).Idx → EReal) (p : Fin a) (q : Fin k) :
    headEntry x w b p q = head (cur x) (cur w) (row0 b) p q := rfl

/-! ## The arguments and the graph data at the boundaries where they are read -/

theorem arg0_at3 : W3 m ρ c (Proc.devRef .tc main_arg0) = m ((c : Thread nD τ).loc main_arg0) :=
  kept_to3 m ρ c main_arg0 (by decide) (by decide) (by decide)
theorem arg3_at3 : W3 m ρ c (Proc.devRef .tc main_arg3) = m ((c : Thread nD τ).loc main_arg3) :=
  kept_to3 m ρ c main_arg3 (by decide) (by decide) (by decide)
theorem arg4_at4 : W4 m ρ c (Proc.devRef .tc main_arg4) = m ((c : Thread nD τ).loc main_arg4) :=
  (kept_from3 m ρ c main_arg4 (by decide)).1.trans (kept_to3 m ρ c main_arg4 (by decide) (by decide) (by decide))
theorem arg5_at5 : W5 m ρ c (Proc.devRef .tc main_arg5) = m ((c : Thread nD τ).loc main_arg5) :=
  (kept_from3 m ρ c main_arg5 (by decide)).2.1.trans (kept_to3 m ρ c main_arg5 (by decide) (by decide) (by decide))
theorem arg6_at6 : W6 m ρ c (Proc.devRef .tc main_arg6) = m ((c : Thread nD τ).loc main_arg6) :=
  (kept_from3 m ρ c main_arg6 (by decide)).2.2.1.trans (kept_to3 m ρ c main_arg6 (by decide) (by decide) (by decide))
theorem arg7_at7 : W7 m ρ c (Proc.devRef .tc main_arg7) = m ((c : Thread nD τ).loc main_arg7) :=
  (kept_from3 m ρ c main_arg7 (by decide)).2.2.2.1.trans (kept_to3 m ρ c main_arg7 (by decide) (by decide) (by decide))
theorem arg8_at8 : W8 m ρ c (Proc.devRef .tc main_arg8) = m ((c : Thread nD τ).loc main_arg8) :=
  (kept_from3 m ρ c main_arg8 (by decide)).2.2.2.2.1.trans (kept_to3 m ρ c main_arg8 (by decide) (by decide) (by decide))
theorem arg2_at10 : W10 m ρ c (Proc.devRef .tc main_arg2) = m ((c : Thread nD τ).loc main_arg2) :=
  (kept_from3 m ρ c main_arg2 (by decide)).2.2.2.2.2.2.1.trans (kept_to3 m ρ c main_arg2 (by decide) (by decide) (by decide))
theorem arg10_at10 : W10 m ρ c (Proc.devRef .tc main_arg10) = m ((c : Thread nD τ).loc main_arg10) :=
  (kept_from3 m ρ c main_arg10 (by decide)).2.2.2.2.2.2.1.trans (kept_to3 m ρ c main_arg10 (by decide) (by decide) (by decide))
theorem arg9_at11 : W11 m ρ c (Proc.devRef .tc main_arg9) = m ((c : Thread nD τ).loc main_arg9) :=
  (kept_from3 m ρ c main_arg9 (by decide)).2.2.2.2.2.2.2.trans (kept_to3 m ρ c main_arg9 (by decide) (by decide) (by decide))

/-! ## The stack, boundary by boundary -/

/-- The first region leaves the projected features, each row scaled by its node's factor. -/
theorem feat0 : cur (α := EReal) (W4 m ρ c (Proc.devRef .tc main_v18))
    = pre (dK m ρ c) (mm (cur (α := EReal) (m ((c : Thread nD τ).loc main_arg0))) (cur (α := EReal) (m ((c : Thread nD τ).loc main_arg3)))) := by
  funext p q
  refine (congrFun (W4_arr m ρ c 3) (ix2 p q)).trans ((reg0_apply (V3 m ρ) c p q).trans ?_)
  rw [projEntry_eq]
  show pre (col0 (α := EReal) (W3 m ρ c (Proc.devRef .tc main_v17)))
      (mm (cur (α := EReal) (W3 m ρ c (Proc.devRef .tc main_arg0))) (cur (α := EReal) (W3 m ρ c (Proc.devRef .tc main_arg3)))) p q = _
  rw [arg0_at3, arg3_at3]
  rfl

/-- Edge stage 1. -/
theorem agg1 : cur (α := EReal) (W5 m ρ c (Proc.devRef .tc main_v29))
    = gat (srcK m ρ c) (dstK m ρ c) (cur (α := EReal) (W4 m ρ c (Proc.devRef .tc main_v18))) := by
  funext p q
  have h := stage1_agg (W4 m ρ c) p q
  rw [(kept_from3 m ρ c main_v6 (by decide)).1, (kept_from3 m ρ c main_v8 (by decide)).1] at h
  exact h

/-- Region 1: scale, bias, clip, project, scale. -/
theorem feat1 : cur (α := EReal) (W6 m ρ c (Proc.devRef .tc main_v31))
    = pre (dK m ρ c) (mm (actK (dK m ρ c) (cur1 (α := EReal) (m ((c : Thread nD τ).loc main_arg4)))
        (cur (α := EReal) (W5 m ρ c (Proc.devRef .tc main_v29)))) (cur (α := EReal) (m ((c : Thread nD τ).loc main_arg5)))) := by
  funext p q
  refine (congrFun (W6_arr m ρ c 4) (ix2 p q)).trans ((reg1_apply (V5 m ρ) c p q).trans ?_)
  rw [fusedEntry_eq]
  show pre (col0 (α := EReal) (W5 m ρ c (Proc.devRef .tc main_v17)))
      (mm (actK (col0 (α := EReal) (W5 m ρ c (Proc.devRef .tc main_v17))) (row0 (α := EReal) (W5 m ρ c (Proc.devRef .tc main_v30)))
        (cur (α := EReal) (W5 m ρ c (Proc.devRef .tc main_v29)))) (cur (α := EReal) (W5 m ρ c (Proc.devRef .tc main_arg5)))) p q = _
  have hb : row0 (α := EReal) (W5 m ρ c (Proc.devRef .tc main_v30)) = cur1 (α := EReal) (m ((c : Thread nD τ).loc main_arg4)) :=
    funext fun k => (stage1_bias (W4 m ρ c) k).trans (by rw [arg4_at4])
  rw [hb, (kept_from3 m ρ c main_v17 (by decide)).2.1, arg5_at5]
  rfl

/-- Edge stage 2. -/
theorem agg2 : cur (α := EReal) (W7 m ρ c (Proc.devRef .tc main_v42))
    = gat (srcK m ρ c) (dstK m ρ c) (cur (α := EReal) (W6 m ρ c (Proc.devRef .tc main_v31))) := by
  funext p q
  have h := stage2_agg (W6 m ρ c) p q
  rw [(kept_from3 m ρ c main_v6 (by decide)).2.2.1, (kept_from3 m ρ c main_v8 (by decide)).2.2.1] at h
  exact h

/-- Region 2. -/
theorem feat2 : cur (α := EReal) (W8 m ρ c (Proc.devRef .tc main_v44))
    = pre (dK m ρ c) (mm (actK (dK m ρ c) (cur1 (α := EReal) (m ((c : Thread nD τ).loc main_arg6)))
        (cur (α := EReal) (W7 m ρ c (Proc.devRef .tc main_v42)))) (cur (α := EReal) (m ((c : Thread nD τ).loc main_arg7)))) := by
  funext p q
  refine (congrFun (W8_arr m ρ c 4) (ix2 p q)).trans ((reg2_apply (V7 m ρ) c p q).trans ?_)
  rw [fusedEntry_eq]
  show pre (col0 (α := EReal) (W7 m ρ c (Proc.devRef .tc main_v17)))
      (mm (actK (col0 (α := EReal) (W7 m ρ c (Proc.devRef .tc main_v17))) (row0 (α := EReal) (W7 m ρ c (Proc.devRef .tc main_v43)))
        (cur (α := EReal) (W7 m ρ c (Proc.devRef .tc main_v42)))) (cur (α := EReal) (W7 m ρ c (Proc.devRef .tc main_arg7)))) p q = _
  have hb : row0 (α := EReal) (W7 m ρ c (Proc.devRef .tc main_v43)) = cur1 (α := EReal) (m ((c : Thread nD τ).loc main_arg6)) :=
    funext fun k => (stage2_bias (W6 m ρ c) k).trans (by rw [arg6_at6])
  rw [hb, (kept_from3 m ρ c main_v17 (by decide)).2.2.2.1, arg7_at7]
  rfl

/-- Edge stage 3. -/
theorem agg3 : cur (α := EReal) (W9 m ρ c (Proc.devRef .tc main_v55))
    = gat (srcK m ρ c) (dstK m ρ c) (cur (α := EReal) (W8 m ρ c (Proc.devRef .tc main_v44))) := by
  funext p q
  have h := stage3_agg (W8 m ρ c) p q
  rw [(kept_from3 m ρ c main_v6 (by decide)).2.2.2.2.1, (kept_from3 m ρ c main_v8 (by decide)).2.2.2.2.1] at h
  exact h

/-- Region 3: scale, bias, clip. -/
theorem feat3 : cur (α := EReal) (W10 m ρ c (Proc.devRef .tc main_v57))
    = actK (dK m ρ c) (cur1 (α := EReal) (m ((c : Thread nD τ).loc main_arg8))) (cur (α := EReal) (W9 m ρ c (Proc.devRef .tc main_v55))) := by
  funext p q
  refine (congrFun (W10_arr m ρ c 3) (ix2 p q)).trans ((reg3_apply (V9 m ρ) c p q).trans ?_)
  rw [biasReluEntry_eq]
  show actK (col0 (α := EReal) (W9 m ρ c (Proc.devRef .tc main_v17))) (row0 (α := EReal) (W9 m ρ c (Proc.devRef .tc main_v56)))
      (cur (α := EReal) (W9 m ρ c (Proc.devRef .tc main_v55))) p q = _
  have hb : row0 (α := EReal) (W9 m ρ c (Proc.devRef .tc main_v56)) = cur1 (α := EReal) (m ((c : Thread nD τ).loc main_arg8)) :=
    funext fun k => (stage3_bias (W8 m ρ c) k).trans (by rw [arg8_at8])
  rw [hb, (kept_from3 m ρ c main_v17 (by decide)).2.2.2.2.2.1]
  rfl

/-- The stack's features before pooling are the specification's, in the arrangement that scales before and after
    the edge sums. -/
theorem stack_eq : cur (α := EReal) (W10 m ρ c (Proc.devRef .tc main_v57))
    = netK (srcK m ρ c) (dstK m ρ c) (dK m ρ c)
        (cur (α := EReal) (m ((c : Thread nD τ).loc main_arg0))) (cur (α := EReal) (m ((c : Thread nD τ).loc main_arg3)))
        (cur1 (α := EReal) (m ((c : Thread nD τ).loc main_arg4))) (cur (α := EReal) (m ((c : Thread nD τ).loc main_arg5)))
        (cur1 (α := EReal) (m ((c : Thread nD τ).loc main_arg6))) (cur (α := EReal) (m ((c : Thread nD τ).loc main_arg7)))
        (cur1 (α := EReal) (m ((c : Thread nD τ).loc main_arg8))) := by
  rw [feat3, agg3, feat2, agg2, feat1, agg1, feat0]
  rfl

/-- The program's result: the head applied to the pool of the stack's features. -/
theorem result_apply (p : Fin 16) (q : Fin 247) :
    W12 m ρ c (Proc.devRef .tc main_v71) (ix2 p q)
      = head (cur (α := EReal) (poolK (W10 m ρ c (Proc.devRef .tc main_v57)) (m ((c : Thread nD τ).loc main_arg2))))
          (cur (α := EReal) (m ((c : Thread nD τ).loc main_arg9))) (cur1 (α := EReal) (m ((c : Thread nD τ).loc main_arg10))) p q := by
  refine (congrFun (W12_arr m ρ c 3) (ix2 p q)).trans ((reg4_apply (V11 m ρ) c p q).trans ?_)
  rw [headEntry_eq]
  show head (cur (α := EReal) (W11 m ρ c (Proc.devRef .tc main_v69))) (cur (α := EReal) (W11 m ρ c (Proc.devRef .tc main_arg9)))
      (row0 (α := EReal) (W11 m ρ c (Proc.devRef .tc main_v70))) p q = _
  have hb : row0 (α := EReal) (W11 m ρ c (Proc.devRef .tc main_v70)) = cur1 (α := EReal) (m ((c : Thread nD τ).loc main_arg10)) :=
    funext fun k => (stage4_bias (W10 m ρ c) k).trans (by rw [arg10_at10])
  have hp : W11 m ρ c (Proc.devRef .tc main_v69)
      = poolK (W10 m ρ c (Proc.devRef .tc main_v57)) (m ((c : Thread nD τ).loc main_arg2)) :=
    (stage4_pool (W10 m ρ c)).trans (by rw [arg2_at10])
  rw [hb, hp, arg9_at11]

end Cert.KernelIdeal.KVal

end
-- ==== Proof.LibFlatTakePut.lean ====
/-
  Taking from and putting into a flat array at a column of index words.

  What x[idx] and x.at[idx].set(v) of a flat array x : [N] at an integer vector idx : [R] lower to, once the index
  vector is seen as a column [R, 1]: a gather, and a scatter, with one index component per row.

  The gather reads, for result position r, the operand at the word idx[r, 0] taken as a signed integer and clamped
  into [0, N - 1]. The scatter sends update position r to the operand position idx[r, 0], taken as a signed integer
  and not clamped; the update is dropped when that integer is not a position of the operand. So when the word denotes,
  as a signed integer, a position k of the operand, the update at r lands at k.
-/
import Idealize.ShloMosaic.Lib.ValueIdx

noncomputable section

namespace Cert.FlatTakePut

open Idealize.ShloMosaic Idealize.ShloMosaic.ValueIdx

/-- The index [r, 0] of the column of words, for position r of the vector. -/
abbrev colIdx {R : Nat} (j : (⟨1, ![R]⟩ : Shape).Idx) : (⟨2, ![R, 1]⟩ : Shape).Idx :=
  fun a => match a with | ⟨0, _⟩ => ⟨(j 0).val, (j 0).isLt⟩ | ⟨1, _⟩ => ⟨0, Nat.one_pos⟩

section Take
variable {α : Type}

/-- The gather's dimension numbers for an operand [N], start indices [R, 1] and result [R]. -/
abbrev takeFlatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position `j`: the operand at the word `idx[j, 0]`, read signed and clamped into [0, N - 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (takeFlatDims N R wf) x idx j = x (ix1 ⟨min (idx (colIdx j)).toInt.toNat (N - 1), by omega⟩) := by
  unfold Host.gather
  refine congrArg x ?_
  funext a
  obtain rfl : a = 0 := Subsingleton.elim _ _
  refine Fin.ext ?_
  show (takeFlatDims N R wf).start j idx 0 + (takeFlatDims N R wf).batchCoord j 0 + (takeFlatDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeFlatDims N R wf).startIndexMap from List.mem_singleton.mpr rfl)]
  have hsi : (takeFlatDims N R wf).siIdx j ⟨List.idxOf (0 : Fin 1) (takeFlatDims N R wf).startIndexMap,
      List.idxOf_lt_length_iff.2 (List.mem_singleton.mpr rfl)⟩ = colIdx j := by
    funext b; refine Fin.ext ?_
    match b with
    | ⟨0, _⟩ => rfl
    | ⟨1, _⟩ => rfl
  rw [hsi]
  rfl

end Take

section Put

/-- The scatter's dimension numbers for an operand [N], scatter indices [R, 1] and updates [R]. -/
abbrev putFlatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `j` lands: when the word `idx[j, 0]`, read signed, is the position `k` of the operand, at `k`. -/
theorem resultIdx_flat {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (k : Fin N)
    (hk : (idx (colIdx j)).toInt = (k.val : Int)) :
    (putFlatDims N R wf).resultIdx? j idx = some (ix1 k) := by
  have hs : ∀ a : Fin 1, (putFlatDims N R wf).start j idx a + ((putFlatDims N R wf).window j a : Int) = (k.val : Int) := by
    intro a
    obtain rfl : a = 0 := Subsingleton.elim _ _
    have hw : (putFlatDims N R wf).window j 0 = 0 := by
      unfold ScatterDims.window
      rw [dif_neg]
      intro h
      have := (List.mem_filter.1 h).2
      simp at this
    have hst : (putFlatDims N R wf).start j idx 0 = (k.val : Int) := by
      unfold ScatterDims.start
      rw [dif_pos (show (0 : Fin 1) ∈ (putFlatDims N R wf).scatterDimsToOperandDims from List.mem_singleton.mpr rfl)]
      have hsi : (putFlatDims N R wf).siIdx j ⟨List.idxOf (0 : Fin 1) (putFlatDims N R wf).scatterDimsToOperandDims,
          List.idxOf_lt_length_iff.2 (List.mem_singleton.mpr rfl)⟩ = colIdx j := by
        funext b; refine Fin.ext ?_
        match b with
        | ⟨0, _⟩ => rfl
        | ⟨1, _⟩ => rfl
      rw [hsi, hk]
    rw [hst, hw]
    simp
  unfold ScatterDims.resultIdx?
  have hin : ∀ a : Fin 1, 0 ≤ (putFlatDims N R wf).start j idx a + ((putFlatDims N R wf).window j a : Int)
      ∧ (putFlatDims N R wf).start j idx a + ((putFlatDims N R wf).window j a : Int) < ((⟨1, ![N]⟩ : Shape).size a : Int) := by
    intro a
    rw [hs a]
    obtain rfl : a = 0 := Subsingleton.elim _ _
    exact ⟨Int.natCast_nonneg _, by exact_mod_cast k.isLt⟩
  rw [dif_pos hin]
  refine congrArg some ?_
  funext a
  obtain rfl : a = 0 := Subsingleton.elim _ _
  refine Fin.ext ?_
  show ((putFlatDims N R wf).start j idx 0 + ((putFlatDims N R wf).window j 0 : Int)).toNat = k.val
  rw [hs 0]
  exact Int.toNat_natCast _

end Put

end Cert.FlatTakePut

end
-- ==== Proof.RefAgg.lean ====
/-
  One graph-convolution layer of the reference, read at a node and a feature, over abstract operands.

  The layer takes the node features h (already multiplied by the weights), reads for every edge e the row of h at the
  edge's source word, multiplies that row by the edge's scale, adds the scaled rows into the zero array at the edges'
  destination words, adds the bias row and clips below at 0.  Read at (c, k) this is
      max ((∑ over the edges e whose destination word denotes c of  h (src e) k · (d (src e) · d (dst' e))) + b k) 0,
  the specification's `actR b (aggR src dst' dst d h)`.  Nothing here depends on the extents: the operands are
  variables and what each one reads at an index is a hypothesis.
-/
import proofs.«165119_j21320217657456_2_alg».proof.Proof.Spec
import proofs.«165119_j21320217657456_2_alg».proof.Proof.LibRowTakeAdd
import Idealize.ShloMosaic.Lib.ValueIdx
import Idealize.ShloMosaic.PureOps.Ideal.Laws

noncomputable section

open scoped BigOperators

namespace Cert.ReferenceIdeal.RefVal

open Cert.Gcn Cert.RowTakeAdd Idealize.ShloMosaic Idealize.ShloMosaic.ValueIdx

/-- The scaled rows added at their destination words, read at (c, k): the specification's edge sum. -/
theorem agg_read {N R C : ℕ} (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (hW z : FVec Ideal ⟨2, ![N, C]⟩ .f32) (si di : IVec ⟨2, ![R, 1]⟩ 32) (nm : FVec Ideal ⟨2, ![R, C]⟩ .f32)
    (src dst' : Fin R → Fin N) (dst : Fin R → ℤ) (d : Fin N → EReal) (h : Fin N → Fin C → EReal)
    (hz : ∀ n k, z (ix2 n k) = 0)
    (hh : ∀ n k, hW (ix2 n k) = h n k)
    (hsi : ∀ e, takeRow N hN (si (ix2 e (0 : Fin 1))) = src e)
    (hdi : ∀ e, (di (ix2 e (0 : Fin 1))).toInt = dst e)
    (hnm : ∀ e k, nm (ix2 e k) = d (src e) * d (dst' e))
    (c : Fin N) (k : Fin C) :
    Host.scatterAdd (F := Ideal) (rowScatterDims N R C wfs) z di
        (mulf (Host.gather (rowGatherDims N R C wfg) hW si) nm) (ix2 c k)
      = aggR src dst' dst d h c k := by
  rw [scatterAdd_rows_apply wfs z di _ c k, hz c k, zero_add]
  unfold aggR
  have hf : (Finset.univ.filter fun e : Fin R => (di (ix2 e (0 : Fin 1))).toInt = (c.val : ℤ))
      = Finset.univ.filter fun e : Fin R => dst e = (c.val : ℤ) :=
    Finset.filter_congr fun e _ => by rw [hdi e]
  rw [hf]
  refine Finset.sum_congr rfl fun e _ => ?_
  rw [mulf_apply, gather_rows_apply hN wfg hW si e k, hsi e, hh, hnm e k]

/-- The whole layer read at (c, k): the edge sum plus the bias, clipped below at 0. -/
theorem layer_read {N R C : ℕ} (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (hW z bb zz : FVec Ideal ⟨2, ![N, C]⟩ .f32) (si di : IVec ⟨2, ![R, 1]⟩ 32) (nm : FVec Ideal ⟨2, ![R, C]⟩ .f32)
    (src dst' : Fin R → Fin N) (dst : Fin R → ℤ) (d : Fin N → EReal) (h : Fin N → Fin C → EReal) (b : Fin C → EReal)
    (hz : ∀ n k, z (ix2 n k) = 0)
    (hh : ∀ n k, hW (ix2 n k) = h n k)
    (hsi : ∀ e, takeRow N hN (si (ix2 e (0 : Fin 1))) = src e)
    (hdi : ∀ e, (di (ix2 e (0 : Fin 1))).toInt = dst e)
    (hnm : ∀ e k, nm (ix2 e k) = d (src e) * d (dst' e))
    (hbb : ∀ n k, bb (ix2 n k) = b k)
    (hzz : ∀ n k, zz (ix2 n k) = 0)
    (c : Fin N) (k : Fin C) :
    maximumf (addf (Host.scatterAdd (F := Ideal) (rowScatterDims N R C wfs) z di
        (mulf (Host.gather (rowGatherDims N R C wfg) hW si) nm)) bb) zz (ix2 c k)
      = actR b (aggR src dst' dst d h) c k := by
  rw [maximumf_apply, addf_apply, agg_read hN wfg wfs hW z si di nm src dst' dst d h hz hh hsi hdi hnm c k,
    hbb c k, hzz c k]
  rfl

end Cert.ReferenceIdeal.RefVal

end
-- ==== Proof.RefEdges.lean ====
/-
  The reference's edge data, read edge by edge.

  The edge list is the given one followed by one self-loop per node; row 0 holds the source words and row 1 the
  destination words.  A word that is read by a gather is first moved up by the number of nodes when it is negative and
  then read signed and clamped; a word that is read by a scatter is read signed as it is.  The scale of a node is the
  inverse square root of its in-degree where that is positive and 0 elsewhere, so it is nonnegative and never +∞.  The
  scale of an edge is the product of the scales of its two ends.
-/
import proofs.«165119_j21320217657456_2_alg».proof.Proof.RefRead
import proofs.«165119_j21320217657456_2_alg».proof.Proof.Spec
import proofs.«165119_j21320217657456_2_alg».proof.Proof.LibRowTakeAdd
import proofs.«165119_j21320217657456_2_alg».proof.Proof.LibFlatTakePut
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.ReadP Cert.Gcn Idealize.ShloMosaic Idealize.ShloMosaic.ValueIdx
open scoped BigOperators

/-- The node each edge reads: its source word as a gather reads it. -/
abbrev srcR (x1 : (⟨S2x800000, .i32⟩ : BufTy).Contents (Elt Ideal)) : Fin 850000 → Fin 50000 :=
  srcOf 50000 (by decide) 50000#32 (cur1 (val_main_v6 (F := Ideal) x1))
/-- The node each edge's destination word denotes when a gather reads it. -/
abbrev dstR' (x1 : (⟨S2x800000, .i32⟩ : BufTy).Contents (Elt Ideal)) : Fin 850000 → Fin 50000 :=
  srcOf 50000 (by decide) 50000#32 (cur1 (val_main_v8 (F := Ideal) x1))
/-- The integer each edge adds at: its destination word as a scatter reads it. -/
abbrev dstR (x1 : (⟨S2x800000, .i32⟩ : BufTy).Contents (Elt Ideal)) : Fin 850000 → ℤ := dstOf (cur1 (val_main_v8 (F := Ideal) x1))
/-- The scale of each node. -/
abbrev dR (x1 : (⟨S2x800000, .i32⟩ : BufTy).Contents (Elt Ideal)) : Fin 50000 → EReal := cur1 (val_main_v16 (F := Ideal) x1)

/-- The scale of a node is 'inverse square root of the in-degree where positive, else 0'. -/
theorem dR_eq (x1 : (⟨S2x800000, .i32⟩ : BufTy).Contents (Elt Ideal)) (n : Fin 50000) :
    dR x1 n = Scalar.select (Ideal.cmp .ogt (val_main_v12 (F := Ideal) x1 (ix1 n)) 0)
      (Ideal.rsqrt (val_main_v12 (F := Ideal) x1 (ix1 n))) (0 : EReal) := by
  show val_main_v16 (F := Ideal) x1 (ix1 n) = _
  rw [val_main_v16_apply, val_main_v14_apply, val_main_v15_apply, val_main_call0_v1_apply, val_main_call0_v0_apply,
    val_main_cst_2_apply, val_main_v13_apply, val_main_cst_1_apply, Ideal.cmpf_def, Ideal.hostUnary_rsqrt_def,
    Ideal.ofBits_def, Ideal.ofBits_zero_f32]

/-- The scale of a node is nonnegative and not +∞. -/
theorem dR_bound (x1 : (⟨S2x800000, .i32⟩ : BufTy).Contents (Elt Ideal)) (n : Fin 50000) : 0 ≤ dR x1 n ∧ dR x1 n ≠ ⊤ := by
  rw [dR_eq]
  exact scale_bound _

/-- A flat gather of the scales at a column of words, read at edge e: the scale of the node the word selects. -/
theorem scale_take (x1 : (⟨S2x800000, .i32⟩ : BufTy).Contents (Elt Ideal)) (idx : IVec S850000x1 32) (e : Fin 850000) :
    Host.gather gather_S50000_S850000x1_S850000_n_0_n_n_0_1_1 (val_main_v16 (F := Ideal) x1) idx (ix1 e)
      = val_main_v16 (F := Ideal) x1 (ix1 (Cert.RowTakeAdd.takeRow 50000 (by decide) (idx (ix2 e (0 : Fin 1))))) := by
  refine (Cert.FlatTakePut.gather_flat_apply (N := 50000) (R := 850000) (by decide)
    Facts₀.gather_S50000_S850000x1_S850000_n_0_n_n_0_1_1_wf (val_main_v16 (F := Ideal) x1) idx (ix1 e)).trans ?_
  have hc : Cert.FlatTakePut.colIdx (ix1 e) = ix2 e (0 : Fin 1) :=
    funext fun a => Fin.ext (by match a with | ⟨0, _⟩ => rfl | ⟨1, _⟩ => rfl)
  refine congrArg (fun r : Fin 50000 => val_main_v16 (F := Ideal) x1 (ix1 r)) (Fin.ext ?_)
  show min (idx (Cert.FlatTakePut.colIdx (ix1 e))).toInt.toNat (50000 - 1)
    = min (idx (ix2 e (0 : Fin 1))).toInt.toNat (50000 - 1)
  rw [hc]

/-- The source word of edge e as the first scale gather reads it. -/
theorem word22 (x1 : (⟨S2x800000, .i32⟩ : BufTy).Contents (Elt Ideal)) (e : Fin 850000) :
    val_main_v22 (F := Ideal) x1 (ix2 e (0 : Fin 1)) = nrm 50000#32 (val_main_v6 (F := Ideal) x1 (ix1 e)) := by
  have hi : idx_main_v22 (ix2 e (0 : Fin 1)) = ix1 e := funext fun a => Fin.ext (by match a with | ⟨0, _⟩ => rfl)
  rw [val_main_v22_apply, hi, val_main_v21_apply, val_main_v18_apply, val_main_v20_apply, val_main_v17_apply,
    val_main_c_apply, val_main_v19_apply, val_main_c_3_apply]
  rfl

/-- The destination word of edge e as the second scale gather reads it. -/
theorem word29 (x1 : (⟨S2x800000, .i32⟩ : BufTy).Contents (Elt Ideal)) (e : Fin 850000) :
    val_main_v29 (F := Ideal) x1 (ix2 e (0 : Fin 1)) = nrm 50000#32 (val_main_v8 (F := Ideal) x1 (ix1 e)) := by
  have hi : idx_main_v29 (ix2 e (0 : Fin 1)) = ix1 e := funext fun a => Fin.ext (by match a with | ⟨0, _⟩ => rfl)
  rw [val_main_v29_apply, hi, val_main_v28_apply, val_main_v25_apply, val_main_v27_apply, val_main_v24_apply,
    val_main_c_4_apply, val_main_v26_apply, val_main_c_5_apply]
  rfl

/-- The scale of edge e: the product of the scales of its two ends. -/
theorem norm_apply (x1 : (⟨S2x800000, .i32⟩ : BufTy).Contents (Elt Ideal)) (e : Fin 850000) :
    val_main_v31 (F := Ideal) x1 (ix1 e) = dR x1 (srcR x1 e) * dR x1 (dstR' x1 e) := by
  dsimp only [dR, srcR, dstR', srcOf, cur1]
  rw [val_main_v31_apply, Ideal.mulf_def]
  unfold val_main_v23 val_main_v30
  rw [scale_take x1 _ e, scale_take x1 _ e, word22, word29]

end Cert.ReferenceIdeal.RefVal

end
-- ==== Proof.RefLayer1.lean ====
/-
  Layer 1 of the reference, read at a node and a feature.

  The layer's input features times its weights; for every edge the row of that product at the edge's source, times
  the edge's scale; those rows summed at the edges' destinations; plus the bias; clipped below at 0.
-/
import proofs.«165119_j21320217657456_2_alg».proof.Proof.RefRead
import proofs.«165119_j21320217657456_2_alg».proof.Proof.Spec
import proofs.«165119_j21320217657456_2_alg».proof.Proof.LibRowTakeAdd
import proofs.«165119_j21320217657456_2_alg».proof.Proof.LibFlatTakePut
import proofs.«165119_j21320217657456_2_alg».proof.Proof.RefAgg
import proofs.«165119_j21320217657456_2_alg».proof.Proof.RefEdges
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.ReadP Cert.Gcn Idealize.ShloMosaic Idealize.ShloMosaic.ValueIdx
open scoped BigOperators

/-- The features times the weights, read at (n, k): the sum over the input features. -/
theorem mm1_apply (x0 : (⟨S50000x3, .f32⟩ : BufTy).Contents (Elt Ideal)) (x3 : (⟨S3x64, .f32⟩ : BufTy).Contents (Elt Ideal)) (n : Fin 50000) (k : Fin 64) :
    val_main_v32 (F := Ideal) x0 x3 (ix2 n k) = mm (cur x0) (cur x3) n k := by
  rw [val_main_v32_apply]
  unfold mm
  refine Finset.sum_congr rfl fun j _ => ?_
  have hl : lidx_main_v32 (ix2 n k) j = ix2 n j :=
    funext fun a => Fin.ext (by match a with | ⟨0, _⟩ => rfl | ⟨1, _⟩ => rfl)
  have hr : ridx_main_v32 (ix2 n k) j = ix2 j k :=
    funext fun a => Fin.ext (by match a with | ⟨0, _⟩ => rfl | ⟨1, _⟩ => rfl)
  rw [hl, hr]
  rfl

/-- The source word of edge e as the row gather reads it selects the edge's source node. -/
theorem src1_apply (x1 : (⟨S2x800000, .i32⟩ : BufTy).Contents (Elt Ideal)) (e : Fin 850000) :
    Cert.RowTakeAdd.takeRow 50000 (by decide) (val_main_v38 (F := Ideal) x1 (ix2 e (0 : Fin 1))) = srcR x1 e := by
  dsimp only [srcR, srcOf, cur1]
  refine congrArg (Cert.RowTakeAdd.takeRow 50000 _) ?_
  have hi : idx_main_v38 (ix2 e (0 : Fin 1)) = ix1 e := funext fun a => Fin.ext (by match a with | ⟨0, _⟩ => rfl)
  rw [val_main_v38_apply, hi, val_main_v37_apply, val_main_v34_apply, val_main_v36_apply, val_main_v33_apply,
    val_main_c_6_apply, val_main_v35_apply, val_main_c_7_apply]
  rfl

/-- The destination word of edge e as the scatter reads it. -/
theorem dst1_apply (x1 : (⟨S2x800000, .i32⟩ : BufTy).Contents (Elt Ideal)) (e : Fin 850000) :
    (val_main_v44 (F := Ideal) x1 (ix2 e (0 : Fin 1))).toInt = dstR x1 e := by
  dsimp only [dstR, dstOf, cur1]
  have hi : idx_main_v44 (ix2 e (0 : Fin 1)) = ix1 e := funext fun a => Fin.ext (by match a with | ⟨0, _⟩ => rfl)
  rw [val_main_v44_apply, hi]

/-- The scale of edge e, repeated along the features. -/
theorem nrm1_apply (x1 : (⟨S2x800000, .i32⟩ : BufTy).Contents (Elt Ideal)) (e : Fin 850000) (k : Fin 64) :
    val_main_v41 (F := Ideal) x1 (ix2 e k) = dR x1 (srcR x1 e) * dR x1 (dstR' x1 e) := by
  have h1 : idx_main_v41 (ix2 e k) = ix2 e (0 : Fin 1) :=
    funext fun a => Fin.ext (by match a with | ⟨0, _⟩ => rfl | ⟨1, _⟩ => rfl)
  have h2 : idx_main_v40 (ix2 e (0 : Fin 1)) = ix1 e := funext fun a => Fin.ext (by match a with | ⟨0, _⟩ => rfl)
  rw [val_main_v41_apply, h1, val_main_v40_apply, h2]
  exact norm_apply x1 e

/-- The array the edge sum starts from is zero. -/
theorem zero1_apply (n : Fin 50000) (k : Fin 64) : val_main_v43 (F := Ideal) (ix2 n k) = 0 := by
  rw [val_main_v43_apply, val_main_cst_8_apply, Ideal.ofBits_def, Ideal.ofBits_zero_f32]

/-- The bias, repeated along the nodes. -/
theorem bias1_apply (x4 : (⟨S64, .f32⟩ : BufTy).Contents (Elt Ideal)) (n : Fin 50000) (k : Fin 64) :
    val_main_v47 (F := Ideal) x4 (ix2 n k) = cur1 x4 k := by
  have h1 : idx_main_v46 (idx_main_v47 (ix2 n k)) = ix1 k :=
    funext fun a => Fin.ext (by match a with | ⟨0, _⟩ => rfl)
  rw [val_main_v47_apply, val_main_v46_apply, h1]
  rfl

/-- The array the clip compares with is zero. -/
theorem clip1_apply (n : Fin 50000) (k : Fin 64) : val_main_call1_v0 (F := Ideal) (ix2 n k) = 0 := by
  rw [val_main_call1_v0_apply, val_main_call1_cst_apply, Ideal.ofBits_def, Ideal.ofBits_zero_f32]

/-- Layer 1 at node n and feature k. -/
theorem layer1_apply (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (n : Fin 50000) (k : Fin 64) :
    val_main_v49 (F := Ideal) x0 x1 x3 x4 (ix2 n k)
      = actR (cur1 x4) (aggR (srcR x1) (dstR' x1) (dstR x1) (dR x1) (mm (cur x0) (cur x3))) n k := by
  unfold val_main_v49 val_main_v48 val_main_v45 val_main_v42 val_main_v39
  exact layer_read (N := 50000) (R := 850000) (C := 64) (by decide)
    Facts₀.gather_S50000x64_S850000x1_S850000x64_1_0_n_n_0_1_164_wf
    Facts₀.scatter_S50000x64_S850000x1_S850000x64_1_0_0_1_wf
    (val_main_v32 (F := Ideal) x0 x3) (val_main_v43 (F := Ideal)) (val_main_v47 (F := Ideal) x4)
    (val_main_call1_v0 (F := Ideal)) (val_main_v38 (F := Ideal) x1) (val_main_v44 (F := Ideal) x1)
    (val_main_v41 (F := Ideal) x1)
    (srcR x1) (dstR' x1) (dstR x1) (dR x1) (mm (cur x0) (cur x3)) (cur1 x4)
    zero1_apply (mm1_apply x0 x3) (src1_apply x1) (dst1_apply x1) (nrm1_apply x1)
    (bias1_apply x4) clip1_apply n k

end Cert.ReferenceIdeal.RefVal

end
-- ==== Proof.RefLayer2.lean ====
/-
  Layer 2 of the reference, read at a node and a feature.

  The layer's input features times its weights; for every edge the row of that product at the edge's source, times
  the edge's scale; those rows summed at the edges' destinations; plus the bias; clipped below at 0.
-/
import proofs.«165119_j21320217657456_2_alg».proof.Proof.RefRead
import proofs.«165119_j21320217657456_2_alg».proof.Proof.Spec
import proofs.«165119_j21320217657456_2_alg».proof.Proof.LibRowTakeAdd
import proofs.«165119_j21320217657456_2_alg».proof.Proof.LibFlatTakePut
import proofs.«165119_j21320217657456_2_alg».proof.Proof.RefAgg
import proofs.«165119_j21320217657456_2_alg».proof.Proof.RefEdges
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.ReadP Cert.Gcn Idealize.ShloMosaic Idealize.ShloMosaic.ValueIdx
open scoped BigOperators

/-- The features times the weights, read at (n, k): the sum over the input features. -/
theorem mm2_apply (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x128, .f32⟩ : BufTy).Contents (Elt Ideal)) (n : Fin 50000) (k : Fin 128) :
    val_main_v50 (F := Ideal) x0 x1 x3 x4 x5 (ix2 n k) = mm (cur (val_main_v49 (F := Ideal) x0 x1 x3 x4)) (cur x5) n k := by
  rw [val_main_v50_apply]
  unfold mm
  refine Finset.sum_congr rfl fun j _ => ?_
  have hl : lidx_main_v50 (ix2 n k) j = ix2 n j :=
    funext fun a => Fin.ext (by match a with | ⟨0, _⟩ => rfl | ⟨1, _⟩ => rfl)
  have hr : ridx_main_v50 (ix2 n k) j = ix2 j k :=
    funext fun a => Fin.ext (by match a with | ⟨0, _⟩ => rfl | ⟨1, _⟩ => rfl)
  rw [hl, hr]
  rfl

/-- The source word of edge e as the row gather reads it selects the edge's source node. -/
theorem src2_apply (x1 : (⟨S2x800000, .i32⟩ : BufTy).Contents (Elt Ideal)) (e : Fin 850000) :
    Cert.RowTakeAdd.takeRow 50000 (by decide) (val_main_v56 (F := Ideal) x1 (ix2 e (0 : Fin 1))) = srcR x1 e := by
  dsimp only [srcR, srcOf, cur1]
  refine congrArg (Cert.RowTakeAdd.takeRow 50000 _) ?_
  have hi : idx_main_v56 (ix2 e (0 : Fin 1)) = ix1 e := funext fun a => Fin.ext (by match a with | ⟨0, _⟩ => rfl)
  rw [val_main_v56_apply, hi, val_main_v55_apply, val_main_v52_apply, val_main_v54_apply, val_main_v51_apply,
    val_main_c_9_apply, val_main_v53_apply, val_main_c_10_apply]
  rfl

/-- The destination word of edge e as the scatter reads it. -/
theorem dst2_apply (x1 : (⟨S2x800000, .i32⟩ : BufTy).Contents (Elt Ideal)) (e : Fin 850000) :
    (val_main_v62 (F := Ideal) x1 (ix2 e (0 : Fin 1))).toInt = dstR x1 e := by
  dsimp only [dstR, dstOf, cur1]
  have hi : idx_main_v62 (ix2 e (0 : Fin 1)) = ix1 e := funext fun a => Fin.ext (by match a with | ⟨0, _⟩ => rfl)
  rw [val_main_v62_apply, hi]

/-- The scale of edge e, repeated along the features. -/
theorem nrm2_apply (x1 : (⟨S2x800000, .i32⟩ : BufTy).Contents (Elt Ideal)) (e : Fin 850000) (k : Fin 128) :
    val_main_v59 (F := Ideal) x1 (ix2 e k) = dR x1 (srcR x1 e) * dR x1 (dstR' x1 e) := by
  have h1 : idx_main_v59 (ix2 e k) = ix2 e (0 : Fin 1) :=
    funext fun a => Fin.ext (by match a with | ⟨0, _⟩ => rfl | ⟨1, _⟩ => rfl)
  have h2 : idx_main_v58 (ix2 e (0 : Fin 1)) = ix1 e := funext fun a => Fin.ext (by match a with | ⟨0, _⟩ => rfl)
  rw [val_main_v59_apply, h1, val_main_v58_apply, h2]
  exact norm_apply x1 e

/-- The array the edge sum starts from is zero. -/
theorem zero2_apply (n : Fin 50000) (k : Fin 128) : val_main_v61 (F := Ideal) (ix2 n k) = 0 := by
  rw [val_main_v61_apply, val_main_cst_11_apply, Ideal.ofBits_def, Ideal.ofBits_zero_f32]

/-- The bias, repeated along the nodes. -/
theorem bias2_apply (x6 : (⟨S128, .f32⟩ : BufTy).Contents (Elt Ideal)) (n : Fin 50000) (k : Fin 128) :
    val_main_v65 (F := Ideal) x6 (ix2 n k) = cur1 x6 k := by
  have h1 : idx_main_v64 (idx_main_v65 (ix2 n k)) = ix1 k :=
    funext fun a => Fin.ext (by match a with | ⟨0, _⟩ => rfl)
  rw [val_main_v65_apply, val_main_v64_apply, h1]
  rfl

/-- The array the clip compares with is zero. -/
theorem clip2_apply (n : Fin 50000) (k : Fin 128) : val_main_call2_v0 (F := Ideal) (ix2 n k) = 0 := by
  rw [val_main_call2_v0_apply, val_main_call2_cst_apply, Ideal.ofBits_def, Ideal.ofBits_zero_f32]

/-- Layer 2 at node n and feature k. -/
theorem layer2_apply (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (n : Fin 50000) (k : Fin 128) :
    val_main_v67 (F := Ideal) x0 x1 x3 x4 x5 x6 (ix2 n k)
      = actR (cur1 x6) (aggR (srcR x1) (dstR' x1) (dstR x1) (dR x1) (mm (cur (val_main_v49 (F := Ideal) x0 x1 x3 x4)) (cur x5))) n k := by
  unfold val_main_v67 val_main_v66 val_main_v63 val_main_v60 val_main_v57
  exact layer_read (N := 50000) (R := 850000) (C := 128) (by decide)
    Facts₀.gather_S50000x128_S850000x1_S850000x128_1_0_n_n_0_1_1128_wf
    Facts₀.scatter_S50000x128_S850000x1_S850000x128_1_0_0_1_wf
    (val_main_v50 (F := Ideal) x0 x1 x3 x4 x5) (val_main_v61 (F := Ideal)) (val_main_v65 (F := Ideal) x6)
    (val_main_call2_v0 (F := Ideal)) (val_main_v56 (F := Ideal) x1) (val_main_v62 (F := Ideal) x1)
    (val_main_v59 (F := Ideal) x1)
    (srcR x1) (dstR' x1) (dstR x1) (dR x1) (mm (cur (val_main_v49 (F := Ideal) x0 x1 x3 x4)) (cur x5)) (cur1 x6)
    zero2_apply (mm2_apply x0 x1 x3 x4 x5) (src2_apply x1) (dst2_apply x1) (nrm2_apply x1)
    (bias2_apply x6) clip2_apply n k

end Cert.ReferenceIdeal.RefVal

end
-- ==== Proof.RefLayer3.lean ====
/-
  Layer 3 of the reference, read at a node and a feature.

  The layer's input features times its weights; for every edge the row of that product at the edge's source, times
  the edge's scale; those rows summed at the edges' destinations; plus the bias; clipped below at 0.
-/
import proofs.«165119_j21320217657456_2_alg».proof.Proof.RefRead
import proofs.«165119_j21320217657456_2_alg».proof.Proof.Spec
import proofs.«165119_j21320217657456_2_alg».proof.Proof.LibRowTakeAdd
import proofs.«165119_j21320217657456_2_alg».proof.Proof.LibFlatTakePut
import proofs.«165119_j21320217657456_2_alg».proof.Proof.RefAgg
import proofs.«165119_j21320217657456_2_alg».proof.Proof.RefEdges
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.ReadP Cert.Gcn Idealize.ShloMosaic Idealize.ShloMosaic.ValueIdx
open scoped BigOperators

/-- The features times the weights, read at (n, k): the sum over the input features. -/
theorem mm3_apply (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (n : Fin 50000) (k : Fin 256) :
    val_main_v68 (F := Ideal) x0 x1 x3 x4 x5 x6 x7 (ix2 n k) = mm (cur (val_main_v67 (F := Ideal) x0 x1 x3 x4 x5 x6)) (cur x7) n k := by
  rw [val_main_v68_apply]
  unfold mm
  refine Finset.sum_congr rfl fun j _ => ?_
  have hl : lidx_main_v68 (ix2 n k) j = ix2 n j :=
    funext fun a => Fin.ext (by match a with | ⟨0, _⟩ => rfl | ⟨1, _⟩ => rfl)
  have hr : ridx_main_v68 (ix2 n k) j = ix2 j k :=
    funext fun a => Fin.ext (by match a with | ⟨0, _⟩ => rfl | ⟨1, _⟩ => rfl)
  rw [hl, hr]
  rfl

/-- The source word of edge e as the row gather reads it selects the edge's source node. -/
theorem src3_apply (x1 : (⟨S2x800000, .i32⟩ : BufTy).Contents (Elt Ideal)) (e : Fin 850000) :
    Cert.RowTakeAdd.takeRow 50000 (by decide) (val_main_v74 (F := Ideal) x1 (ix2 e (0 : Fin 1))) = srcR x1 e := by
  dsimp only [srcR, srcOf, cur1]
  refine congrArg (Cert.RowTakeAdd.takeRow 50000 _) ?_
  have hi : idx_main_v74 (ix2 e (0 : Fin 1)) = ix1 e := funext fun a => Fin.ext (by match a with | ⟨0, _⟩ => rfl)
  rw [val_main_v74_apply, hi, val_main_v73_apply, val_main_v70_apply, val_main_v72_apply, val_main_v69_apply,
    val_main_c_12_apply, val_main_v71_apply, val_main_c_13_apply]
  rfl

/-- The destination word of edge e as the scatter reads it. -/
theorem dst3_apply (x1 : (⟨S2x800000, .i32⟩ : BufTy).Contents (Elt Ideal)) (e : Fin 850000) :
    (val_main_v80 (F := Ideal) x1 (ix2 e (0 : Fin 1))).toInt = dstR x1 e := by
  dsimp only [dstR, dstOf, cur1]
  have hi : idx_main_v80 (ix2 e (0 : Fin 1)) = ix1 e := funext fun a => Fin.ext (by match a with | ⟨0, _⟩ => rfl)
  rw [val_main_v80_apply, hi]

/-- The scale of edge e, repeated along the features. -/
theorem nrm3_apply (x1 : (⟨S2x800000, .i32⟩ : BufTy).Contents (Elt Ideal)) (e : Fin 850000) (k : Fin 256) :
    val_main_v77 (F := Ideal) x1 (ix2 e k) = dR x1 (srcR x1 e) * dR x1 (dstR' x1 e) := by
  have h1 : idx_main_v77 (ix2 e k) = ix2 e (0 : Fin 1) :=
    funext fun a => Fin.ext (by match a with | ⟨0, _⟩ => rfl | ⟨1, _⟩ => rfl)
  have h2 : idx_main_v76 (ix2 e (0 : Fin 1)) = ix1 e := funext fun a => Fin.ext (by match a with | ⟨0, _⟩ => rfl)
  rw [val_main_v77_apply, h1, val_main_v76_apply, h2]
  exact norm_apply x1 e

/-- The array the edge sum starts from is zero. -/
theorem zero3_apply (n : Fin 50000) (k : Fin 256) : val_main_v79 (F := Ideal) (ix2 n k) = 0 := by
  rw [val_main_v79_apply, val_main_cst_14_apply, Ideal.ofBits_def, Ideal.ofBits_zero_f32]

/-- The bias, repeated along the nodes. -/
theorem bias3_apply (x8 : (⟨S256, .f32⟩ : BufTy).Contents (Elt Ideal)) (n : Fin 50000) (k : Fin 256) :
    val_main_v83 (F := Ideal) x8 (ix2 n k) = cur1 x8 k := by
  have h1 : idx_main_v82 (idx_main_v83 (ix2 n k)) = ix1 k :=
    funext fun a => Fin.ext (by match a with | ⟨0, _⟩ => rfl)
  rw [val_main_v83_apply, val_main_v82_apply, h1]
  rfl

/-- The array the clip compares with is zero. -/
theorem clip3_apply (n : Fin 50000) (k : Fin 256) : val_main_call3_v0 (F := Ideal) (ix2 n k) = 0 := by
  rw [val_main_call3_v0_apply, val_main_call3_cst_apply, Ideal.ofBits_def, Ideal.ofBits_zero_f32]

/-- Layer 3 at node n and feature k. -/
theorem layer3_apply (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (n : Fin 50000) (k : Fin 256) :
    val_main_v85 (F := Ideal) x0 x1 x3 x4 x5 x6 x7 x8 (ix2 n k)
      = actR (cur1 x8) (aggR (srcR x1) (dstR' x1) (dstR x1) (dR x1) (mm (cur (val_main_v67 (F := Ideal) x0 x1 x3 x4 x5 x6)) (cur x7))) n k := by
  unfold val_main_v85 val_main_v84 val_main_v81 val_main_v78 val_main_v75
  exact layer_read (N := 50000) (R := 850000) (C := 256) (by decide)
    Facts₀.gather_S50000x256_S850000x1_S850000x256_1_0_n_n_0_1_1256_wf
    Facts₀.scatter_S50000x256_S850000x1_S850000x256_1_0_0_1_wf
    (val_main_v68 (F := Ideal) x0 x1 x3 x4 x5 x6 x7) (val_main_v79 (F := Ideal)) (val_main_v83 (F := Ideal) x8)
    (val_main_call3_v0 (F := Ideal)) (val_main_v74 (F := Ideal) x1) (val_main_v80 (F := Ideal) x1)
    (val_main_v77 (F := Ideal) x1)
    (srcR x1) (dstR' x1) (dstR x1) (dR x1) (mm (cur (val_main_v67 (F := Ideal) x0 x1 x3 x4 x5 x6)) (cur x7)) (cur1 x8)
    zero3_apply (mm3_apply x0 x1 x3 x4 x5 x6 x7) (src3_apply x1) (dst3_apply x1) (nrm3_apply x1)
    (bias3_apply x8) clip3_apply n k

end Cert.ReferenceIdeal.RefVal

end
-- ==== Proof.RefPool.lean ====
/-
  The mean pool by graph of the reference program, as one function of the node features and the graph indices.
-/
import proofs.«165119_j21320217657456_2_alg».proof.Proof.Gen.ReferenceIdeal
import Idealize.ShloMosaic.PureOps.Ideal

noncomputable section

namespace Cert.ReferenceIdeal.RefVal

open Cert.ReferenceIdeal Cert.ReferenceIdeal.Gen Idealize.ShloMosaic

/-- The mean pool by graph, as one function of the node features h and the graph index of each node b: the sum of the
    features by graph index, divided entry by entry by the number of nodes of the graph clipped below at one. -/
def poolR (h : (⟨S50000x256, .f32⟩ : BufTy).Contents (Elt Ideal)) (b : (⟨S50000, .i32⟩ : BufTy).Contents (Elt Ideal)) :
    (⟨S16x256, .f32⟩ : BufTy).Contents (Elt Ideal) :=
  Host.divf (F := Ideal)
    (Host.scatterAdd (F := Ideal) scatter_S16x256_S50000x1_S50000x256_1_0_0_1
      (broadcastInDim S16x256 ![] bcast_S_S16x256 (constant (F := Ideal) S_ .f32 0x00000000#32))
      (broadcastInDim S50000x1 ![0] bcast_S50000_S50000x1_0 b) h)
    (broadcastInDim S16x256 ![0, 1] bcast_S16x1_S16x256_0_1
      (broadcastInDim S16x1 ![0] bcast_S16_S16x1_0
        (maximumf
          (Host.scatterAdd (F := Ideal) scatter_S16_S50000x1_S50000_n_0_0_1
            (broadcastInDim S16 ![] bcast_S_S16 (constant (F := Ideal) S_ .f32 0x00000000#32))
            (broadcastInDim S50000x1 ![0] bcast_S50000_S50000x1_0 b)
            (broadcastInDim S50000 ![] bcast_S_S50000 (constant (F := Ideal) S_ .f32 0x3F800000#32)))
          (broadcastInDim S16 ![] bcast_S_S16 (constant (F := Ideal) S_ .f32 0x3F800000#32)))))

end Cert.ReferenceIdeal.RefVal

end
-- ==== Proof.RefOut.lean ====
/-
  The reference's result, read at a graph and a class.

  The three layers composed are the specification's stack; the mean pool by graph is one shared function of the last
  layer's features and the graph indices, which is not opened; the classifier head is the pooled features times a
  weight matrix plus a bias per class.
-/
import proofs.«165119_j21320217657456_2_alg».proof.Proof.RefRead
import proofs.«165119_j21320217657456_2_alg».proof.Proof.Spec
import proofs.«165119_j21320217657456_2_alg».proof.Proof.LibRowTakeAdd
import proofs.«165119_j21320217657456_2_alg».proof.Proof.LibFlatTakePut
import proofs.«165119_j21320217657456_2_alg».proof.Proof.RefLayer1
import proofs.«165119_j21320217657456_2_alg».proof.Proof.RefLayer2
import proofs.«165119_j21320217657456_2_alg».proof.Proof.RefLayer3
import proofs.«165119_j21320217657456_2_alg».proof.Proof.RefPool
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.ReadP Cert.Gcn Idealize.ShloMosaic Idealize.ShloMosaic.ValueIdx
open scoped BigOperators

/-- The third layer's features are the specification's three-layer stack. -/
theorem feat3_apply (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (n : Fin 50000) (k : Fin 256) :
    val_main_v85 (F := Ideal) x0 x1 x3 x4 x5 x6 x7 x8 (ix2 n k)
      = netR (srcR x1) (dstR' x1) (dstR x1) (dR x1) (cur x0) (cur x3) (cur1 x4) (cur x5) (cur1 x6) (cur x7) (cur1 x8) n k := by
  have h1 : cur (val_main_v49 (F := Ideal) x0 x1 x3 x4)
      = actR (cur1 x4) (aggR (srcR x1) (dstR' x1) (dstR x1) (dR x1) (mm (cur x0) (cur x3))) := by
    funext n k
    exact layer1_apply x0 x1 x3 x4 n k
  have h2 : cur (val_main_v67 (F := Ideal) x0 x1 x3 x4 x5 x6)
      = actR (cur1 x6) (aggR (srcR x1) (dstR' x1) (dstR x1) (dR x1) (mm (cur (val_main_v49 (F := Ideal) x0 x1 x3 x4)) (cur x5))) := by
    funext n k
    exact layer2_apply x0 x1 x3 x4 x5 x6 n k
  rw [layer3_apply, h2, h1]
  rfl

/-- The pooled features are the shared pool of the third layer's features and the graph indices. -/
theorem pool_eq (x0 : (⟨S50000x3, .f32⟩ : BufTy).Contents (Elt Ideal)) (x1 : (⟨S2x800000, .i32⟩ : BufTy).Contents (Elt Ideal)) (x2 : (⟨S50000, .i32⟩ : BufTy).Contents (Elt Ideal)) (x3 : (⟨S3x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) :
    val_main_v97 (F := Ideal) x0 x1 x2 x3 x4 x5 x6 x7 x8 = poolR (val_main_v85 (F := Ideal) x0 x1 x3 x4 x5 x6 x7 x8) x2 := by
  unfold val_main_v97 val_main_v88 val_main_v96 val_main_v95 val_main_v94 val_main_v92 val_main_v93 val_main_v91
    val_main_v90 val_main_v89 val_main_v87 val_main_v86 val_main_cst_15 val_main_cst_16 val_main_cst_17 val_main_cst_18
    poolR
  generalize val_main_v85 (F := Ideal) x0 x1 x3 x4 x5 x6 x7 x8 = h
  rfl

/-- The result at graph p and class q: the pooled features times the head's weights, plus the head's bias. -/
theorem out_apply (x0 : (⟨S50000x3, .f32⟩ : BufTy).Contents (Elt Ideal)) (x1 : (⟨S2x800000, .i32⟩ : BufTy).Contents (Elt Ideal)) (x2 : (⟨S50000, .i32⟩ : BufTy).Contents (Elt Ideal)) (x3 : (⟨S3x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x247, .f32⟩ : BufTy).Contents (Elt Ideal)) (x10 : (⟨S247, .f32⟩ : BufTy).Contents (Elt Ideal)) (p : Fin 16) (q : Fin 247) :
    val_main_v101 (F := Ideal) x0 x1 x2 x3 x4 x5 x6 x7 x8 x9 x10 (ix2 p q)
      = head (cur (poolR (val_main_v85 (F := Ideal) x0 x1 x3 x4 x5 x6 x7 x8) x2)) (cur x9) (cur1 x10) p q := by
  have hb : idx_main_v99 (idx_main_v100 (ix2 p q)) = ix1 q := funext fun a => Fin.ext (by match a with | ⟨0, _⟩ => rfl)
  rw [val_main_v101_apply, Ideal.addf_def, val_main_v98_apply, val_main_v100_apply, val_main_v99_apply, hb,
    ← pool_eq x0 x1 x2 x3 x4 x5 x6 x7 x8]
  unfold head
  refine congrArg (· + cur1 x10 q) ?_
  refine Finset.sum_congr rfl fun j _ => ?_
  have hl : lidx_main_v98 (ix2 p q) j = ix2 p j :=
    funext fun a => Fin.ext (by match a with | ⟨0, _⟩ => rfl | ⟨1, _⟩ => rfl)
  have hr : ridx_main_v98 (ix2 p q) j = ix2 j q :=
    funext fun a => Fin.ext (by match a with | ⟨0, _⟩ => rfl | ⟨1, _⟩ => rfl)
  rw [hl, hr]
  rfl

end Cert.ReferenceIdeal.RefVal

end
-- ==== Proof.BridgePrelude.lean ====
import proofs.«165119_j21320217657456_2_alg».proof.Proof.Gen.KernelIdeal.Frame
import proofs.«165119_j21320217657456_2_alg».proof.Proof.RefRead
import proofs.«165119_j21320217657456_2_alg».proof.Proof.Spec
import proofs.«165119_j21320217657456_2_alg».proof.Proof.LibKeepdims
import Idealize.ShloMosaic.Lib.StableHlo.Run

/-!
  The shared prelude of the two programs, read at the first region's entry.

  Both programs begin with the same operations on the edge list: one self-loop per node is joined on, the rows of source
  and of target words are cut out, the in-degree of every node is the sum of ones over the edges that point at it, and a
  node's scale is the inverse square root of its in-degree where that is positive and zero elsewhere.  The kernel
  program then keeps the scales as a column.  Here: the kernel program's buffers of source words, of target words and of
  scales, as the first region finds them, are the reference's stages of the same argument; the two sides are the same
  operations in the same order, so each equation holds by unfolding, one stretch of operations at a time.
-/

noncomputable section

namespace Cert.Bridge

open Idealize.ShloMosaic Idealize.ShloMosaic.TcCoe Idealize.ShloMosaic.StableHlo Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option maxHeartbeats 400000 in
/-- At the first region's entry the kernel program's vector of edge source words is the reference's: the edge list with one self-loop per node joined on, its first row. -/
theorem row_words :
    Cert.KernelIdeal.Gen.W3 (F := Ideal) m ρ c (Proc.devRef .tc Cert.KernelIdeal.main_v6)
      = Cert.ReferenceIdeal.ReadP.val_main_v6 (F := Ideal) (m ((c : Thread Cert.KernelIdeal.nD Cert.KernelIdeal.τ).loc Cert.KernelIdeal.main_arg1)) := by
  show StableHlo.after (Cert.KernelIdeal.Gen.hostOps0_2 (F := Ideal))
      (StableHlo.after Cert.KernelIdeal.Gen.hostOps0_1 (StableHlo.after Cert.KernelIdeal.Gen.hostOps0 (Cert.KernelIdeal.Gen.W0 m ρ c)))
      (Proc.devRef .tc Cert.KernelIdeal.main_v6) = _
  after_results_simp
  unfold Cert.ReferenceIdeal.ReadP.val_main_v6 Cert.ReferenceIdeal.ReadP.val_main_v5 Cert.ReferenceIdeal.ReadP.val_main_v4 Cert.ReferenceIdeal.ReadP.val_main_v3 Cert.ReferenceIdeal.ReadP.val_main_v2 Cert.ReferenceIdeal.ReadP.val_main_v1 Cert.ReferenceIdeal.ReadP.val_main_v0
  rfl

set_option maxHeartbeats 400000 in
/-- At the first region's entry the kernel program's vector of edge target words is the reference's: the same joined edge list, its second row. -/
theorem col_words :
    Cert.KernelIdeal.Gen.W3 (F := Ideal) m ρ c (Proc.devRef .tc Cert.KernelIdeal.main_v8)
      = Cert.ReferenceIdeal.ReadP.val_main_v8 (F := Ideal) (m ((c : Thread Cert.KernelIdeal.nD Cert.KernelIdeal.τ).loc Cert.KernelIdeal.main_arg1)) := by
  show StableHlo.after (Cert.KernelIdeal.Gen.hostOps0_2 (F := Ideal))
      (StableHlo.after Cert.KernelIdeal.Gen.hostOps0_1 (StableHlo.after Cert.KernelIdeal.Gen.hostOps0 (Cert.KernelIdeal.Gen.W0 m ρ c)))
      (Proc.devRef .tc Cert.KernelIdeal.main_v8) = _
  after_results_simp
  unfold Cert.ReferenceIdeal.ReadP.val_main_v8 Cert.ReferenceIdeal.ReadP.val_main_v7 Cert.ReferenceIdeal.ReadP.val_main_v4 Cert.ReferenceIdeal.ReadP.val_main_v3 Cert.ReferenceIdeal.ReadP.val_main_v2 Cert.ReferenceIdeal.ReadP.val_main_v1 Cert.ReferenceIdeal.ReadP.val_main_v0
  rfl

set_option maxHeartbeats 400000 in
/-- After the first stretch of host operations the inverse square root of the in-degrees is the reference's. -/
theorem w1_v15 :
    Cert.KernelIdeal.Gen.W1 (F := Ideal) m ρ c (Proc.devRef .tc Cert.KernelIdeal.main_v15) = Cert.ReferenceIdeal.ReadP.val_main_v15 (F := Ideal) (m ((c : Thread Cert.KernelIdeal.nD Cert.KernelIdeal.τ).loc Cert.KernelIdeal.main_arg1)) := by
  show StableHlo.after (Cert.KernelIdeal.Gen.hostOps0 (F := Ideal)) (Cert.KernelIdeal.Gen.W0 m ρ c) (Proc.devRef .tc Cert.KernelIdeal.main_v15) = _
  after_results_simp
  unfold Cert.ReferenceIdeal.ReadP.val_main_v15 Cert.ReferenceIdeal.ReadP.val_main_v12 Cert.ReferenceIdeal.ReadP.val_main_v11 Cert.ReferenceIdeal.ReadP.val_main_v10 Cert.ReferenceIdeal.ReadP.val_main_v9 Cert.ReferenceIdeal.ReadP.val_main_cst Cert.ReferenceIdeal.ReadP.val_main_cst_0 Cert.ReferenceIdeal.ReadP.val_main_v8 Cert.ReferenceIdeal.ReadP.val_main_v7 Cert.ReferenceIdeal.ReadP.val_main_v4 Cert.ReferenceIdeal.ReadP.val_main_v3 Cert.ReferenceIdeal.ReadP.val_main_v2 Cert.ReferenceIdeal.ReadP.val_main_v1 Cert.ReferenceIdeal.ReadP.val_main_v0
  rfl

set_option maxHeartbeats 400000 in
/-- After the first stretch of host operations the test 'in-degree above zero' is the reference's. -/
theorem w1_v14 :
    Cert.KernelIdeal.Gen.W1 (F := Ideal) m ρ c (Proc.devRef .tc Cert.KernelIdeal.main_v14) = Cert.ReferenceIdeal.ReadP.val_main_v14 (F := Ideal) (m ((c : Thread Cert.KernelIdeal.nD Cert.KernelIdeal.τ).loc Cert.KernelIdeal.main_arg1)) := by
  show StableHlo.after (Cert.KernelIdeal.Gen.hostOps0 (F := Ideal)) (Cert.KernelIdeal.Gen.W0 m ρ c) (Proc.devRef .tc Cert.KernelIdeal.main_v14) = _
  after_results_simp
  unfold Cert.ReferenceIdeal.ReadP.val_main_v14 Cert.ReferenceIdeal.ReadP.val_main_v13 Cert.ReferenceIdeal.ReadP.val_main_cst_1 Cert.ReferenceIdeal.ReadP.val_main_v12 Cert.ReferenceIdeal.ReadP.val_main_v11 Cert.ReferenceIdeal.ReadP.val_main_v10 Cert.ReferenceIdeal.ReadP.val_main_v9 Cert.ReferenceIdeal.ReadP.val_main_cst Cert.ReferenceIdeal.ReadP.val_main_cst_0 Cert.ReferenceIdeal.ReadP.val_main_v8 Cert.ReferenceIdeal.ReadP.val_main_v7 Cert.ReferenceIdeal.ReadP.val_main_v4 Cert.ReferenceIdeal.ReadP.val_main_v3 Cert.ReferenceIdeal.ReadP.val_main_v2 Cert.ReferenceIdeal.ReadP.val_main_v1 Cert.ReferenceIdeal.ReadP.val_main_v0
  rfl

set_option maxHeartbeats 400000 in
/-- After the first stretch of host operations the zero scalar the selection falls back to is the reference's. -/
theorem w1_cst_2 :
    Cert.KernelIdeal.Gen.W1 (F := Ideal) m ρ c (Proc.devRef .tc Cert.KernelIdeal.main_cst_2) = Cert.ReferenceIdeal.ReadP.val_main_cst_2 (F := Ideal) := by
  show StableHlo.after (Cert.KernelIdeal.Gen.hostOps0 (F := Ideal)) (Cert.KernelIdeal.Gen.W0 m ρ c) (Proc.devRef .tc Cert.KernelIdeal.main_cst_2) = _
  after_results_simp
  unfold Cert.ReferenceIdeal.ReadP.val_main_cst_2
  rfl

/-! Contents seen at a value's type through a buffer whose type is that type: the same contents. -/

theorem ofBuf_v14 (h1 h2 h3) (v : (⟨Cert.KernelIdeal.S50000, .i1⟩ : BufTy).Contents (Elt Ideal)) :
    (TRef.of (sig := Cert.KernelIdeal.sig) (T := ⟨Cert.KernelIdeal.S50000, .i1⟩) Cert.KernelIdeal.main_v14 h1 h2 h3).ofBuf (Val := Elt Ideal) v = v := rfl

theorem ofBuf_v15 (h1 h2 h3) (v : (⟨Cert.KernelIdeal.S50000, .f32⟩ : BufTy).Contents (Elt Ideal)) :
    (TRef.of (sig := Cert.KernelIdeal.sig) (T := ⟨Cert.KernelIdeal.S50000, .f32⟩) Cert.KernelIdeal.main_v15 h1 h2 h3).ofBuf (Val := Elt Ideal) v = v := rfl

theorem ofBuf_c1 (h1 h2 h3) (v : (⟨Cert.KernelIdeal.S50000, .f32⟩ : BufTy).Contents (Elt Ideal)) :
    (TRef.of (sig := Cert.KernelIdeal.sig) (T := ⟨Cert.KernelIdeal.S50000, .f32⟩) Cert.KernelIdeal.main_call0_v1 h1 h2 h3).ofBuf (Val := Elt Ideal) v = v := rfl

theorem toBuf_c1 (h1 h2 h3) (v : (⟨Cert.KernelIdeal.S50000, .f32⟩ : BufTy).Contents (Elt Ideal)) :
    (TRef.of (sig := Cert.KernelIdeal.sig) (T := ⟨Cert.KernelIdeal.S50000, .f32⟩) Cert.KernelIdeal.main_call0_v1 h1 h2 h3).toBuf (Val := Elt Ideal) v = v := rfl

theorem ofBuf_c0 (h1 h2 h3) (v : (⟨Cert.KernelIdeal.S_, .f32⟩ : BufTy).Contents (Elt Ideal)) :
    (TRef.of (sig := Cert.KernelIdeal.sig) (T := ⟨Cert.KernelIdeal.S_, .f32⟩) Cert.KernelIdeal.main_call0_v0 h1 h2 h3).ofBuf (Val := Elt Ideal) v = v := rfl

theorem toBuf_c0 (h1 h2 h3) (v : (⟨Cert.KernelIdeal.S_, .f32⟩ : BufTy).Contents (Elt Ideal)) :
    (TRef.of (sig := Cert.KernelIdeal.sig) (T := ⟨Cert.KernelIdeal.S_, .f32⟩) Cert.KernelIdeal.main_call0_v0 h1 h2 h3).toBuf (Val := Elt Ideal) v = v := rfl

theorem ofBuf_cst2 (h1 h2 h3) (v : (⟨Cert.KernelIdeal.S_, .f32⟩ : BufTy).Contents (Elt Ideal)) :
    (TRef.of (sig := Cert.KernelIdeal.sig) (T := ⟨Cert.KernelIdeal.S_, .f32⟩) Cert.KernelIdeal.main_cst_2 h1 h2 h3).ofBuf (Val := Elt Ideal) v = v := rfl

theorem toBuf_v16 (h1 h2 h3) (v : (⟨Cert.KernelIdeal.S50000, .f32⟩ : BufTy).Contents (Elt Ideal)) :
    (TRef.of (sig := Cert.KernelIdeal.sig) (T := ⟨Cert.KernelIdeal.S50000, .f32⟩) Cert.KernelIdeal.main_v16 h1 h2 h3).toBuf (Val := Elt Ideal) v = v := rfl

set_option maxHeartbeats 400000 in
/-- After the selection (the scale where the in-degree is positive, zero elsewhere) the vector of node scales is the
    reference's. -/
theorem w2_v16 :
    Cert.KernelIdeal.Gen.W2 (F := Ideal) m ρ c (Proc.devRef .tc Cert.KernelIdeal.main_v16) = Cert.ReferenceIdeal.ReadP.val_main_v16 (F := Ideal) (m ((c : Thread Cert.KernelIdeal.nD Cert.KernelIdeal.τ).loc Cert.KernelIdeal.main_arg1)) := by
  have h14 := w1_v14 m ρ c
  have h15 := w1_v15 m ρ c
  have hc := w1_cst_2 m ρ c
  show StableHlo.after (Cert.KernelIdeal.Gen.hostOps0_1 (F := Ideal)) (Cert.KernelIdeal.Gen.W1 (F := Ideal) m ρ c) (Proc.devRef .tc Cert.KernelIdeal.main_v16) = _
  generalize Cert.KernelIdeal.Gen.W1 (F := Ideal) m ρ c = G at h14 h15 hc ⊢
  after_results_simp
  rw [h14, h15, hc]
  unfold Cert.ReferenceIdeal.ReadP.val_main_v16 Cert.ReferenceIdeal.ReadP.val_main_call0_v1 Cert.ReferenceIdeal.ReadP.val_main_call0_v0
  rw [toBuf_v16, ofBuf_v14, ofBuf_v15, ofBuf_c1, toBuf_c1, ofBuf_c0, toBuf_c0, ofBuf_cst2]

set_option maxHeartbeats 400000 in
/-- At the first region's entry the kernel program's column of node scales is the reference's vector of node scales,
    kept as a column. -/
theorem scale_column :
    (Cert.KernelIdeal.Gen.W3 (F := Ideal) m ρ c (Proc.devRef .tc Cert.KernelIdeal.main_v17) : Cert.KernelIdeal.S50000x1.Idx → EReal)
      = shapeCast Cert.KernelIdeal.S50000x1
          (Cert.ReferenceIdeal.ReadP.val_main_v16 (F := Ideal) (m ((c : Thread Cert.KernelIdeal.nD Cert.KernelIdeal.τ).loc Cert.KernelIdeal.main_arg1)) : Cert.KernelIdeal.S50000.Idx → EReal)
          Cert.KernelIdeal.Facts₀.shapeCasts_S50000_S50000x1 := by
  have h16 := w2_v16 m ρ c
  show StableHlo.after (Cert.KernelIdeal.Gen.hostOps0_2 (F := Ideal)) (Cert.KernelIdeal.Gen.W2 (F := Ideal) m ρ c) (Proc.devRef .tc Cert.KernelIdeal.main_v17) = _
  generalize Cert.KernelIdeal.Gen.W2 (F := Ideal) m ρ c = G at h16 ⊢
  after_results_simp
  rw [h16]
  all_goals rfl

/-- Node n's scale: the kernel program's column at row n is the reference's vector at n. -/
theorem node_scale (n : Fin 50000) :
    Cert.Gcn.col0 (α := EReal) (Cert.KernelIdeal.Gen.W3 (F := Ideal) m ρ c (Proc.devRef .tc Cert.KernelIdeal.main_v17)) n
      = Cert.Gcn.cur1 (α := EReal) (Cert.ReferenceIdeal.ReadP.val_main_v16 (F := Ideal) (m ((c : Thread Cert.KernelIdeal.nD Cert.KernelIdeal.τ).loc Cert.KernelIdeal.main_arg1))) n := by
  unfold Cert.Gcn.col0 Cert.Gcn.cur1
  refine (congrFun (scale_column m ρ c) (ix2 n (0 : Fin 1))).trans ?_
  exact Cert.Keepdims.column_cast_apply _ _ n

end Cert.Bridge

end
-- ==== Proof.BridgePool.lean ====
/-
  The two programs pool the node features by graph with the same function.

  Each program sums the node features by graph index into 16 rows, counts the nodes of each graph by summing ones the
  same way, clips the count below at one, and divides row by row.  Each names this as one function of the features and
  the graph indices over its own copies of the shapes and of the two scatter records; the copies hold the same data, so
  the two functions are the same term.
-/
import proofs.«165119_j21320217657456_2_alg».proof.Proof.KStages
import proofs.«165119_j21320217657456_2_alg».proof.Proof.RefPool

namespace Cert.Bridge

open Idealize.ShloMosaic

/-- The kernel program's pool and the reference's are one function. -/
theorem pool_agree (h : (⟨2, ![50000, 256]⟩ : Shape).Idx → EReal) (b : (⟨1, ![50000]⟩ : Shape).Idx → BitVec 32) :
    Cert.KernelIdeal.KVal.poolK h b = Cert.ReferenceIdeal.RefVal.poolR h b := rfl

end Cert.Bridge
-- ==== Proof.BridgeIdx.lean ====
/-
  A two-axis array is determined by its reading as a function of its two coordinates.

  Every index of a two-axis array is the index built from its two coordinates, so two arrays whose readings
  (p, q) ↦ A (p, q) agree at every pair of coordinates agree at every index.
-/
import proofs.«165119_j21320217657456_2_alg».proof.Proof.Spec
import Idealize.ShloMosaic.Lib.ValueIdx

namespace Cert.Bridge

open Idealize.ShloMosaic Idealize.ShloMosaic.ValueIdx

/-- Two two-axis arrays with the same reading by coordinates are equal. -/
theorem cur_inj {α : Type} {a b : ℕ} {A B : (⟨2, ![a, b]⟩ : Shape).Idx → α} (h : Cert.Gcn.cur A = Cert.Gcn.cur B) :
    A = B :=
  funext fun i =>
    (congrArg A (eq_ix2 i)).trans ((congrFun (congrFun h (i 0)) (i 1)).trans (congrArg B (eq_ix2 i)).symm)

end Cert.Bridge
-- ==== Proof.Bridge.lean ====
/-
  The two idealized programs end with the same result.

  The kernel program's result is the head applied to the pool of the stack's features in the arrangement that scales
  each row before the edges read it and each sum after; the reference's is the same head and pool over the stack in the
  arrangement that scales every edge by both of its ends' factors.  Both programs compute the graph (source node and
  destination number of each edge), the node factors and the pool by the same host operations of the same arguments,
  so those agree outright.  The two arrangements agree because every node factor is nonnegative and not +∞ (an inverse
  square root of a positive number, or 0), so it moves across the edge sum, and because an edge that adds at node c has a
  destination word that a source-style reading (negative words moved up, then clamped) also reads as c.
-/
import proofs.«165119_j21320217657456_2_alg».proof.Proof.KChain
import proofs.«165119_j21320217657456_2_alg».proof.Proof.RefOut
import proofs.«165119_j21320217657456_2_alg».proof.Proof.BridgePrelude
import proofs.«165119_j21320217657456_2_alg».proof.Proof.BridgePool
import proofs.«165119_j21320217657456_2_alg».proof.Proof.BridgeIdx

set_option maxRecDepth 16384

noncomputable section

namespace Cert.Bridge

open Cert.Gcn Idealize.ShloMosaic Idealize.ShloMosaic.TcCoe Idealize.ShloMosaic.ValueIdx
open Cert.KernelIdeal.KVal Cert.ReferenceIdeal.RefVal Cert.ReferenceIdeal.ReadP

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The stack's features before pooling: the kernel program's array is the reference's stage, at the same arguments. -/
theorem stack_agree :
    Cert.KernelIdeal.Gen.W10 (F := Ideal) m ρ c (Proc.devRef .tc Cert.KernelIdeal.main_v57)
      = val_main_v85 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  refine cur_inj (α := EReal) ?_
  rw [stack_eq m ρ c]
  funext n k
  rw [show cur (α := EReal) (val_main_v85 (F := Ideal) _ _ _ _ _ _ _ _) n k = val_main_v85 (F := Ideal) _ _ _ _ _ _ _ _ (ix2 n k) from rfl,
    feat3_apply]
  have hs : srcK m ρ c = srcR (m ((c : Thread Cert.KernelIdeal.nD Cert.KernelIdeal.τ).loc Cert.KernelIdeal.main_arg1)) := by
    unfold srcK srcR; rw [row_words m ρ c]
  have hd : dstK m ρ c = dstR (m ((c : Thread Cert.KernelIdeal.nD Cert.KernelIdeal.τ).loc Cert.KernelIdeal.main_arg1)) := by
    unfold dstK dstR; rw [col_words m ρ c]
  have hf : dK m ρ c = dR (m ((c : Thread Cert.KernelIdeal.nD Cert.KernelIdeal.τ).loc Cert.KernelIdeal.main_arg1)) :=
    funext fun n => node_scale m ρ c n
  rw [hs, hd, hf]
  exact congrFun (congrFun (net_agree _ (dstR' _) _ _ _ _ _ _ _ _ _ (dR_bound _)
    (fun e c' hc => src_of_dst (by decide) 50000#32 _ c' hc)) n) k

/-- The results agree entry by entry, hence as arrays. -/
theorem result_agree
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.ValueP.res_main_v101 (F := Ideal) m' c
      = Cert.KernelIdeal.Gen.W12 (F := Ideal) m ρ c (Proc.devRef .tc Cert.KernelIdeal.main_v71) := by
  rw [val_main_v101_eq (F := Ideal) m' c, h0, h1, h2, h3, h4, h5, h6, h7, h8, h9, h10]
  refine cur_inj (α := EReal) ?_
  funext p q
  refine (out_apply _ _ _ _ _ _ _ _ _ _ _ p q).trans ?_
  refine Eq.trans ?_ (result_apply m ρ c p q).symm
  rw [← stack_agree m ρ c, pool_agree]

end Cert.Bridge

end
-- ==== Proof.lean ====
/-
  The certificate of a three-layer graph convolution network: a kernel program of five kernel regions among host
  operations against its plain reference, on the extended reals.

  The network: with one factor d n per node (the inverse square root of the node's in-degree counting a self-loop, or 0
  where the degree is not positive), each layer maps node features f to  relu (A (f W) + b),  (A h) c = the sum over the
  edges e into c of h (src e) · d (src e) · d c;  after three layers the features are mean-pooled by graph and a linear
  head is applied.  The reference multiplies every edge's row by the product of its two ends' factors and sums.  The
  kernel program scales each projected row once by its own node's factor inside the projecting kernel, lets the host
  gather and sum the rows as they are, and scales the sum by the receiving node's factor inside the next kernel, fused
  with the bias, the clip and the next projection.  On the extended reals the two agree because each factor is
  nonnegative and finite, so it moves across the edge sum whatever the summands are (no finiteness of the features is
  used: the precondition is never opened); changes of float format are the identity there, and a matrix product onto
  the zero block is the plain sum over the shared axis on both sides.

  The three frames: the two kernel programs' are the frame runs of their five regions and the host stretches between
  them; the reference's is its run with the result forgotten.  The idealization rewrote nothing, so there is nothing to
  preserve.  The value claim: the kernel program's run ends with its result array at the last boundary's contents
  (KRun), which are the head of the pool of the stack's features (KChain, over the regions' closed forms KReg0 … KReg4
  and the host stretches KStages); the reference's run ends at its composed term, read stage by stage (RefLayer1 … 3,
  RefOut); Bridge joins the two.
-/
import proofs.«165119_j21320217657456_2_alg».proof.Defs
import proofs.«165119_j21320217657456_2_alg».proof.Proof.Gen.Kernel
import proofs.«165119_j21320217657456_2_alg».proof.Proof.Gen.Kernel.Skeleton
import proofs.«165119_j21320217657456_2_alg».proof.Proof.Gen.Kernel.Launch
import proofs.«165119_j21320217657456_2_alg».proof.Proof.Gen.Kernel.Points
import proofs.«165119_j21320217657456_2_alg».proof.Proof.Gen.Kernel.Frame
import proofs.«165119_j21320217657456_2_alg».proof.Proof.Gen.KernelIdeal
import proofs.«165119_j21320217657456_2_alg».proof.Proof.Gen.KernelIdeal.Skeleton
import proofs.«165119_j21320217657456_2_alg».proof.Proof.Gen.KernelIdeal.Launch
import proofs.«165119_j21320217657456_2_alg».proof.Proof.Gen.KernelIdeal.Points
import proofs.«165119_j21320217657456_2_alg».proof.Proof.Gen.KernelIdeal.Frame
import proofs.«165119_j21320217657456_2_alg».proof.Proof.Gen.ReferenceIdeal
import proofs.«165119_j21320217657456_2_alg».proof.Proof.Gen.Pre_finite_inputs
import proofs.«165119_j21320217657456_2_alg».proof.Proof.KRun
import proofs.«165119_j21320217657456_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result forgotten. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs, from memories agreeing on the arguments, end with the same result array: the kernel
    program's run names its result, the reference's run ends at its composed term, and the two are equal. -/
theorem algebraic : Cert.algebraic_KernelIdeal_ReferenceIdeal := by
  intro m ρ m' ρ' _ hagree
  refine ⟨fun c => Cert.KernelIdeal.Gen.W12 (F := Ideal) m ρ c (Proc.devRef .tc Cert.KernelIdeal.main_v71),
    Cert.KernelIdeal.KVal.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  exact Cert.Bridge.result_agree m ρ c m' h0 h1 h2 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
